-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v234) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x128 : Shape := ⟨2, ![131072, 128]⟩
abbrev S384x128 : Shape := ⟨2, ![384, 128]⟩
abbrev S384 : Shape := ⟨1, ![384]⟩
abbrev S384x256 : Shape := ⟨2, ![384, 256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x10 : Shape := ⟨2, ![64, 10]⟩
abbrev S10 : Shape := ⟨1, ![10]⟩
abbrev S_ : Shape := ⟨0, ![]⟩

class Facts : Prop where
  bcast_S_S131072x128 : S_.BroadcastsInDim S131072x128 (![] : Fin 0 → Fin S131072x128.rank)
  reducesTo_S131072x128_S_d0_1 : S131072x128.ReducesTo [0, 1] S_
  h_S_ : 0 < S_.numel
  bcast_S_S384x128 : S_.BroadcastsInDim S384x128 (![] : Fin 0 → Fin S384x128.rank)
  reducesTo_S384x128_S_d0_1 : S384x128.ReducesTo [0, 1] S_
  bcast_S_S384 : S_.BroadcastsInDim S384 (![] : Fin 0 → Fin S384.rank)
  reducesTo_S384_S_d0 : S384.ReducesTo [0] S_
  bcast_S_S384x256 : S_.BroadcastsInDim S384x256 (![] : Fin 0 → Fin S384x256.rank)
  reducesTo_S384x256_S_d0_1 : S384x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part5 {F : FTy → Type} [FloatOps F] (main_arg18 : FVec F S10 .f32) (main_v83 : IVec S_ 1) (main_v84 : FVec F S64x10 .f32) (main_cst_32 : FVec F S_ .f32) : IVec S_ 1 :=
  let main_v85 : FVec F S64x10 .f32 := broadcastInDim S64x10 ![] bcast_S_S64x10 main_cst_32
  let main_v86 : IVec S64x10 1 := cmpf .olt main_v84 main_v85
  let main_c_33 : IVec S_ 1 := constantI S_ 1 1#1
  let main_v87 : IVec S_ 1 := (fun x v => Host.reduce IntOp.andi x v reducesTo_S64x10_S_d0_1 h_S_) main_v86 main_c_33
  let main_v88 : IVec S_ 1 := andi main_v83 main_v87
  let main_v89 : FVec F S10 .f32 := Host.absf main_arg18
  let main_cst_34 : FVec F S_ .f32 := constant S_ .f32 0x7F800000#32
  let main_v90 : FVec F S10 .f32 := broadcastInDim S10 ![] bcast_S_S10 main_cst_34
  let main_v91 : IVec S10 1 := cmpf .olt main_v89 main_v90
  let main_c_35 : IVec S_ 1 := constantI S_ 1 1#1
  let main_v92 : IVec S_ 1 := (fun x v => Host.reduce IntOp.andi x v reducesTo_S10_S_d0 h_S_) main_v91 main_c_35
  let main_v93 : IVec S_ 1 := andi main_v88 main_v92
  main_v93

def fn_part4 {F : FTy → Type} [FloatOps F] (main_arg14 : FVec F S128 .f32) (main_arg15 : FVec F S128x64 .f32) (main_arg16 : FVec F S64 .f32) (main_arg17 : FVec F S64x10 .f32) (main_arg18 : FVec F S10 .f32) (main_v63 : IVec S_ 1) (main_v67 : IVec S_ 1) : IVec S_ 1 :=
  let main_v68 : IVec S_ 1 := andi main_v63 main_v67
  let main_v69 : FVec F S128 .f32 := Host.absf main_arg14
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x64 .f32 := Host.absf main_arg15
  let main_cst_28 : FVec F S_ .f32 := constant S_ .f32 0x7F800000#32
  let main_v75 : FVec F S128x64 .f32 := broadcastInDim S128x64 ![] bcast_S_S128x64 main_cst_28
  let main_v76 : IVec S128x64 1 := cmpf .olt main_v74 main_v75
  let main_c_29 : IVec S_ 1 := constantI S_ 1 1#1
  let main_v77 : IVec S_ 1 := (fun x v => Host.reduce IntOp.andi x v reducesTo_S128x64_S_d0_1 h_S_) main_v76 main_c_29
  let main_v78 : IVec S_ 1 := andi main_v73 main_v77
  let main_v79 : FVec F S64 .f32 := Host.absf main_arg16
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64x10 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S384 .f32) (main_arg12 : FVec F S384 .f32) (main_arg13 : FVec F S256x128 .f32) (main_arg14 : FVec F S128 .f32) (main_arg15 : FVec F S128x64 .f32) (main_arg16 : FVec F S64 .f32) (main_arg17 : FVec F S64x10 .f32) (main_arg18 : FVec F S10 .f32) (main_v48 : IVec S_ 1) (main_v49 : FVec F S384x256 .f32) (main_v50 : FVec F S384x256 .f32) : IVec S_ 1 :=
  let main_v51 : IVec S384x256 1 := cmpf .olt main_v49 main_v50
  let main_c_19 : IVec S_ 1 := constantI S_ 1 1#1
  let main_v52 : IVec S_ 1 := (fun x v => Host.reduce IntOp.andi x v reducesTo_S384x256_S_d0_1 h_S_) main_v51 main_c_19
  let main_v53 : IVec S_ 1 := andi main_v48 main_v52
  let main_v54 : FVec F S384 .f32 := Host.absf main_arg11
  let main_cst_20 : FVec F S_ .f32 := constant S_ .f32 0x7F800000#32
  let main_v55 : FVec F S384 .f32 := broadcastInDim S384 ![] bcast_S_S384 main_cst_20
  let main_v56 : IVec S384 1 := cmpf .olt main_v54 main_v55
  let main_c_21 : IVec S_ 1 := constantI S_ 1 1#1
  let main_v57 : IVec S_ 1 := (fun x v => Host.reduce IntOp.andi x v reducesTo_S384_S_d0 h_S_) main_v56 main_c_21
  let main_v58 : IVec S_ 1 := andi main_v53 main_v57
  let main_v59 : FVec F S384 .f32 := Host.absf main_arg12
  let main_cst_22 : FVec F S_ .f32 := constant S_ .f32 0x7F800000#32
  let main_v60 : FVec F S384 .f32 := broadcastInDim S384 ![] bcast_S_S384 main_cst_22
  let main_v61 : IVec S384 1 := cmpf .olt main_v59 main_v60
  let main_c_23 : IVec S_ 1 := constantI S_ 1 1#1
  let main_v62 : IVec S_ 1 := (fun x v => Host.reduce IntOp.andi x v reducesTo_S384_S_d0 h_S_) main_v61 main_c_23
  let main_v63 : IVec S_ 1 := andi main_v58 main_v62
  let main_v64 : FVec F S256x128 .f32 := Host.absf main_arg13
  let main_cst_24 : FVec F S_ .f32 := constant S_ .f32 0x7F800000#32
  let main_v65 : FVec F S256x128 .f32 := broadcastInDim S256x128 ![] bcast_S_S256x128 main_cst_24
  let main_v66 : IVec S256x128 1 := cmpf .olt main_v64 main_v65
  let main_c_25 : IVec S_ 1 := constantI S_ 1 1#1
  let main_v67 : IVec S_ 1 := (fun x v => Host.reduce IntOp.andi x v reducesTo_S256x128_S_d0_1 h_S_) main_v66 main_c_25
  fn_part4 (F := F) main_arg14 main_arg15 main_arg16 main_arg17 main_arg18 main_v63 main_v67

def fn_part2 {F : FTy → Type} [FloatOps F] (main_arg7 : FVec F S384x256 .f32) (main_arg8 : FVec F S384 .f32) (main_arg9 : FVec F S384 .f32) (main_arg10 : FVec F S384x256 .f32) (main_arg11 : FVec F S384 .f32) (main_arg12 : FVec F S384 .f32) (main_arg13 : FVec F S256x128 .f32) (main_arg14 : FVec F S128 .f32) (main_arg15 : FVec F S128x64 .f32) (main_arg16 : FVec F S64 .f32) (main_arg17 : FVec F S64x10 .f32) (main_arg18 : FVec F S10 .f32) (main_v33 : IVec S_ 1) : IVec S_ 1 :=
  let main_v34 : FVec F S384x256 .f32 := Host.absf main_arg7
  let main_cst_12 : FVec F S_ .f32 := constant S_ .f32 0x7F800000#32
  let main_v35 : FVec F S384x256 .f32 := broadcastInDim S384x256 ![] bcast_S_S384x256 main_cst_12
  let main_v36 : IVec S384x256 1 := cmpf .olt main_v34 main_v35
  let main_c_13 : IVec S_ 1 := constantI S_ 1 1#1
  let main_v37 : IVec S_ 1 := (fun x v => Host.reduce IntOp.andi x v reducesTo_S384x256_S_d0_1 h_S_) main_v36 main_c_13
  let main_v38 : IVec S_ 1 := andi main_v33 main_v37
  let main_v39 : FVec F S384 .f32 := Host.absf main_arg8
  let main_cst_14 : FVec F S_ .f32 := constant S_ .f32 0x7F800000#32
  let main_v40 : FVec F S384 .f32 := broadcastInDim S384 ![] bcast_S_S384 main_cst_14
  let main_v41 : IVec S384 1 := cmpf .olt main_v39 main_v40
  let main_c_15 : IVec S_ 1 := constantI S_ 1 1#1
  let main_v42 : IVec S_ 1 := (fun x v => Host.reduce IntOp.andi x v reducesTo_S384_S_d0 h_S_) main_v41 main_c_15
  let main_v43 : IVec S_ 1 := andi main_v38 main_v42
  let main_v44 : FVec F S384 .f32 := Host.absf main_arg9
  let main_cst_16 : FVec F S_ .f32 := constant S_ .f32 0x7F800000#32
  let main_v45 : FVec F S384 .f32 := broadcastInDim S384 ![] bcast_S_S384 main_cst_16
  let main_v46 : IVec S384 1 := cmpf .olt main_v44 main_v45
  let main_c_17 : IVec S_ 1 := constantI S_ 1 1#1
  let main_v47 : IVec S_ 1 := (fun x v => Host.reduce IntOp.andi x v reducesTo_S384_S_d0 h_S_) main_v46 main_c_17
  let main_v48 : IVec S_ 1 := andi main_v43 main_v47
  let main_v49 : FVec F S384x256 .f32 := Host.absf main_arg10
  let main_cst_18 : FVec F S_ .f32 := constant S_ .f32 0x7F800000#32
  let main_v50 : FVec F S384x256 .f32 := broadcastInDim S384x256 ![] bcast_S_S384x256 main_cst_18
  fn_part3 (F := F) main_arg11 main_arg12 main_arg13 main_arg14 main_arg15 main_arg16 main_arg17 main_arg18 main_v48 main_v49 main_v50

def fn_part1 {F : FTy → Type} [FloatOps F] (main_arg4 : FVec F S384x128 .f32) (main_arg5 : FVec F S384 .f32) (main_arg6 : FVec F S384 .f32) (main_arg7 : FVec F S384x256 .f32) (main_arg8 : FVec F S384 .f32) (main_arg9 : FVec F S384 .f32) (main_arg10 : FVec F S384x256 .f32) (main_arg11 : FVec F S384 .f32) (main_arg12 : FVec F S384 .f32) (main_arg13 : FVec F S256x128 .f32) (main_arg14 : FVec F S128 .f32) (main_arg15 : FVec F S128x64 .f32) (main_arg16 : FVec F S64 .f32) (main_arg17 : FVec F S64x10 .f32) (main_arg18 : FVec F S10 .f32) (main_v13 : IVec S_ 1) (main_v16 : IVec S384 1) : IVec S_ 1 :=
  let main_c_5 : IVec S_ 1 := constantI S_ 1 1#1
  let main_v17 : IVec S_ 1 := (fun x v => Host.reduce IntOp.andi x v reducesTo_S384_S_d0 h_S_) main_v16 main_c_5
  let main_v18 : IVec S_ 1 := andi main_v13 main_v17
  let main_v19 : FVec F S384x128 .f32 := Host.absf main_arg4
  let main_cst_6 : FVec F S_ .f32 := constant S_ .f32 0x7F800000#32
  let main_v20 : FVec F S384x128 .f32 := broadcastInDim S384x128 ![] bcast_S_S384x128 main_cst_6
  let main_v21 : IVec S384x128 1 := cmpf .olt main_v19 main_v20
  let main_c_7 : IVec S_ 1 := constantI S_ 1 1#1
  let main_v22 : IVec S_ 1 := (fun x v => Host.reduce IntOp.andi x v reducesTo_S384x128_S_d0_1 h_S_) main_v21 main_c_7
  let main_v23 : IVec S_ 1 := andi main_v18 main_v22
  let main_v24 : FVec F S384 .f32 := Host.absf main_arg5
  let main_cst_8 : FVec F S_ .f32 := constant S_ .f32 0x7F800000#32
  let main_v25 : FVec F S384 .f32 := broadcastInDim S384 ![] bcast_S_S384 main_cst_8
  let main_v26 : IVec S384 1 := cmpf .olt main_v24 main_v25
  let main_c_9 : IVec S_ 1 := constantI S_ 1 1#1
  let main_v27 : IVec S_ 1 := (fun x v => Host.reduce IntOp.andi x v reducesTo_S384_S_d0 h_S_) main_v26 main_c_9
  let main_v28 : IVec S_ 1 := andi main_v23 main_v27
  let main_v29 : FVec F S384 .f32 := Host.absf main_arg6
  let main_cst_10 : FVec F S_ .f32 := constant S_ .f32 0x7F800000#32
  let main_v30 : FVec F S384 .f32 := broadcastInDim S384 ![] bcast_S_S384 main_cst_10
  let main_v31 : IVec S384 1 := cmpf .olt main_v29 main_v30
  let main_c_11 : IVec S_ 1 := constantI S_ 1 1#1
  let main_v32 : IVec S_ 1 := (fun x v => Host.reduce IntOp.andi x v reducesTo_S384_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S131072x128 .f32) (main_arg1 : FVec F S384x128 .f32) (main_arg2 : FVec F S384 .f32) (main_arg3 : FVec F S384 .f32) (main_arg4 : FVec F S384x128 .f32) (main_arg5 : FVec F S384 .f32) (main_arg6 : FVec F S384 .f32) (main_arg7 : FVec F S384x256 .f32) (main_arg8 : FVec F S384 .f32) (main_arg9 : FVec F S384 .f32) (main_arg10 : FVec F S384x256 .f32) (main_arg11 : FVec F S384 .f32) (main_arg12 : FVec F S384 .f32) (main_arg13 : FVec F S256x128 .f32) (main_arg14 : FVec F S128 .f32) (main_arg15 : FVec F S128x64 .f32) (main_arg16 : FVec F S64 .f32) (main_arg17 : FVec F S64x10 .f32) (main_arg18 : FVec F S10 .f32) : IVec S_ 1 :=
  let main_v0 : FVec F S131072x128 .f32 := Host.absf main_arg0
  let main_cst : FVec F S_ .f32 := constant S_ .f32 0x7F800000#32
  let main_v1 : FVec F S131072x128 .f32 := broadcastInDim S131072x128 ![] bcast_S_S131072x128 main_cst
  let main_v2 : IVec S131072x128 1 := cmpf .olt main_v0 main_v1
  let main_c : IVec S_ 1 := constantI S_ 1 1#1
  let main_v3 : IVec S_ 1 := (fun x v => Host.reduce IntOp.andi x v reducesTo_S131072x128_S_d0_1 h_S_) main_v2 main_c
  let main_v4 : FVec F S384x128 .f32 := Host.absf main_arg1
  let main_cst_0 : FVec F S_ .f32 := constant S_ .f32 0x7F800000#32
  let main_v5 : FVec F S384x128 .f32 := broadcastInDim S384x128 ![] bcast_S_S384x128 main_cst_0
  let main_v6 : IVec S384x128 1 := cmpf .olt main_v4 main_v5
  let main_c_1 : IVec S_ 1 := constantI S_ 1 1#1
  let main_v7 : IVec S_ 1 := (fun x v => Host.reduce IntOp.andi x v reducesTo_S384x128_S_d0_1 h_S_) main_v6 main_c_1
  let main_v8 : IVec S_ 1 := andi main_v3 main_v7
  let main_v9 : FVec F S384 .f32 := Host.absf main_arg2
  let main_cst_2 : FVec F S_ .f32 := constant S_ .f32 0x7F800000#32
  let main_v10 : FVec F S384 .f32 := broadcastInDim S384 ![] bcast_S_S384 main_cst_2
  let main_v11 : IVec S384 1 := cmpf .olt main_v9 main_v10
  let main_c_3 : IVec S_ 1 := constantI S_ 1 1#1
  let main_v12 : IVec S_ 1 := (fun x v => Host.reduce IntOp.andi x v reducesTo_S384_S_d0 h_S_) main_v11 main_c_3
  let main_v13 : IVec S_ 1 := andi main_v8 main_v12
  let main_v14 : FVec F S384 .f32 := Host.absf main_arg3
  let main_cst_4 : FVec F S_ .f32 := constant S_ .f32 0x7F800000#32
  let main_v15 : FVec F S384 .f32 := broadcastInDim S384 ![] bcast_S_S384 main_cst_4
  let main_v16 : IVec S384 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S131072x128 : Shape := ⟨2, ![131072, 128]⟩
abbrev S384x128 : Shape := ⟨2, ![384, 128]⟩
abbrev S384 : Shape := ⟨1, ![384]⟩
abbrev S384x256 : Shape := ⟨2, ![384, 256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x10 : Shape := ⟨2, ![64, 10]⟩
abbrev S10 : Shape := ⟨1, ![10]⟩
abbrev S128x384 : Shape := ⟨2, ![128, 384]⟩
abbrev S128x768 : Shape := ⟨2, ![128, 768]⟩
abbrev S768 : Shape := ⟨1, ![768]⟩
abbrev S256x384 : Shape := ⟨2, ![256, 384]⟩
abbrev S256x768 : Shape := ⟨2, ![256, 768]⟩
abbrev S131072x10 : Shape := ⟨2, ![131072, 10]⟩
abbrev S1024x128 : Shape := ⟨2, ![1024, 128]⟩
abbrev S8x128 : Shape := ⟨2, ![8, 128]⟩
abbrev S1024x10 : Shape := ⟨2, ![1024, 10]⟩
abbrev S1040x128 : Shape := ⟨2, ![1040, 128]⟩
abbrev S1040x768 : Shape := ⟨2, ![1040, 768]⟩
abbrev S1x768 : Shape := ⟨2, ![1, 768]⟩
abbrev S1040x384 : Shape := ⟨2, ![1040, 384]⟩
abbrev S1x128 : Shape := ⟨2, ![1, 128]⟩
abbrev S1040x256 : Shape := ⟨2, ![1040, 256]⟩
abbrev S1040x1 : Shape := ⟨2, ![1040, 1]⟩
abbrev S1040x64 : Shape := ⟨2, ![1040, 64]⟩
abbrev S1x64 : Shape := ⟨2, ![1, 64]⟩
abbrev S1024x64 : Shape := ⟨2, ![1024, 64]⟩
abbrev S1x10 : Shape := ⟨2, ![1, 10]⟩

abbrev nBuf : Space → Nat
  | .hbm => 35
  | .vmem => 20
  | .smem => 0
  | _ => 0

abbrev bufTy : (tb : Table) → Fin (tcTables nBuf tb) → BufTy
  | .hbm, ⟨0, _⟩ => ⟨S131072x128, .f32⟩
  | .hbm, ⟨1, _⟩ => ⟨S384x128, .f32⟩
  | .hbm, ⟨2, _⟩ => ⟨S384, .f32⟩
  | .hbm, ⟨3, _⟩ => ⟨S384, .f32⟩
  | .hbm, ⟨4, _⟩ => ⟨S384x128, .f32⟩
  | .hbm, ⟨5, _⟩ => ⟨S384, .f32⟩
  | .hbm, ⟨6, _⟩ => ⟨S384, .f32⟩
  | .hbm, ⟨7, _⟩ => ⟨S384x256, .f32⟩
  | .hbm, ⟨8, _⟩ => ⟨S384, .f32⟩
  | .hbm, ⟨9, _⟩ => ⟨S384, .f32⟩
  | .hbm, ⟨10, _⟩ => ⟨S384x256, .f32⟩
  | .hbm, ⟨11, _⟩ => ⟨S384, .f32⟩
  | .hbm, ⟨12, _⟩ => ⟨S384, .f32⟩
  | .hbm, ⟨13, _⟩ => ⟨S256x128, .f32⟩
  | .hbm, ⟨14, _⟩ => ⟨S128, .f32⟩
  | .hbm, ⟨15, _⟩ => ⟨S128x64, .f32⟩
  | .hbm, ⟨16, _⟩ => ⟨S64, .f32⟩
  | .hbm, ⟨17, _⟩ => ⟨S64x10, .f32⟩
  | .hbm, ⟨18, _⟩ => ⟨S10, .f32⟩
  | .hbm, ⟨19, _⟩ => ⟨S128x384, .f32⟩
  | .hbm, ⟨20, _⟩ => ⟨S128x384, .f32⟩
  | .hbm, ⟨21, _⟩ => ⟨S128x768, .f32⟩
  | .hbm, ⟨22, _⟩ => ⟨S128x768, .bf16⟩
  | .hbm, ⟨23, _⟩ => ⟨S768, .f32⟩
  | .hbm, ⟨24, _⟩ => ⟨S768, .f32⟩
  | .hbm, ⟨25, _⟩ => ⟨S256x384, .f32⟩
  | .hbm, ⟨26, _⟩ => ⟨S256x384, .f32⟩
  | .hbm, ⟨27, _⟩ => ⟨S256x768, .f32⟩
  | .hbm, ⟨28, _⟩ => ⟨S256x768, .bf16⟩
  | .hbm, ⟨29, _⟩ => ⟨S768, .f32⟩
  | .hbm, ⟨30, _⟩ => ⟨S768, .f32⟩
  | .hbm, ⟨31, _⟩ => ⟨S256x128, .bf16⟩
  | .hbm, ⟨32, _⟩ => ⟨S128x64, .bf16⟩
  | .hbm, ⟨33, _⟩ => ⟨S64x10, .bf16⟩
  | .hbm, ⟨34, _⟩ => ⟨S131072x10, .f32⟩
  | .local _ .vmem, ⟨0, _⟩ => ⟨S1024x128, .f32⟩
  | .local _ .vmem, ⟨1, _⟩ => ⟨S1024x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S128x768, .bf16⟩
  | .local _ .vmem, ⟨7, _⟩ => ⟨S768, .f32⟩
  | .local _ .vmem, ⟨8, _⟩ => ⟨S768, .f32⟩
  | .local _ .vmem, ⟨9, _⟩ => ⟨S256x768, .bf16⟩
  | .local _ .vmem, ⟨10, _⟩ => ⟨S768, .f32⟩
  | .local _ .vmem, ⟨11, _⟩ => ⟨S768, .f32⟩
  | .local _ .vmem, ⟨12, _⟩ => ⟨S256x128, .bf16⟩
  | .local _ .vmem, ⟨13, _⟩ => ⟨S128, .f32⟩
  | .local _ .vmem, ⟨14, _⟩ => ⟨S128x64, .bf16⟩
  | .local _ .vmem, ⟨15, _⟩ => ⟨S64, .f32⟩
  | .local _ .vmem, ⟨16, _⟩ => ⟨S64x10, .bf16⟩
  | .local _ .vmem, ⟨17, _⟩ => ⟨S10, .f32⟩
  | .local _ .vmem, ⟨18, _⟩ => ⟨S1024x10, .f32⟩
  | .local _ .vmem, ⟨19, _⟩ => ⟨S1024x10, .f32⟩
  | _, _ => ⟨S131072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c128_i32 : BitVec 32 := 128#32
  let v0 : BitVec 32 := Scalar.muli arg0 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c128_i32 : BitVec 32 := 128#32
  let v1 : BitVec 32 := Scalar.muli v0 c128_i32
  let c16383_i32 : BitVec 32 := 16383#32
  let v2 : BitVec 32 := Scalar.minsi v1 c16383_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x768 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x64 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S64x10 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S10 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S1024x10 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  transposes_S384x128_S128x384_1_0 : S384x128.Transposes [1, 0] S128x384
  concatenates_S128x384_S128x384_S128x768_d1 : Shape.Concatenates [S128x384, S128x384] S128x768 1
  bitsLt_bf16_f32 : FTy.bits .bf16 < FTy.bits .f32
  concatenates_S384_S384_S768_d0 : Shape.Concatenates [S384, S384] S768 0
  transposes_S384x256_S256x384_1_0 : S384x256.Transposes [1, 0] S256x384
  concatenates_S256x384_S256x384_S256x768_d1 : Shape.Concatenates [S256x384, S256x384] S256x768 1
  inb_S8x128_S8x128_0_0 : ∀ a, (![0, 0] : Fin 2 → Nat) a + S8x128.size a ≤ S8x128.size a
  h_S8x128 : 0 < S8x128.numel
  inb_S1024x128_S1024x128_0_0 : ∀ a, (![0, 0] : Fin 2 → Nat) a + S1024x128.size a ≤ S1024x128.size a
  h_S1024x128 : 0 < S1024x128.numel
  concatenates_S8x128_S1024x128_S8x128_S1040x128_d0 : Shape.Concatenates [S8x128, S1024x128, S8x128] S1040x128 0
  inb_S128x768_S128x768_0_0 : ∀ a, (![0, 0] : Fin 2 → Nat) a + S128x768.size a ≤ S128x768.size a
  h_S128x768 : 0 < S128x768.numel
  shapeCasts_S128x768_S128x768 : S128x768.ShapeCasts S128x768
  inb_S768_S768_0 : ∀ a, (![0] : Fin 1 → Nat) a + S768.size a ≤ S768.size a
  h_S768 : 0 < S768.numel
  shapeCasts_S768_S768 : S768.ShapeCasts S768
  shapeCasts_S768_S1x768 : S768.ShapeCasts S1x768
  broadcasts_S1x768_S1040x768 : S1x768.Broadcasts S1040x768
  slices_S1040x768_o0_0_S1040x384 : S1040x768.Slices ![0, 0] S1040x384
  slices_S1040x768_o0_384_S1040x384 : S1040x768.Slices ![0, 384] S1040x384
  slices_S768_o0_S384 : S768.Slices ![0] S384
  slices_S768_o384_S384 : S768.Slices ![384] S384
  slices_S1040x384_o0_0_S1040x128 : S1040x384.Slices ![0, 0] S1040x128
  slices_S1040x384_o0_128_S1040x128 : S1040x384.Slices ![0, 128] S1040x128
  slices_S1040x384_o0_256_S1040x128 : S1040x384.Slices ![0, 256] S1040x128
  slices_S384_o0_S128 : S384.Slices ![0] S128
  slices_S384_o128_S128 : S384.Slices ![128] S128
  slices_S384_o256_S128 : S384.Slices ![256] S128
  shapeCasts_S128_S1x128 : S128.ShapeCasts S1x128
  broadcasts_S1x128_S1040x128 : S1x128.Broadcasts S1040x128
  concatenates_S1040x128_S1040x128_S1040x256_d1 : Shape.Concatenates [S1040x128, S1040x128] S1040x256 1
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S256x128_S256x128_0_0 : ∀ a, (![0, 0] : Fin 2 → Nat) a + S256x128.size a ≤ S256x128.size a
  h_S256x128 : 0 < S256x128.numel
  shapeCasts_S256x128_S256x128 : S256x128.ShapeCasts S256x128
  iota_S1040x1_d0_w32 : S1040x1.Iotas .tc 32 [0]
  rotates_S1040x1_d0 : S1040x1.Rotates 0 none
  natLt_1_32 : 1 < 32
  rotates_S1040x128_d0 : S1040x128.Rotates 0 none
  broadcasts_S1040x1_S1040x128 : S1040x1.Broadcasts S1040x128
  inb_S128_S128_0 : ∀ a, (![0] : Fin 1 → Nat) a + S128.size a ≤ S128.size a
  h_S128 : 0 < S128.numel
  inb_S128x64_S128x64_0_0 : ∀ a, (![0, 0] : Fin 2 → Nat) a + S128x64.size a ≤ S128x64.size a
  h_S128x64 : 0 < S128x64.numel
  shapeCasts_S128x64_S128x64 : S128x64.ShapeCasts S128x64
  rotates_S1040x64_d0 : S1040x64.Rotates 0 none
  broadcasts_S1040x1_S1040x64 : S1040x1.Broadcasts S1040x64
  inb_S64_S64_0 : ∀ a, (![0] : Fin 1 → Nat) a + S64.size a ≤ S64.size a
  h_S64 : 0 < S64.numel
  shapeCasts_S64_S1x64 : S64.ShapeCasts S1x64
  broadcasts_S1x64_S1040x64 : S1x64.Broadcasts S1040x64
  slices_S1040x64_o8_0_S1024x64 : S1040x64.Slices ![8, 0] S1024x64
  inb_S64x10_S64x10_0_0 : ∀ a, (![0, 0] : Fin 2 → Nat) a + S64x10.size a ≤ S64x10.size a
  h_S64x10 : 0 < S64x10.numel
  shapeCasts_S64x10_S64x10 : S64x10.ShapeCasts S64x10
  inb_S10_S10_0 : ∀ a, (![0] : Fin 1 → Nat) a + S10.size a ≤ S10.size a
  h_S10 : 0 < S10.numel
  shapeCasts_S10_S1x10 : S10.ShapeCasts S1x10
  broadcasts_S1x10_S1024x10 : S1x10.Broadcasts S1024x10
  inb_S1024x10_S1024x10_0_0 : ∀ a, (![0, 0] : Fin 2 → Nat) a + S1024x10.size a ≤ S1024x10.size a
  h_S1024x10 : 0 < S1024x10.numel
  dot_S1040x128_S128x768_S1040x768_1_0_0_1_n_n_wf : DotDims.WF S1040x128 S128x768 S1040x768 [1] [0] [0] [1] [] []
  dot_S1040x256_S256x768_S1040x768_1_0_0_1_n_n_wf : DotDims.WF S1040x256 S256x768 S1040x768 [1] [0] [0] [1] [] []
  dot_S1040x256_S256x128_S1040x128_1_0_0_1_n_n_wf : DotDims.WF S1040x256 S256x128 S1040x128 [1] [0] [0] [1] [] []
  dot_S1040x128_S128x64_S1040x64_1_0_0_1_n_n_wf : DotDims.WF S1040x128 S128x64 S1040x64 [1] [0] [0] [1] [] []
  dot_S1024x64_S64x10_S1024x10_1_0_0_1_n_n_wf : DotDims.WF S1024x64 S64x10 S1024x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S131072x128.size a
  hwx0_0 : ∀ i : grid0.Coords, EltTy.bits .f32 = 32 ∨ (Rect.block (s := S131072x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S131072x128.size a
  hwx0_1 : ∀ i : grid0.Coords, EltTy.bits .f32 = 32 ∨ (Rect.block (s := S131072x128) S8x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S131072x128.size a
  hwx0_2 : ∀ i : grid0.Coords, EltTy.bits .f32 = 32 ∨ (Rect.block (s := S131072x128) S8x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x768.size a ≤ S128x768.size a
  hwx0_3 : ∀ i : grid0.Coords, EltTy.bits .bf16 = 32 ∨ (Rect.block (s := S128x768) S128x768.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S768.size a ≤ S768.size a
  hwx0_4 : ∀ i : grid0.Coords, EltTy.bits .f32 = 32 ∨ (Rect.block (s := S768) S768.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S768.size a ≤ S768.size a
  hwx0_5 : ∀ i : grid0.Coords, EltTy.bits .f32 = 32 ∨ (Rect.block (s := S768) S768.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x768.size a ≤ S256x768.size a
  hwx0_6 : ∀ i : grid0.Coords, EltTy.bits .bf16 = 32 ∨ (Rect.block (s := S256x768) S256x768.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S768.size a ≤ S768.size a
  hwx0_7 : ∀ i : grid0.Coords, EltTy.bits .f32 = 32 ∨ (Rect.block (s := S768) S768.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S768.size a ≤ S768.size a
  hwx0_8 : ∀ i : grid0.Coords, EltTy.bits .f32 = 32 ∨ (Rect.block (s := S768) S768.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x128.size a ≤ S256x128.size a
  hwx0_9 : ∀ i : grid0.Coords, EltTy.bits .bf16 = 32 ∨ (Rect.block (s := S256x128) S256x128.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x64.size a ≤ S128x64.size a
  hwx0_11 : ∀ i : grid0.Coords, EltTy.bits .bf16 = 32 ∨ (Rect.block (s := S128x64) S128x64.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S64.size a ≤ S64.size a
  hwx0_12 : ∀ i : grid0.Coords, EltTy.bits .f32 = 32 ∨ (Rect.block (s := S64) S64.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S64x10.size a ≤ S64x10.size a
  hwx0_13 : ∀ i : grid0.Coords, EltTy.bits .bf16 = 32 ∨ (Rect.block (s := S64x10) S64x10.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S10.size a ≤ S10.size a
  hwx0_14 : ∀ i : grid0.Coords, EltTy.bits .f32 = 32 ∨ (Rect.block (s := S10) S10.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1024x10.size a ≤ S131072x10.size a
  hwx0_15 : ∀ i : grid0.Coords, EltTy.bits .f32 = 32 ∨ (Rect.block (s := S131072x10) S1024x10.size (cc0_transform_15 i) (hinb0_15 i)).WholeWords (EltTy.packing .f32)

variable [Facts₀]

def dot_S1040x128_S128x768_S1040x768_1_0_0_1_n_n : DotDims S1040x128 S128x768 S1040x768 where
  lhsContracting := [1]
  rhsContracting := [0]
  lhsNonContracting := [0]
  rhsNonContracting := [1]
  lhsBatch := []
  rhsBatch := []
  wf := dot_S1040x128_S128x768_S1040x768_1_0_0_1_n_n_wf
def dot_S1040x256_S256x768_S1040x768_1_0_0_1_n_n : DotDims S1040x256 S256x768 S1040x768 where
  lhsContracting := [1]
  rhsContracting := [0]
  lhsNonContracting := [0]
  rhsNonContracting := [1]
  lhsBatch := []
  rhsBatch := []
  wf := dot_S1040x256_S256x768_S1040x768_1_0_0_1_n_n_wf
def dot_S1040x256_S256x128_S1040x128_1_0_0_1_n_n : DotDims S1040x256 S256x128 S1040x128 where
  lhsContracting := [1]
  rhsContracting := [0]
  lhsNonContracting := [0]
  rhsNonContracting := [1]
  lhsBatch := []
  rhsBatch := []
  wf := dot_S1040x256_S256x128_S1040x128_1_0_0_1_n_n_wf
def dot_S1040x128_S128x64_S1040x64_1_0_0_1_n_n : DotDims S1040x128 S128x64 S1040x64 where
  lhsContracting := [1]
  rhsContracting := [0]
  lhsNonContracting := [0]
  rhsNonContracting := [1]
  lhsBatch := []
  rhsBatch := []
  wf := dot_S1040x128_S128x64_S1040x64_1_0_0_1_n_n_wf
def dot_S1024x64_S64x10_S1024x10_1_0_0_1_n_n : DotDims S1024x64 S64x10 S1024x10 where
  lhsContracting := [1]
  rhsContracting := [0]
  lhsNonContracting := [0]
  rhsNonContracting := [1]
  lhsBatch := []
  rhsBatch := []
  wf := dot_S1024x64_S64x10_S1024x10_1_0_0_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S8x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S8x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S128x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S256x768.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S768.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11) S768.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v12) S256x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg14) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v13) S128x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg16) S64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v14) S64x10.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg18) S10.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v15) S1024x10.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S131072x128 : Shape := ⟨2, ![131072, 128]⟩
abbrev S384x128 : Shape := ⟨2, ![384, 128]⟩
abbrev S384 : Shape := ⟨1, ![384]⟩
abbrev S384x256 : Shape := ⟨2, ![384, 256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x10 : Shape := ⟨2, ![64, 10]⟩
abbrev S10 : Shape := ⟨1, ![10]⟩
abbrev S128x384 : Shape := ⟨2, ![128, 384]⟩
abbrev S131072x384 : Shape := ⟨2, ![131072, 384]⟩
abbrev S1x384 : Shape := ⟨2, ![1, 384]⟩
abbrev S1x128 : Shape := ⟨2, ![1, 128]⟩
abbrev S_ : Shape := ⟨0, ![]⟩
abbrev S131072x256 : Shape := ⟨2, ![131072, 256]⟩
abbrev S256x384 : Shape := ⟨2, ![256, 384]⟩
abbrev S131071 : Shape := ⟨1, ![131071]⟩
abbrev S131072 : Shape := ⟨1, ![131072]⟩
abbrev S393214 : Shape := ⟨1, ![393214]⟩
abbrev S393214x1 : Shape := ⟨2, ![393214, 1]⟩
abbrev S393214x128 : Shape := ⟨2, ![393214, 128]⟩
abbrev S131072x64 : Shape := ⟨2, ![131072, 64]⟩
abbrev S393214x64 : Shape := ⟨2, ![393214, 64]⟩
abbrev S1x64 : Shape := ⟨2, ![1, 64]⟩
abbrev S131072x10 : Shape := ⟨2, ![131072, 10]⟩
abbrev S1x10 : Shape := ⟨2, ![1, 10]⟩

abbrev nBuf : Space → Nat
  | .hbm => 293
  | .vmem => 0
  | .smem => 0
  | _ => 0

abbrev hbmTy0_0 (i : Nat) : BufTy := match i % 128 with
  | 0 => ⟨S131072x128, .f32⟩
  | 1 => ⟨S384x128, .f32⟩
  | 2 => ⟨S384, .f32⟩
  | 3 => ⟨S384, .f32⟩
  | 4 => ⟨S384x128, .f32⟩
  | 5 => ⟨S384, .f32⟩
  | 6 => ⟨S384, .f32⟩
  | 7 => ⟨S384x256, .f32⟩
  | 8 => ⟨S384, .f32⟩
  | 9 => ⟨S384, .f32⟩
  | 10 => ⟨S384x256, .f32⟩
  | 11 => ⟨S384, .f32⟩
  | 12 => ⟨S384, .f32⟩
  | 13 => ⟨S256x128, .f32⟩
  | 14 => ⟨S128, .f32⟩
  | 15 => ⟨S128x64, .f32⟩
  | 16 => ⟨S64, .f32⟩
  | 17 => ⟨S64x10, .f32⟩
  | 18 => ⟨S10, .f32⟩
  | 19 => ⟨S128x384, .f32⟩
  | 20 => ⟨S131072x384, .f32⟩
  | 21 => ⟨S1x384, .f32⟩
  | 22 => ⟨S131072x384, .f32⟩
  | 23 => ⟨S131072x384, .f32⟩
  | 24 => ⟨S131072x128, .f32⟩
  | 25 => ⟨S131072x128, .f32⟩
  | 26 => ⟨S131072x128, .f32⟩
  | 27 => ⟨S128, .f32⟩
  | 28 => ⟨S128, .f32⟩
  | 29 => ⟨S128, .f32⟩
  | 30 => ⟨S1x128, .f32⟩
  | 31 => ⟨S131072x128, .f32⟩
  | 32 => ⟨S131072x128, .f32⟩
  | 33 => ⟨S131072x128, .f32⟩
  | 34 => ⟨S131072x128, .f32⟩
  | 35 => ⟨S_, .f32⟩
  | 36 => ⟨S131072x128, .f32⟩
  | 37 => ⟨S131072x128, .f32⟩
  | 38 => ⟨S_, .f32⟩
  | 39 => ⟨S131072x128, .f32⟩
  | 40 => ⟨S131072x128, .f32⟩
  | 41 => ⟨S1x128, .f32⟩
  | 42 => ⟨S131072x128, .f32⟩
  | 43 => ⟨S131072x128, .f32⟩
  | 44 => ⟨S131072x128, .f32⟩
  | 45 => ⟨S131072x128, .f32⟩
  | 46 => ⟨S_, .f32⟩
  | 47 => ⟨S131072x128, .f32⟩
  | 48 => ⟨S131072x128, .f32⟩
  | 49 => ⟨S_, .f32⟩
  | 50 => ⟨S131072x128, .f32⟩
  | 51 => ⟨S131072x128, .f32⟩
  | 52 => ⟨S1x128, .f32⟩
  | 53 => ⟨S131072x128, .f32⟩
  | 54 => ⟨S131072x128, .f32⟩
  | 55 => ⟨S131072x128, .f32⟩
  | 56 => ⟨S131072x128, .f32⟩
  | 57 => ⟨S_, .f32⟩
  | 58 => ⟨S131072x128, .f32⟩
  | 59 => ⟨S131072x128, .f32⟩
  | 60 => ⟨S131072x128, .f32⟩
  | 61 => ⟨S128x384, .f32⟩
  | 62 => ⟨S131072x384, .f32⟩
  | 63 => ⟨S1x384, .f32⟩
  | 64 => ⟨S131072x384, .f32⟩
  | 65 => ⟨S131072x384, .f32⟩
  | 66 => ⟨S131072x128, .f32⟩
  | 67 => ⟨S131072x128, .f32⟩
  | 68 => ⟨S131072x128, .f32⟩
  | 69 => ⟨S128, .f32⟩
  | 70 => ⟨S128, .f32⟩
  | 71 => ⟨S128, .f32⟩
  | 72 => ⟨S1x128, .f32⟩
  | 73 => ⟨S131072x128, .f32⟩
  | 74 => ⟨S131072x128, .f32⟩
  | 75 => ⟨S131072x128, .f32⟩
  | 76 => ⟨S131072x128, .f32⟩
  | 77 => ⟨S_, .f32⟩
  | 78 => ⟨S131072x128, .f32⟩
  | 79 => ⟨S131072x128, .f32⟩
  | 80 => ⟨S_, .f32⟩
  | 81 => ⟨S131072x128, .f32⟩
  | 82 => ⟨S131072x128, .f32⟩
  | 83 => ⟨S1x128, .f32⟩
  | 84 => ⟨S131072x128, .f32⟩
  | 85 => ⟨S131072x128, .f32⟩
  | 86 => ⟨S131072x128, .f32⟩
  | 87 => ⟨S131072x128, .f32⟩
  | 88 => ⟨S_, .f32⟩
  | 89 => ⟨S131072x128, .f32⟩
  | 90 => ⟨S131072x128, .f32⟩
  | 91 => ⟨S_, .f32⟩
  | 92 => ⟨S131072x128, .f32⟩
  | 93 => ⟨S131072x128, .f32⟩
  | 94 => ⟨S1x128, .f32⟩
  | 95 => ⟨S131072x128, .f32⟩
  | 96 => ⟨S131072x128, .f32⟩
  | 97 => ⟨S131072x128, .f32⟩
  | 98 => ⟨S131072x128, .f32⟩
  | 99 => ⟨S_, .f32⟩
  | 100 => ⟨S131072x128, .f32⟩
  | 101 => ⟨S131072x128, .f32⟩
  | 102 => ⟨S131072x128, .f32⟩
  | 103 => ⟨S131072x256, .f32⟩
  | 104 => ⟨S256x384, .f32⟩
  | 105 => ⟨S131072x384, .f32⟩
  | 106 => ⟨S1x384, .f32⟩
  | 107 => ⟨S131072x384, .f32⟩
  | 108 => ⟨S131072x384, .f32⟩
  | 109 => ⟨S131072x128, .f32⟩
  | 110 => ⟨S131072x128, .f32⟩
  | 111 => ⟨S131072x128, .f32⟩
  | 112 => ⟨S128, .f32⟩
  | 113 => ⟨S128, .f32⟩
  | 114 => ⟨S128, .f32⟩
  | 115 => ⟨S1x128, .f32⟩
  | 116 => ⟨S131072x128, .f32⟩
  | 117 => ⟨S131072x128, .f32⟩
  | 118 => ⟨S131072x128, .f32⟩
  | 119 => ⟨S131072x128, .f32⟩
  | 120 => ⟨S_, .f32⟩
  | 121 => ⟨S131072x128, .f32⟩
  | 122 => ⟨S131072x128, .f32⟩
  | 123 => ⟨S_, .f32⟩
  | 124 => ⟨S131072x128, .f32⟩
  | 125 => ⟨S131072x128, .f32⟩
  | 126 => ⟨S1x128, .f32⟩
  | 127 => ⟨S131072x128, .f32⟩
  | _ => ⟨S131072x128, .f32⟩

abbrev hbmTy0_1 (i : Nat) : BufTy := match i % 128 with
  | 0 => ⟨S131072x128, .f32⟩
  | 1 => ⟨S131072x128, .f32⟩
  | 2 => ⟨S131072x128, .f32⟩
  | 3 => ⟨S_, .f32⟩
  | 4 => ⟨S131072x128, .f32⟩
  | 5 => ⟨S131072x128, .f32⟩
  | 6 => ⟨S_, .f32⟩
  | 7 => ⟨S131072x128, .f32⟩
  | 8 => ⟨S131072x128, .f32⟩
  | 9 => ⟨S1x128, .f32⟩
  | 10 => ⟨S131072x128, .f32⟩
  | 11 => ⟨S131072x128, .f32⟩
  | 12 => ⟨S131072x128, .f32⟩
  | 13 => ⟨S131072x128, .f32⟩
  | 14 => ⟨S_, .f32⟩
  | 15 => ⟨S131072x128, .f32⟩
  | 16 => ⟨S131072x128, .f32⟩
  | 17 => ⟨S131072x128, .f32⟩
  | 18 => ⟨S256x384, .f32⟩
  | 19 => ⟨S131072x384, .f32⟩
  | 20 => ⟨S1x384, .f32⟩
  | 21 => ⟨S131072x384, .f32⟩
  | 22 => ⟨S131072x384, .f32⟩
  | 23 => ⟨S131072x128, .f32⟩
  | 24 => ⟨S131072x128, .f32⟩
  | 25 => ⟨S131072x128, .f32⟩
  | 26 => ⟨S128, .f32⟩
  | 27 => ⟨S128, .f32⟩
  | 28 => ⟨S128, .f32⟩
  | 29 => ⟨S1x128, .f32⟩
  | 30 => ⟨S131072x128, .f32⟩
  | 31 => ⟨S131072x128, .f32⟩
  | 32 => ⟨S131072x128, .f32⟩
  | 33 => ⟨S131072x128, .f32⟩
  | 34 => ⟨S_, .f32⟩
  | 35 => ⟨S131072x128, .f32⟩
  | 36 => ⟨S131072x128, .f32⟩
  | 37 => ⟨S_, .f32⟩
  | 38 => ⟨S131072x128, .f32⟩
  | 39 => ⟨S131072x128, .f32⟩
  | 40 => ⟨S1x128, .f32⟩
  | 41 => ⟨S131072x128, .f32⟩
  | 42 => ⟨S131072x128, .f32⟩
  | 43 => ⟨S131072x128, .f32⟩
  | 44 => ⟨S131072x128, .f32⟩
  | 45 => ⟨S_, .f32⟩
  | 46 => ⟨S131072x128, .f32⟩
  | 47 => ⟨S131072x128, .f32⟩
  | 48 => ⟨S_, .f32⟩
  | 49 => ⟨S131072x128, .f32⟩
  | 50 => ⟨S131072x128, .f32⟩
  | 51 => ⟨S1x128, .f32⟩
  | 52 => ⟨S131072x128, .f32⟩
  | 53 => ⟨S131072x128, .f32⟩
  | 54 => ⟨S131072x128, .f32⟩
  | 55 => ⟨S131072x128, .f32⟩
  | 56 => ⟨S_, .f32⟩
  | 57 => ⟨S131072x128, .f32⟩
  | 58 => ⟨S131072x128, .f32⟩
  | 59 => ⟨S131072x128, .f32⟩
  | 60 => ⟨S131072x256, .f32⟩
  | 61 => ⟨S131071, .i32⟩
  | 62 => ⟨S131071, .i32⟩
  | 63 => ⟨S_, .i32⟩
  | 64 => ⟨S131071, .i32⟩
  | 65 => ⟨S131071, .i32⟩
  | 66 => ⟨S131072, .i32⟩
  | 67 => ⟨S393214, .i32⟩
  | 68 => ⟨S393214, .i32⟩
  | 69 => ⟨S131072x128, .f32⟩
  | 70 => ⟨S_, .f32⟩
  | 71 => ⟨S393214, .f32⟩
  | 72 => ⟨S_, .f32⟩
  | 73 => ⟨S131072, .f32⟩
  | 74 => ⟨S393214x1, .i32⟩
  | 75 => ⟨S131072, .f32⟩
  | 76 => ⟨S131072, .f32⟩
  | 77 => ⟨S_, .i32⟩
  | 78 => ⟨S393214, .i32⟩
  | 79 => ⟨S393214, .i1⟩
  | 80 => ⟨S_, .i32⟩
  | 81 => ⟨S393214, .i32⟩
  | 82 => ⟨S393214, .i32⟩
  | 83 => ⟨S393214, .i32⟩
  | 84 => ⟨S393214x1, .i32⟩
  | 85 => ⟨S393214, .f32⟩
  | 86 => ⟨S_, .i32⟩
  | 87 => ⟨S393214, .i32⟩
  | 88 => ⟨S393214, .i1⟩
  | 89 => ⟨S_, .i32⟩
  | 90 => ⟨S393214, .i32⟩
  | 91 => ⟨S393214, .i32⟩
  | 92 => ⟨S393214, .i32⟩
  | 93 => ⟨S393214x1, .i32⟩
  | 94 => ⟨S393214, .f32⟩
  | 95 => ⟨S393214, .f32⟩
  | 96 => ⟨S393214x1, .f32⟩
  | 97 => ⟨S_, .i32⟩
  | 98 => ⟨S393214, .i32⟩
  | 99 => ⟨S393214, .i1⟩
  | 100 => ⟨S_, .i32⟩
  | 101 => ⟨S393214, .i32⟩
  | 102 => ⟨S393214, .i32⟩
  | 103 => ⟨S393214, .i32⟩
  | 104 => ⟨S393214x1, .i32⟩
  | 105 => ⟨S393214x128, .f32⟩
  | 106 => ⟨S393214x128, .f32⟩
  | 107 => ⟨S393214x128, .f32⟩
  | 108 => ⟨S_, .f32⟩
  | 109 => ⟨S131072x128, .f32⟩
  | 110 => ⟨S393214x1, .i32⟩
  | 111 => ⟨S131072x128, .f32⟩
  | 112 => ⟨S1x128, .f32⟩
  | 113 => ⟨S131072x128, .f32⟩
  | 114 => ⟨S131072x128, .f32⟩
  | 115 => ⟨S131072x64, .f32⟩
  | 116 => ⟨S_, .f32⟩
  | 117 => ⟨S393214, .f32⟩
  | 118 => ⟨S_, .f32⟩
  | 119 => ⟨S131072, .f32⟩
  | 120 => ⟨S393214x1, .i32⟩
  | 121 => ⟨S131072, .f32⟩
  | 122 => ⟨S131072, .f32⟩
  | 123 => ⟨S_, .i32⟩
  | 124 => ⟨S393214, .i32⟩
  | 125 => ⟨S393214, .i1⟩
  | 126 => ⟨S_, .i32⟩
  | 127 => ⟨S393214, .i32⟩
  | _ => ⟨S131072x128, .f32⟩

abbrev hbmTy0_2 (i : Nat) : BufTy := match i % 128 with
  | 0 => ⟨S393214, .i32⟩
  | 1 => ⟨S393214, .i32⟩
  | 2 => ⟨S393214x1, .i32⟩
  | 3 => ⟨S393214, .f32⟩
  | 4 => ⟨S_, .i32⟩
  | 5 => ⟨S393214, .i32⟩
  | 6 => ⟨S393214, .i1⟩
  | 7 => ⟨S_, .i32⟩
  | 8 => ⟨S393214, .i32⟩
  | 9 => ⟨S393214, .i32⟩
  | 10 => ⟨S393214, .i32⟩
  | 11 => ⟨S393214x1, .i32⟩
  | 12 => ⟨S393214, .f32⟩
  | 13 => ⟨S393214, .f32⟩
  | 14 => ⟨S393214x1, .f32⟩
  | 15 => ⟨S_, .i32⟩
  | 16 => ⟨S393214, .i32⟩
  | 17 => ⟨S393214, .i1⟩
  | 18 => ⟨S_, .i32⟩
  | 19 => ⟨S393214, .i32⟩
  | 20 => ⟨S393214, .i32⟩
  | 21 => ⟨S393214, .i32⟩
  | 22 => ⟨S393214x1, .i32⟩
  | 23 => ⟨S393214x64, .f32⟩
  | 24 => ⟨S393214x64, .f32⟩
  | 25 => ⟨S393214x64, .f32⟩
  | 26 => ⟨S_, .f32⟩
  | 27 => ⟨S131072x64, .f32⟩
  | 28 => ⟨S393214x1, .i32⟩
  | 29 => ⟨S131072x64, .f32⟩
  | 30 => ⟨S1x64, .f32⟩
  | 31 => ⟨S131072x64, .f32⟩
  | 32 => ⟨S131072x64, .f32⟩
  | 33 => ⟨S131072x10, .f32⟩
  | 34 => ⟨S1x10, .f32⟩
  | 35 => ⟨S131072x10, .f32⟩
  | 36 => ⟨S131072x10, .f32⟩
  | _ => ⟨S131072x128, .f32⟩

abbrev hbmTy (i : Nat) : BufTy := match i / 128 with
  | 0 => hbmTy0_0 i
  | 1 => hbmTy0_1 i
  | 2 => hbmTy0_2 i
  | _ => ⟨S131072x128, .f32⟩

abbrev bufTy : (tb : Table) → Fin (tcTables nBuf tb) → BufTy
  | .hbm, ⟨i, _⟩ => hbmTy i
  | _, _ => ⟨S131072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst : Ref sig .tc := ⟨.hbm, 35, rfl⟩
abbrev main_v16 : Ref sig .tc := ⟨.hbm, 36, rfl⟩
abbrev main_v17 : Ref sig .tc := ⟨.hbm, 37, rfl⟩
abbrev main_cst_0 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_1 : Ref sig .tc := ⟨.hbm, 46, rfl⟩
abbrev main_v25 : Ref sig .tc := ⟨.hbm, 47, rfl⟩
abbrev main_v26 : Ref sig .tc := ⟨.hbm, 48, rfl⟩
abbrev main_cst_2 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_3 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_4 : Ref sig .tc := ⟨.hbm, 77, rfl⟩
abbrev main_v53 : Ref sig .tc := ⟨.hbm, 78, rfl⟩
abbrev main_v54 : Ref sig .tc := ⟨.hbm, 79, rfl⟩
abbrev main_cst_5 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_6 : Ref sig .tc := ⟨.hbm, 88, rfl⟩
abbrev main_v62 : Ref sig .tc := ⟨.hbm, 89, rfl⟩
abbrev main_v63 : Ref sig .tc := ⟨.hbm, 90, rfl⟩
abbrev main_cst_7 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_8 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_cst_9 : Ref sig .tc := ⟨.hbm, 120, rfl⟩
abbrev main_v91 : Ref sig .tc := ⟨.hbm, 121, rfl⟩
abbrev main_v92 : Ref sig .tc := ⟨.hbm, 122, rfl⟩
abbrev main_cst_10 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_cst_11 : Ref sig .tc := ⟨.hbm, 131, rfl⟩
abbrev main_v100 : Ref sig .tc := ⟨.hbm, 132, rfl⟩
abbrev main_v101 : Ref sig .tc := ⟨.hbm, 133, rfl⟩
abbrev main_cst_12 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_cst_13 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_cst_14 : Ref sig .tc := ⟨.hbm, 162, rfl⟩
abbrev main_v128 : Ref sig .tc := ⟨.hbm, 163, rfl⟩
abbrev main_v129 : Ref sig .tc := ⟨.hbm, 164, rfl⟩
abbrev main_cst_15 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_cst_16 : Ref sig .tc := ⟨.hbm, 173, rfl⟩
abbrev main_v137 : Ref sig .tc := ⟨.hbm, 174, rfl⟩
abbrev main_v138 : Ref sig .tc := ⟨.hbm, 175, rfl⟩
abbrev main_cst_17 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_cst_18 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_c : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_cst_19 : Ref sig .tc := ⟨.hbm, 198, rfl⟩
abbrev main_v158 : Ref sig .tc := ⟨.hbm, 199, rfl⟩
abbrev main_cst_20 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_c_21 : Ref sig .tc := ⟨.hbm, 205, rfl⟩
abbrev main_v163 : Ref sig .tc := ⟨.hbm, 206, rfl⟩
abbrev main_v164 : Ref sig .tc := ⟨.hbm, 207, rfl⟩
abbrev main_c_22 : Ref sig .tc := ⟨.hbm, 208, rfl⟩
abbrev main_v165 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_c_23 : Ref sig .tc := ⟨.hbm, 214, rfl⟩
abbrev main_v170 : Ref sig .tc := ⟨.hbm, 215, rfl⟩
abbrev main_v171 : Ref sig .tc := ⟨.hbm, 216, rfl⟩
abbrev main_c_24 : Ref sig .tc := ⟨.hbm, 217, rfl⟩
abbrev main_v172 : Ref sig .tc := ⟨.hbm, 218, rfl⟩
abbrev main_v173 : Ref sig .tc := ⟨.hbm, 219, rfl⟩
abbrev main_v174 : Ref sig .tc := ⟨.hbm, 220, rfl⟩
abbrev main_v175 : Ref sig .tc := ⟨.hbm, 221, rfl⟩
abbrev main_v176 : Ref sig .tc := ⟨.hbm, 222, rfl⟩
abbrev main_v177 : Ref sig .tc := ⟨.hbm, 223, rfl⟩
abbrev main_v178 : Ref sig .tc := ⟨.hbm, 224, rfl⟩
abbrev main_c_25 : Ref sig .tc := ⟨.hbm, 225, rfl⟩
abbrev main_v179 : Ref sig .tc := ⟨.hbm, 226, rfl⟩
abbrev main_v180 : Ref sig .tc := ⟨.hbm, 227, rfl⟩
abbrev main_c_26 : Ref sig .tc := ⟨.hbm, 228, rfl⟩
abbrev main_v181 : Ref sig .tc := ⟨.hbm, 229, rfl⟩
abbrev main_v182 : Ref sig .tc := ⟨.hbm, 230, rfl⟩
abbrev main_v183 : Ref sig .tc := ⟨.hbm, 231, rfl⟩
abbrev main_v184 : Ref sig .tc := ⟨.hbm, 232, rfl⟩
abbrev main_v185 : Ref sig .tc := ⟨.hbm, 233, rfl⟩
abbrev main_v186 : Ref sig .tc := ⟨.hbm, 234, rfl⟩
abbrev main_v187 : Ref sig .tc := ⟨.hbm, 235, rfl⟩
abbrev main_cst_27 : Ref sig .tc := ⟨.hbm, 236, rfl⟩
abbrev main_v188 : Ref sig .tc := ⟨.hbm, 237, rfl⟩
abbrev main_v189 : Ref sig .tc := ⟨.hbm, 238, rfl⟩
abbrev main_v190 : Ref sig .tc := ⟨.hbm, 239, rfl⟩
abbrev main_v191 : Ref sig .tc := ⟨.hbm, 240, rfl⟩
abbrev main_v192 : Ref sig .tc := ⟨.hbm, 241, rfl⟩
abbrev main_v193 : Ref sig .tc := ⟨.hbm, 242, rfl⟩
abbrev main_v194 : Ref sig .tc := ⟨.hbm, 243, rfl⟩
abbrev main_cst_28 : Ref sig .tc := ⟨.hbm, 244, rfl⟩
abbrev main_v195 : Ref sig .tc := ⟨.hbm, 245, rfl⟩
abbrev main_cst_29 : Ref sig .tc := ⟨.hbm, 246, rfl⟩
abbrev main_v196 : Ref sig .tc := ⟨.hbm, 247, rfl⟩
abbrev main_v197 : Ref sig .tc := ⟨.hbm, 248, rfl⟩
abbrev main_v198 : Ref sig .tc := ⟨.hbm, 249, rfl⟩
abbrev main_v199 : Ref sig .tc := ⟨.hbm, 250, rfl⟩
abbrev main_c_30 : Ref sig .tc := ⟨.hbm, 251, rfl⟩
abbrev main_v200 : Ref sig .tc := ⟨.hbm, 252, rfl⟩
abbrev main_v201 : Ref sig .tc := ⟨.hbm, 253, rfl⟩
abbrev main_c_31 : Ref sig .tc := ⟨.hbm, 254, rfl⟩
abbrev main_v202 : Ref sig .tc := ⟨.hbm, 255, rfl⟩
abbrev main_v203 : Ref sig .tc := ⟨.hbm, 256, rfl⟩
abbrev main_v204 : Ref sig .tc := ⟨.hbm, 257, rfl⟩
abbrev main_v205 : Ref sig .tc := ⟨.hbm, 258, rfl⟩
abbrev main_v206 : Ref sig .tc := ⟨.hbm, 259, rfl⟩
abbrev main_c_32 : Ref sig .tc := ⟨.hbm, 260, rfl⟩
abbrev main_v207 : Ref sig .tc := ⟨.hbm, 261, rfl⟩
abbrev main_v208 : Ref sig .tc := ⟨.hbm, 262, rfl⟩
abbrev main_c_33 : Ref sig .tc := ⟨.hbm, 263, rfl⟩
abbrev main_v209 : Ref sig .tc := ⟨.hbm, 264, rfl⟩
abbrev main_v210 : Ref sig .tc := ⟨.hbm, 265, rfl⟩
abbrev main_v211 : Ref sig .tc := ⟨.hbm, 266, rfl⟩
abbrev main_v212 : Ref sig .tc := ⟨.hbm, 267, rfl⟩
abbrev main_v213 : Ref sig .tc := ⟨.hbm, 268, rfl⟩
abbrev main_v214 : Ref sig .tc := ⟨.hbm, 269, rfl⟩
abbrev main_v215 : Ref sig .tc := ⟨.hbm, 270, rfl⟩
abbrev main_c_34 : Ref sig .tc := ⟨.hbm, 271, rfl⟩
abbrev main_v216 : Ref sig .tc := ⟨.hbm, 272, rfl⟩
abbrev main_v217 : Ref sig .tc := ⟨.hbm, 273, rfl⟩
abbrev main_c_35 : Ref sig .tc := ⟨.hbm, 274, rfl⟩
abbrev main_v218 : Ref sig .tc := ⟨.hbm, 275, rfl⟩
abbrev main_v219 : Ref sig .tc := ⟨.hbm, 276, rfl⟩
abbrev main_v220 : Ref sig .tc := ⟨.hbm, 277, rfl⟩
abbrev main_v221 : Ref sig .tc := ⟨.hbm, 278, rfl⟩
abbrev main_v222 : Ref sig .tc := ⟨.hbm, 279, rfl⟩
abbrev main_v223 : Ref sig .tc := ⟨.hbm, 280, rfl⟩
abbrev main_v224 : Ref sig .tc := ⟨.hbm, 281, rfl⟩
abbrev main_cst_36 : Ref sig .tc := ⟨.hbm, 282, rfl⟩
abbrev main_v225 : Ref sig .tc := ⟨.hbm, 283, rfl⟩
abbrev main_v226 : Ref sig .tc := ⟨.hbm, 284, rfl⟩
abbrev main_v227 : Ref sig .tc := ⟨.hbm, 285, rfl⟩
abbrev main_v228 : Ref sig .tc := ⟨.hbm, 286, rfl⟩
abbrev main_v229 : Ref sig .tc := ⟨.hbm, 287, rfl⟩
abbrev main_v230 : Ref sig .tc := ⟨.hbm, 288, rfl⟩
abbrev main_v231 : Ref sig .tc := ⟨.hbm, 289, rfl⟩
abbrev main_v232 : Ref sig .tc := ⟨.hbm, 290, rfl⟩
abbrev main_v233 : Ref sig .tc := ⟨.hbm, 291, rfl⟩
abbrev main_v234 : Ref sig .tc := ⟨.hbm, 292, rfl⟩

abbrev nD : Nat := 1
abbrev τ : Topo := Topo.v7x

variable {F : FTy → Type} [FloatOps F]

class Facts₀ : Prop where
  transposes_S384x128_S128x384_1_0 : S384x128.Transposes [1, 0] S128x384
  bcast_S384_S1x384_1 : S384.BroadcastsInDim S1x384 (![1] : Fin 1 → Fin S1x384.rank)
  bcast_S1x384_S131072x384_0_1 : S1x384.BroadcastsInDim S131072x384 (![0, 1] : Fin 2 → Fin S131072x384.rank)
  slices_S131072x384_S131072x128_0_0 : S131072x384.Slices ![0, 0] S131072x128
  slices_S131072x384_S131072x128_0_128 : S131072x384.Slices ![0, 128] S131072x128
  slices_S131072x384_S131072x128_0_256 : S131072x384.Slices ![0, 256] S131072x128
  slices_S384_S128_0 : S384.Slices ![0] S128
  slices_S384_S128_128 : S384.Slices ![128] S128
  slices_S384_S128_256 : S384.Slices ![256] S128
  bcast_S128_S1x128_1 : S128.BroadcastsInDim S1x128 (![1] : Fin 1 → Fin S1x128.rank)
  bcast_S1x128_S131072x128_0_1 : S1x128.BroadcastsInDim S131072x128 (![0, 1] : Fin 2 → Fin S131072x128.rank)
  bcast_S_S131072x128 : S_.BroadcastsInDim S131072x128 (![] : Fin 0 → Fin S131072x128.rank)
  concatenates_S131072x128_S131072x128_S131072x256_d1 : Shape.Concatenates [S131072x128, S131072x128] S131072x256 1
  transposes_S384x256_S256x384_1_0 : S384x256.Transposes [1, 0] S256x384
  bcast_S_S131071 : S_.BroadcastsInDim S131071 (![] : Fin 0 → Fin S131071.rank)
  concatenates_S131071_S131071_S131072_S393214_d0 : Shape.Concatenates [S131071, S131071, S131072] S393214 0
  bcast_S_S393214 : S_.BroadcastsInDim S393214 (![] : Fin 0 → Fin S393214.rank)
  bcast_S_S131072 : S_.BroadcastsInDim S131072 (![] : Fin 0 → Fin S131072.rank)
  bcast_S393214_S393214x1_0 : S393214.BroadcastsInDim S393214x1 (![0] : Fin 1 → Fin S393214x1.rank)
  bcast_S393214x1_S393214x128_0_1 : S393214x1.BroadcastsInDim S393214x128 (![0, 1] : Fin 2 → Fin S393214x128.rank)
  bcast_S393214x1_S393214x64_0_1 : S393214x1.BroadcastsInDim S393214x64 (![0, 1] : Fin 2 → Fin S393214x64.rank)
  bcast_S_S131072x64 : S_.BroadcastsInDim S131072x64 (![] : Fin 0 → Fin S131072x64.rank)
  bcast_S64_S1x64_1 : S64.BroadcastsInDim S1x64 (![1] : Fin 1 → Fin S1x64.rank)
  bcast_S1x64_S131072x64_0_1 : S1x64.BroadcastsInDim S131072x64 (![0, 1] : Fin 2 → Fin S131072x64.rank)
  bcast_S10_S1x10_1 : S10.BroadcastsInDim S1x10 (![1] : Fin 1 → Fin S1x10.rank)
  bcast_S1x10_S131072x10_0_1 : S1x10.BroadcastsInDim S131072x10 (![0, 1] : Fin 2 → Fin S131072x10.rank)
  dot_S131072x128_S128x384_S131072x384_1_0_0_1_n_n_wf : DotDims.WF S131072x128 S128x384 S131072x384 [1] [0] [0] [1] [] []
  dot_S131072x256_S256x384_S131072x384_1_0_0_1_n_n_wf : DotDims.WF S131072x256 S256x384 S131072x384 [1] [0] [0] [1] [] []
  dot_S131072x256_S256x128_S131072x128_1_0_0_1_n_n_wf : DotDims.WF S131072x256 S256x128 S131072x128 [1] [0] [0] [1] [] []
  scatter_S131072_S393214x1_S393214_n_0_0_1_wf : ScatterDims.WF S131072 S393214x1 S393214 [] [0] [0] 1
  gather_S131072_S393214x1_S393214_n_0_n_n_0_1_1_wf : GatherDims.WF S131072 S393214x1 S393214 [] [0] [] [0] [] 1 ![1]
  gather_S131072x128_S393214x1_S393214x128_1_0_n_n_0_1_1128_wf : GatherDims.WF S131072x128 S393214x1 S393214x128 [1] [0] [] [0] [] 1 ![1, 128]
  scatter_S131072x128_S393214x1_S393214x128_1_0_0_1_wf : ScatterDims.WF S131072x128 S393214x1 S393214x128 [1] [0] [0] 1
  dot_S131072x128_S128x64_S131072x64_1_0_0_1_n_n_wf : DotDims.WF S131072x128 S128x64 S131072x64 [1] [0] [0] [1] [] []
  gather_S131072x64_S393214x1_S393214x64_1_0_n_n_0_1_164_wf : GatherDims.WF S131072x64 S393214x1 S393214x64 [1] [0] [] [0] [] 1 ![1, 64]
  scatter_S131072x64_S393214x1_S393214x64_1_0_0_1_wf : ScatterDims.WF S131072x64 S393214x1 S393214x64 [1] [0] [0] 1
  dot_S131072x64_S64x10_S131072x10_1_0_0_1_n_n_wf : DotDims.WF S131072x64 S64x10 S131072x10 [1] [0] [0] [1] [] []

variable [Facts₀]

def dot_S131072x128_S128x384_S131072x384_1_0_0_1_n_n : DotDims S131072x128 S128x384 S131072x384 where
  lhsContracting := [1]
  rhsContracting := [0]
  lhsNonContracting := [0]
  rhsNonContracting := [1]
  lhsBatch := []
  rhsBatch := []
  wf := dot_S131072x128_S128x384_S131072x384_1_0_0_1_n_n_wf
def dot_S131072x256_S256x384_S131072x384_1_0_0_1_n_n : DotDims S131072x256 S256x384 S131072x384 where
  lhsContracting := [1]
  rhsContracting := [0]
  lhsNonContracting := [0]
  rhsNonContracting := [1]
  lhsBatch := []
  rhsBatch := []
  wf := dot_S131072x256_S256x384_S131072x384_1_0_0_1_n_n_wf
def dot_S131072x256_S256x128_S131072x128_1_0_0_1_n_n : DotDims S131072x256 S256x128 S131072x128 where
  lhsContracting := [1]
  rhsContracting := [0]
  lhsNonContracting := [0]
  rhsNonContracting := [1]
  lhsBatch := []
  rhsBatch := []
  wf := dot_S131072x256_S256x128_S131072x128_1_0_0_1_n_n_wf
def scatter_S131072_S393214x1_S393214_n_0_0_1 : ScatterDims S131072 S393214x1 S393214 where
  updateWindowDims := []
  insertedWindowDims := [0]
  scatterDimsToOperandDims := [0]
  indexVectorDim := 1
  wf := scatter_S131072_S393214x1_S393214_n_0_0_1_wf
def gather_S131072_S393214x1_S393214_n_0_n_n_0_1_1 : GatherDims S131072 S393214x1 S393214 where
  offsetDims := []
  collapsedSliceDims := [0]
  operandBatchingDims := []
  startIndicesBatchingDims := []
  startIndexMap := [0]
  indexVectorDim := 1
  sliceSizes := ![1]
  wf := gather_S131072_S393214x1_S393214_n_0_n_n_0_1_1_wf
def gather_S131072x128_S393214x1_S393214x128_1_0_n_n_0_1_1128 : GatherDims S131072x128 S393214x1 S393214x128 where
  offsetDims := [1]
  collapsedSliceDims := [0]
  operandBatchingDims := []
  startIndicesBatchingDims := []
  startIndexMap := [0]
  indexVectorDim := 1
  sliceSizes := ![1, 128]
  wf := gather_S131072x128_S393214x1_S393214x128_1_0_n_n_0_1_1128_wf
def scatter_S131072x128_S393214x1_S393214x128_1_0_0_1 : ScatterDims S131072x128 S393214x1 S393214x128 where
  updateWindowDims := [1]
  insertedWindowDims := [0]
  scatterDimsToOperandDims := [0]
  indexVectorDim := 1
  wf := scatter_S131072x128_S393214x1_S393214x128_1_0_0_1_wf
def dot_S131072x128_S128x64_S131072x64_1_0_0_1_n_n : DotDims S131072x128 S128x64 S131072x64 where
  lhsContracting := [1]
  rhsContracting := [0]
  lhsNonContracting := [0]
  rhsNonContracting := [1]
  lhsBatch := []
  rhsBatch := []
  wf := dot_S131072x128_S128x64_S131072x64_1_0_0_1_n_n_wf
def gather_S131072x64_S393214x1_S393214x64_1_0_n_n_0_1_164 : GatherDims S131072x64 S393214x1 S393214x64 where
  offsetDims := [1]
  collapsedSliceDims := [0]
  operandBatchingDims := []
  startIndicesBatchingDims := []
  startIndexMap := [0]
  indexVectorDim := 1
  sliceSizes := ![1, 64]
  wf := gather_S131072x64_S393214x1_S393214x64_1_0_n_n_0_1_164_wf
def scatter_S131072x64_S393214x1_S393214x64_1_0_0_1 : ScatterDims S131072x64 S393214x1 S393214x64 where
  updateWindowDims := [1]
  insertedWindowDims := [0]
  scatterDimsToOperandDims := [0]
  indexVectorDim := 1
  wf := scatter_S131072x64_S393214x1_S393214x64_1_0_0_1_wf
def dot_S131072x64_S64x10_S131072x10_1_0_0_1_n_n : DotDims S131072x64 S64x10 S131072x10 where
  lhsContracting := [1]
  rhsContracting := [0]
  lhsNonContracting := [0]
  rhsNonContracting := [1]
  lhsBatch := []
  rhsBatch := []
  wf := dot_S131072x64_S64x10_S131072x10_1_0_0_1_n_n_wf

class Facts : Prop extends Facts₀ where

variable [Facts]
-- ==== Proof.LibSharedFrame.lean ====
/-
  The frame run of a program that is host operations followed by ONE pipelined region whose windows may read one
  array through several windows, when some unscoped buffers are no window's array at all.

  The buffers behind the windows' arrays are dealt among the windows before the first grid point (`hdealt`: two
  windows reading one array each hold a share of it). Every other unscoped buffer bypasses the region: it is
  set aside whole at its region-entry contents, never lent to the body, and read back at the end. For a body with no
  semaphore, scratch or generator use of its own the region's invariant is empty. The conclusion is the library's
  `FramePost`: every window's array at the write-backs of all points over its entry contents, every bypassing buffer
  as the region found it.
-/
import Idealize.ShloMosaic.Lib.Pipeline.Frame

noncomputable section

namespace Cert.Lib.SharedFrame

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligationLoose cellOf)

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

set_option backward.isDefEq.respectTransparency.types false in
/-- The run. `hdealt`: the buffers behind the windows' arrays, each held whole at the region-entry contents `V`, make
    the proof data's arrays at their shares. `hscratch`: the core has no scoped buffer beside the staging buffers.
    `hΦ`: the body carries nothing between points. -/
theorem run_frame (cfgs : P → Cfg sig Λ₀) (dats : (p : P) → (c : Dev nD) → Dat τ Val Unit ℕ (UR sig nD τ) ℕ (cfgs p) c) (p : P)
    (hinj : Function.Injective (cellOf (nD := nD) (τ := τ) cfgs)) (hw : Pipeline.WinFacts₀ (cfgs p).spec)
    (hne : ∀ w : Fin (cfgs p).W, 0 < ((cfgs p).spec w).block.numel) (harr : ∀ w, ((cfgs p).spec w).arr.IsWhole)
    (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Pipeline.Sig Λ₀ P fun p => ((cfgs p).toPCfg (Val := Val)).Adm) .tc) PUnit)
    (hbody : ∀ c, BodyObligationLoose (dats p c) defs₀ 𝒱₀ () Set.univ) (howed : ∀ c t, (dats p c).owed t = 0)
    (V : (c : Dev nD) → (b : Ref sig .tc) → Buf Val ((c.tc : Thread nD τ).loc b))
    (hmain : Pipeline.HMain (Ix := Unit) (Name := ℕ) (U := UR sig nD τ) (Lvl := ℕ) cfgs p defs₀ 𝒱₀ m main V)
    (hdealt : ∀ c, (Pipeline.arrBufs (cfgs p).spec c (V c) : sProp 𝕄) ⊢ (dats p c).arrays ((dats p c).arrAt · 0))
    (hscratch : ∀ c, (Pipeline.scopedRest (cfgs p).spec c : sProp 𝕄) = BI.emp)
    (hΦ : ∀ c t, (dats p c).Φ t = BI.emp) :
    θ_run (Pipeline.defs (fun q => Cfg.toPCfg (Val := Val) (cfgs q)) defs₀) (onTc main) (s₀ m g)
      (Pipeline.FramePost cfgs dats p V) :=
  Pipeline.θ_run_region_noSem_shared cfgs dats () hinj p hw
    (emb₁ : Emb (UR sig nD τ) (MT nD τ sig Unit Val ℕ (UR sig nD τ) ℕ)) defs₀ 𝒱₀ m g main
    (hbody := hbody) (hne := hne) (harr := harr) (hstage := hstage) (howed := howed)
    (u₀ := initOf (Pipeline.cells cfgs hinj) (Pipeline.launchToks cfgs hinj)) (hu₀ := BI.Entails.refl _)
    (V := V) (hmain := hmain) (hsplit := hdealt)
    (X := fun _ => iprop(emp)) (Y := fun _ => iprop(emp))
    (Z := fun c => Pipeline.unscopedRest (Ix := Unit) (Name := ℕ) (U := UR sig nD τ) (Lvl := ℕ) (cfgs p).spec c (V c))
    (hX := fun c => by iintro H; isplitr; · iempintro
                       iexact H)
    (hin := fun c => by rw [hscratch, hΦ]; iintro ⟨-, -⟩; iempintro)
    (hout := fun c => by rw [hscratch, hΦ]; iintro -; isplitr <;> iempintro)
    (QY := fun c s => ∀ b ∈ Pipeline.restRefs sig (cfgs p).spec, s.mem ((c.tc : Thread nD τ).loc b) = V c b)
    (hY := fun c s' => by
      iintro ⟨-, HU, HSI⟩
      unfold Pipeline.unscopedRest
      imodintro
      iapply (pointsTo_read_all (Pipeline.restRefs sig (cfgs p).spec) (fun b => (c.tc : Thread nD τ).loc b) (V c) s')
      isplitl [HU] <;> iassumption)
    (hQ := fun _ h c => ⟨(h c).1, (h c).2⟩)

end Cert.Lib.SharedFrame

end
-- ==== Proof.FrameBits.lean ====
/-
  The frame of the kernel program: every weakly fair execution of @main — fifteen host operations on the weights,
  then one pipelined region of 128 grid points over sixteen windows — terminates without a fault and leaves the
  nineteen argument arrays as launched.

  Windows 0, 1 and 2 read blocks of one array (the activations: a block of 1024 rows and two blocks of 8 rows),
  so the array's ownership is dealt among them in three shares before the first point; every other window holds
  its array whole. The body loads every input window whole, computes, and stores the output
  window whole with one store: after the body the output's staging buffer is one pure function of the fifteen
  input blocks and the grid coordinate.
-/
import proofs.«169599_j67370857005464_2_alg».proof.Proof.Gen.Kernel.Launch
import proofs.«169599_j67370857005464_2_alg».proof.Proof.Gen.Kernel.Skeleton
import proofs.«169599_j67370857005464_2_alg».proof.Proof.Gen.Kernel.Points
import Idealize.ShloMosaic.Lib.Pipeline.FrameBody
import Idealize.ShloMosaic.Lib.Ring
import Idealize.ShloMosaic.Lib.Tactic
import proofs.«169599_j67370857005464_2_alg».proof.Proof.LibSharedFrame

-- membership in a rectangle of long extents recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the fifteen host operations on the weights. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main up to the region: the host operations, over the unscoped buffers, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg13`: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg14`: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg15`: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg16`: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg17`: the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg18`: the region finds it as launched. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))
/-! ## The body's accesses -/

abbrev rS1024x128 : Rect S1024x128 := Rect.unit (s := S1024x128) ![0, 0] S1024x128.size inb_S1024x128_S1024x128_0_0
abbrev rS8x128 : Rect S8x128 := Rect.unit (s := S8x128) ![0, 0] S8x128.size inb_S8x128_S8x128_0_0
abbrev rS128x768 : Rect S128x768 := Rect.unit (s := S128x768) ![0, 0] S128x768.size inb_S128x768_S128x768_0_0
abbrev rS768 : Rect S768 := Rect.unit (s := S768) ![0] S768.size inb_S768_S768_0
abbrev rS256x768 : Rect S256x768 := Rect.unit (s := S256x768) ![0, 0] S256x768.size inb_S256x768_S256x768_0_0
abbrev rS256x128 : Rect S256x128 := Rect.unit (s := S256x128) ![0, 0] S256x128.size inb_S256x128_S256x128_0_0
abbrev rS128 : Rect S128 := Rect.unit (s := S128) ![0] S128.size inb_S128_S128_0
abbrev rS128x64 : Rect S128x64 := Rect.unit (s := S128x64) ![0, 0] S128x64.size inb_S128x64_S128x64_0_0
abbrev rS64 : Rect S64 := Rect.unit (s := S64) ![0] S64.size inb_S64_S64_0
abbrev rS64x10 : Rect S64x10 := Rect.unit (s := S64x10) ![0, 0] S64x10.size inb_S64x10_S64x10_0_0
abbrev rS10 : Rect S10 := Rect.unit (s := S10) ![0] S10.size inb_S10_S10_0
abbrev rS1024x10 : Rect S1024x10 := Rect.unit (s := S1024x10) ![0, 0] S1024x10.size inb_S1024x10_S1024x10_0_0

/-! ## What the body leaves in the output window's buffer -/

/-- Window 15's staging buffer after the body at grid coordinate `i`, from the fifteen input windows' blocks: its one
    store, of the body's composed arithmetic on the blocks read whole. -/
def out15 (i : grid0.Coords) (x0 : Vec F S1024x128 .f32) (x1 : Vec F S8x128 .f32) (x2 : Vec F S8x128 .f32) (x3 : Vec F S128x768 .bf16) (x4 : Vec F S768 .f32) (x5 : Vec F S768 .f32) (x6 : Vec F S256x768 .bf16) (x7 : Vec F S768 .f32) (x8 : Vec F S768 .f32) (x9 : Vec F S256x128 .bf16) (x10 : Vec F S128 .f32) (x11 : Vec F S128x64 .bf16) (x12 : Vec F S64 .f32) (x13 : Vec F S64x10 .bf16) (x14 : Vec F S10 .f32) : Vec F S1024x10 .f32 :=
  View.canon [⟨rS1024x10, k0_pay1 (k0_pay28 (k0_pay21 (k0_pay15 (k0_pay6 (View.ld x1 rS8x128) (View.ld x0 rS1024x128) (View.ld x2 rS8x128) (View.ld x3 rS128x768) (View.ld x4 rS768) (View.ld x5 rS768)) (k0_pay7 (View.ld x1 rS8x128) (View.ld x0 rS1024x128) (View.ld x2 rS8x128) (View.ld x3 rS128x768) (View.ld x4 rS768)) (k0_pay8 (View.ld x1 rS8x128) (View.ld x0 rS1024x128) (View.ld x2 rS8x128) (View.ld x3 rS128x768) (View.ld x4 rS768)) (k0_pay9 (View.ld x1 rS8x128) (View.ld x0 rS1024x128) (View.ld x2 rS8x128) (View.ld x3 rS128x768) (View.ld x4 rS768)) (k0_pay10 (View.ld x5 rS768)) (k0_pay11 (View.ld x5 rS768)) (k0_pay12 (View.ld x5 rS768)) (View.ld x6 rS256x768) (View.ld x7 rS768)) (k0_pay18 (View.ld x8 rS768)) (k0_pay19 (k0_pay6 (View.ld x1 rS8x128) (View.ld x0 rS1024x128) (View.ld x2 rS8x128) (View.ld x3 rS128x768) (View.ld x4 rS768) (View.ld x5 rS768)) (k0_pay7 (View.ld x1 rS8x128) (View.ld x0 rS1024x128) (View.ld x2 rS8x128) (View.ld x3 rS128x768) (View.ld x4 rS768)) (k0_pay8 (View.ld x1 rS8x128) (View.ld x0 rS1024x128) (View.ld x2 rS8x128) (View.ld x3 rS128x768) (View.ld x4 rS768)) (k0_pay9 (View.ld x1 rS8x128) (View.ld x0 rS1024x128) (View.ld x2 rS8x128) (View.ld x3 rS128x768) (View.ld x4 rS768)) (k0_pay10 (View.ld x5 rS768)) (k0_pay11 (View.ld x5 rS768)) (k0_pay12 (View.ld x5 rS768)) (View.ld x6 rS256x768) (View.ld x7 rS768) (View.ld x8 rS768)) (k0_pay20 (k0_pay6 (View.ld x1 rS8x128) (View.ld x0 rS1024x128) (View.ld x2 rS8x128) (View.ld x3 rS128x768) (View.ld x4 rS768) (View.ld x5 rS768)) (k0_pay7 (View.ld x1 rS8x128) (View.ld x0 rS1024x128) (View.ld x2 rS8x128) (View.ld x3 rS128x768) (View.ld x4 rS768)) (k0_pay8 (View.ld x1 rS8x128) (View.ld x0 rS1024x128) (View.ld x2 rS8x128) (View.ld x3 rS128x768) (View.ld x4 rS768)) (k0_pay9 (View.ld x1 rS8x128) (View.ld x0 rS1024x128) (View.ld x2 rS8x128) (View.ld x3 rS128x768) (View.ld x4 rS768)) (k0_pay10 (View.ld x5 rS768)) (k0_pay11 (View.ld x5 rS768)) (k0_pay12 (View.ld x5 rS768)) (View.ld x6 rS256x768) (View.ld x7 rS768) (View.ld x8 rS768)) (View.ld x9 rS256x128)) (k0_pay22 (BitVec.ofNat 32 (i 0).val)) (k0_pay23 (F := F) (BitVec.ofNat 32 (i 0).val)) (k0_pay24 (F := F) (BitVec.ofNat 32 (i 0).val)) (k0_pay25 (F := F) (BitVec.ofNat 32 (i 0).val)) (k0_pay26 (F := F) (BitVec.ofNat 32 (i 0).val)) (k0_pay27 (BitVec.ofNat 32 (i 0).val)) (View.ld x10 rS128) (View.ld x11 rS128x64) (View.ld x12 rS64) (View.ld x13 rS64x10)) (View.ld x14 rS10)⟩]

/-- The one store is of the whole buffer, so it covers it. -/
theorem cover15 (p0 : Vec F S1024x10 .f32) (y : S1024x10.Idx) :
    ∃ pc ∈ ([⟨rS1024x10, p0⟩] : List (View.Piece (Elt F) S1024x10 .f32)), y ∈ pc.1.set :=
  View.cover_of_tiled [⟨rS1024x10, p0⟩] S1024x10.size (by rfl) y

/-! ## The body's triple -/

set_option maxHeartbeats 4000000 in
/-- The kernel body on whole staging memrefs, the inputs' at read contents `xW` and the output's at anything, runs to
    the continuation holding the inputs' as they were and the output's at `out15` of the inputs'. -/
theorem sound_kernel (c : Dev nD) (E : Set ℕ) (i : grid0.Coords) (arg1 : Memref sig .tc .vmem S1024x128 .f32) (harg1 : arg1.IsWhole) (arg2 : Memref sig .tc .vmem S8x128 .f32) (harg2 : arg2.IsWhole) (arg3 : Memref sig .tc .vmem S8x128 .f32) (harg3 : arg3.IsWhole) (arg4 : Memref sig .tc .vmem S128x768 .bf16) (harg4 : arg4.IsWhole) (arg5 : Memref sig .tc .vmem S768 .f32) (harg5 : arg5.IsWhole) (arg6 : Memref sig .tc .vmem S768 .f32) (harg6 : arg6.IsWhole) (arg7 : Memref sig .tc .vmem S256x768 .bf16) (harg7 : arg7.IsWhole) (arg8 : Memref sig .tc .vmem S768 .f32) (harg8 : arg8.IsWhole) (arg9 : Memref sig .tc .vmem S768 .f32) (harg9 : arg9.IsWhole) (arg10 : Memref sig .tc .vmem S256x128 .bf16) (harg10 : arg10.IsWhole) (arg11 : Memref sig .tc .vmem S128 .f32) (harg11 : arg11.IsWhole) (arg12 : Memref sig .tc .vmem S128x64 .bf16) (harg12 : arg12.IsWhole) (arg13 : Memref sig .tc .vmem S64 .f32) (harg13 : arg13.IsWhole) (arg14 : Memref sig .tc .vmem S64x10 .bf16) (harg14 : arg14.IsWhole) (arg15 : Memref sig .tc .vmem S10 .f32) (harg15 : arg15.IsWhole) (arg16 : Memref sig .tc .vmem S1024x10 .f32) (harg16 : arg16.IsWhole)
    (x0 : Vec F S1024x128 .f32) (x1 : Vec F S8x128 .f32) (x2 : Vec F S8x128 .f32) (x3 : Vec F S128x768 .bf16) (x4 : Vec F S768 .f32) (x5 : Vec F S768 .f32) (x6 : Vec F S256x768 .bf16) (x7 : Vec F S768 .f32) (x8 : Vec F S768 .f32) (x9 : Vec F S256x128 .bf16) (x10 : Vec F S128 .f32) (x11 : Vec F S128x64 .bf16) (x12 : Vec F S64 .f32) (x13 : Vec F S64x10 .bf16) (x14 : Vec F S10 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare (out15 i x0 x1 x2 x3 x4 x5 x6 x7 x8 x9 x10 x11 x12 x13 x14)) -∗ K ⟨⟩))
      ⊢ wp frame (wpE (defs₀ (F := F)) Variants.none c none) E (cc0__kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, Hk⟩
  subst hf0 hf1 hf2 hf3 hf4 hf5 hf6 hf7 hf8 hf9 hf10 hf11 hf12 hf13 hf14
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  iexists _; isplitr
  swap; · iexact H15
  ipureintro
  exact View.read_writes_eq_canon _ _ _ (cover15 _)
/-- Input window 0's current staging buffer holds its block at every point, fetched there or not, for any proof
    data whose array is `V`'s (`hA`) and whose body leaves the block in place (`hafter`): unfetched, the block index has
    not moved; the window is uncut and never idle. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof
    data whose array is `V`'s (`hA`) and whose body leaves the block in place (`hafter`): unfetched, the block index has
    not moved; the window is uncut and never idle. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof
    data whose array is `V`'s (`hA`) and whose body leaves the block in place (`hafter`): unfetched, the block index has
    not moved; the window is uncut and never idle. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof
    data whose array is `V`'s (`hA`) and whose body leaves the block in place (`hafter`): unfetched, the block index has
    not moved; the window is uncut and never idle. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for any proof
    data whose array is `V`'s (`hA`) and whose body leaves the block in place (`hafter`): unfetched, the block index has
    not moved; the window is uncut and never idle. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for any proof
    data whose array is `V`'s (`hA`) and whose body leaves the block in place (`hafter`): unfetched, the block index has
    not moved; the window is uncut and never idle. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for any proof
    data whose array is `V`'s (`hA`) and whose body leaves the block in place (`hafter`): unfetched, the block index has
    not moved; the window is uncut and never idle. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for any proof
    data whose array is `V`'s (`hA`) and whose body leaves the block in place (`hafter`): unfetched, the block index has
    not moved; the window is uncut and never idle. -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for any proof
    data whose array is `V`'s (`hA`) and whose body leaves the block in place (`hafter`): unfetched, the block index has
    not moved; the window is uncut and never idle. -/
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for any proof
    data whose array is `V`'s (`hA`) and whose body leaves the block in place (`hafter`): unfetched, the block index has
    not moved; the window is uncut and never idle. -/
theorem before9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for any proof
    data whose array is `V`'s (`hA`) and whose body leaves the block in place (`hafter`): unfetched, the block index has
    not moved; the window is uncut and never idle. -/
theorem before10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for any proof
    data whose array is `V`'s (`hA`) and whose body leaves the block in place (`hafter`): unfetched, the block index has
    not moved; the window is uncut and never idle. -/
theorem before11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for any proof
    data whose array is `V`'s (`hA`) and whose body leaves the block in place (`hafter`): unfetched, the block index has
    not moved; the window is uncut and never idle. -/
theorem before12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for any proof
    data whose array is `V`'s (`hA`) and whose body leaves the block in place (`hafter`): unfetched, the block index has
    not moved; the window is uncut and never idle. -/
theorem before13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not, for any proof
    data whose array is `V`'s (`hA`) and whose body leaves the block in place (`hafter`): unfetched, the block index has
    not moved; the window is uncut and never idle. -/
theorem before14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)

/-! ## The pipeline's proof data -/

/-- The proof data of the one pipeline on core `c`: the arrays as the region finds them (`V`); after the body at
    point `t` each input's buffer at its block and the output's at `out15` of the input blocks and the point's
    coordinate; an empty invariant (the core has no scoped buffer beside the staging buffers, and the body uses
    nothing of its own); nothing owed; the three windows on the activations hold a share of that array each, every
    other window its array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => out15 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    | ⟨_ + 16, h⟩ => absurd h (Nat.not_lt.2 (Nat.le_add_left _ _))
  Φ _ := BI.emp
  q w := match w with
    | ⟨0, _⟩ => fullShare.left
    | ⟨1, _⟩ => fullShare.right.left
    | ⟨2, _⟩ => fullShare.right.right
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
    | ⟨12, _⟩ => fullShare
    | ⟨13, _⟩ => fullShare
    | ⟨14, _⟩ => fullShare
    | ⟨15, _⟩ => fullShare
    | ⟨_ + 16, h⟩ => absurd h (Nat.not_lt.2 (Nat.le_add_left _ _))
  owed _ := 0

/-- The proof data's arrays are the region-entry contents: the definition projected, `V` never unfolded. -/
theorem A_eq (c : Dev nD) (w : Fin cfg0.W) : (dats m 0 c).A w = V m c (Pipeline.arrRef spec0 w) := by
  dsimp only [dats]

/-- What the body leaves, window by window. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = out15 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by dsimp only [dats]

/-- Each input's current staging buffer holds its block at every point, fetched there or not. -/
theorem before_0 (c : Dev nD) (t : Fin cfg0.N) (d) : (dats m 0 c).before 0 t d = iblk m c 0 t :=
  before0_of m (dats m 0 c) (A_eq m c 0) (after_0 m c) t d
theorem before_1 (c : Dev nD) (t : Fin cfg0.N) (d) : (dats m 0 c).before 1 t d = iblk m c 1 t :=
  before1_of m (dats m 0 c) (A_eq m c 1) (after_1 m c) t d
theorem before_2 (c : Dev nD) (t : Fin cfg0.N) (d) : (dats m 0 c).before 2 t d = iblk m c 2 t :=
  before2_of m (dats m 0 c) (A_eq m c 2) (after_2 m c) t d
theorem before_3 (c : Dev nD) (t : Fin cfg0.N) (d) : (dats m 0 c).before 3 t d = iblk m c 3 t :=
  before3_of m (dats m 0 c) (A_eq m c 3) (after_3 m c) t d
theorem before_4 (c : Dev nD) (t : Fin cfg0.N) (d) : (dats m 0 c).before 4 t d = iblk m c 4 t :=
  before4_of m (dats m 0 c) (A_eq m c 4) (after_4 m c) t d
theorem before_5 (c : Dev nD) (t : Fin cfg0.N) (d) : (dats m 0 c).before 5 t d = iblk m c 5 t :=
  before5_of m (dats m 0 c) (A_eq m c 5) (after_5 m c) t d
theorem before_6 (c : Dev nD) (t : Fin cfg0.N) (d) : (dats m 0 c).before 6 t d = iblk m c 6 t :=
  before6_of m (dats m 0 c) (A_eq m c 6) (after_6 m c) t d
theorem before_7 (c : Dev nD) (t : Fin cfg0.N) (d) : (dats m 0 c).before 7 t d = iblk m c 7 t :=
  before7_of m (dats m 0 c) (A_eq m c 7) (after_7 m c) t d
theorem before_8 (c : Dev nD) (t : Fin cfg0.N) (d) : (dats m 0 c).before 8 t d = iblk m c 8 t :=
  before8_of m (dats m 0 c) (A_eq m c 8) (after_8 m c) t d
theorem before_9 (c : Dev nD) (t : Fin cfg0.N) (d) : (dats m 0 c).before 9 t d = iblk m c 9 t :=
  before9_of m (dats m 0 c) (A_eq m c 9) (after_9 m c) t d
theorem before_10 (c : Dev nD) (t : Fin cfg0.N) (d) : (dats m 0 c).before 10 t d = iblk m c 10 t :=
  before10_of m (dats m 0 c) (A_eq m c 10) (after_10 m c) t d
theorem before_11 (c : Dev nD) (t : Fin cfg0.N) (d) : (dats m 0 c).before 11 t d = iblk m c 11 t :=
  before11_of m (dats m 0 c) (A_eq m c 11) (after_11 m c) t d
theorem before_12 (c : Dev nD) (t : Fin cfg0.N) (d) : (dats m 0 c).before 12 t d = iblk m c 12 t :=
  before12_of m (dats m 0 c) (A_eq m c 12) (after_12 m c) t d
theorem before_13 (c : Dev nD) (t : Fin cfg0.N) (d) : (dats m 0 c).before 13 t d = iblk m c 13 t :=
  before13_of m (dats m 0 c) (A_eq m c 13) (after_13 m c) t d
theorem before_14 (c : Dev nD) (t : Fin cfg0.N) (d) : (dats m 0 c).before 14 t d = iblk m c 14 t :=
  before14_of m (dats m 0 c) (A_eq m c 14) (after_14 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t))

set_option maxHeartbeats 1000000 in
/-- The body at any point: the inputs' memrefs hold their blocks, so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14, after_15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_kernel c Set.univ (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The library's body obligation, at every point. -/
theorem body_obligation (c : Dev nD) : BodyObligation (dats (F := F) m 0 c) (defs₀ (F := F)) Variants.none () Set.univ := fun t => by
  rw [bigSep_W0, bigSep_W0]
  exact sound_body m c t
/-! ## The arrays dealt among the windows -/

/-- The share each window holds its array at: the three windows on the activations one part each of that
    array's ownership (the full share's left part, and the left and the right part of its right part), every other window the whole of its own. -/
theorem share_0 (c : Dev nD) : (dats m 0 c).share 0 = fullShare.left := rfl
theorem share_1 (c : Dev nD) : (dats m 0 c).share 1 = fullShare.right.left := rfl
theorem share_2 (c : Dev nD) : (dats m 0 c).share 2 = fullShare.right.right := rfl
theorem share_3 (c : Dev nD) : (dats m 0 c).share 3 = fullShare := rfl
theorem share_4 (c : Dev nD) : (dats m 0 c).share 4 = fullShare := rfl
theorem share_5 (c : Dev nD) : (dats m 0 c).share 5 = fullShare := rfl
theorem share_6 (c : Dev nD) : (dats m 0 c).share 6 = fullShare := rfl
theorem share_7 (c : Dev nD) : (dats m 0 c).share 7 = fullShare := rfl
theorem share_8 (c : Dev nD) : (dats m 0 c).share 8 = fullShare := rfl
theorem share_9 (c : Dev nD) : (dats m 0 c).share 9 = fullShare := rfl
theorem share_10 (c : Dev nD) : (dats m 0 c).share 10 = fullShare := rfl
theorem share_11 (c : Dev nD) : (dats m 0 c).share 11 = fullShare := rfl
theorem share_12 (c : Dev nD) : (dats m 0 c).share 12 = fullShare := rfl
theorem share_13 (c : Dev nD) : (dats m 0 c).share 13 = fullShare := rfl
theorem share_14 (c : Dev nD) : (dats m 0 c).share 14 = fullShare := rfl
theorem share_15 (c : Dev nD) : (dats m 0 c).share 15 = fullShare := rfl

/-- Window `w`'s array as the proof data holds it at the region's entry: the whole buffer behind it, at the
    region-entry contents, at the window's share. -/
theorem arr_entry (c : Dev nD) (w : Fin cfg0.W) :
    ((cfg0.win w).arr.view.loc (c.tc : Thread nD τ) ↦[(cfg0.win w).arr.view.set]{(dats m 0 c).share w} (dats m 0 c).arrAt w 0 : sProp 𝕄)
      = (((c.tc : Thread nD τ).loc (Pipeline.arrRef spec0 w)) ↦{(dats m 0 c).share w} V m c (Pipeline.arrRef spec0 w)) := by
  have h : (cfg0.win w).arr.IsWhole := arr_whole0 w
  rw [h.set_eq_univ]; rfl

/-- The distinct buffers behind the sixteen windows' arrays, listed: fourteen, the activations counted once. -/
theorem arrBufs0_eq (c : Dev nD) (V' : (b : Ref sig .tc) → Buf (Elt F) ((c.tc : Thread nD τ).loc b)) :
    (Pipeline.arrBufs spec0 c V' : sProp 𝕄)
      = iprop((((c.tc : Thread nD τ).loc main_arg0) ↦{fullShare} V' main_arg0) ∗ (((c.tc : Thread nD τ).loc main_v3) ↦{fullShare} V' main_v3) ∗ (((c.tc : Thread nD τ).loc main_v4) ↦{fullShare} V' main_v4) ∗ (((c.tc : Thread nD τ).loc main_v5) ↦{fullShare} V' main_v5) ∗ (((c.tc : Thread nD τ).loc main_v9) ↦{fullShare} V' main_v9) ∗ (((c.tc : Thread nD τ).loc main_v10) ↦{fullShare} V' main_v10) ∗ (((c.tc : Thread nD τ).loc main_v11) ↦{fullShare} V' main_v11) ∗ (((c.tc : Thread nD τ).loc main_v12) ↦{fullShare} V' main_v12) ∗ (((c.tc : Thread nD τ).loc main_arg14) ↦{fullShare} V' main_arg14) ∗ (((c.tc : Thread nD τ).loc main_v13) ↦{fullShare} V' main_v13) ∗ (((c.tc : Thread nD τ).loc main_arg16) ↦{fullShare} V' main_arg16) ∗ (((c.tc : Thread nD τ).loc main_v14) ↦{fullShare} V' main_v14) ∗ (((c.tc : Thread nD τ).loc main_arg18) ↦{fullShare} V' main_arg18) ∗ (((c.tc : Thread nD τ).loc main_v15) ↦{fullShare} V' main_v15)) := by
  unfold Pipeline.arrBufs
  exact bigSep_eq_bigSepL_of_eq [main_arg0, main_v3, main_v4, main_v5, main_v9, main_v10, main_v11, main_v12, main_arg14, main_v13, main_arg16, main_v14, main_arg18, main_v15] (by decide) (by decide) _

/-- The buffers behind the windows' arrays, each held whole as the region finds it, make the proof data's arrays:
    the activations' ownership is split in three, one part per window reading it; every other buffer goes whole to
    its one window. -/
theorem hdealt (c : Dev nD) : (Pipeline.arrBufs spec0 c (V m c) : sProp 𝕄) ⊢ (dats m 0 c).arrays ((dats m 0 c).arrAt · 0) := by
  rw [arrBufs0_eq]
  unfold Dat.arrays
  rw [bigSep_congr fun w _ => arr_entry m c w]
  rw [bigSep_W0]
  rw [share_0, share_1, share_2, share_3, share_4, share_5, share_6, share_7, share_8, share_9, share_10, share_11, share_12, share_13, share_14, share_15]
  iintro ⟨H_main_arg0, H_main_v3, H_main_v4, H_main_v5, H_main_v9, H_main_v10, H_main_v11, H_main_v12, H_main_arg14, H_main_v13, H_main_arg16, H_main_v14, H_main_arg18, H_main_v15⟩
  ihave Hs := (pointsTo_share (PosShare.mem_left_op_right fullShare)).1 $$ H_main_arg0
  icases Hs with ⟨Hl, Hr⟩
  ihave Hs := (pointsTo_share (PosShare.mem_left_op_right fullShare.right)).1 $$ Hr
  icases Hs with ⟨Hrl, Hrr⟩
  isplitl [Hl]; · iexact Hl
  isplitl [Hrl]; · iexact Hrl
  isplitl [Hrr]; · iexact Hrr
  isplitl [H_main_v3]; · iexact H_main_v3
  isplitl [H_main_v4]; · iexact H_main_v4
  isplitl [H_main_v5]; · iexact H_main_v5
  isplitl [H_main_v9]; · iexact H_main_v9
  isplitl [H_main_v10]; · iexact H_main_v10
  isplitl [H_main_v11]; · iexact H_main_v11
  isplitl [H_main_v12]; · iexact H_main_v12
  isplitl [H_main_arg14]; · iexact H_main_arg14
  isplitl [H_main_v13]; · iexact H_main_v13
  isplitl [H_main_arg16]; · iexact H_main_arg16
  isplitl [H_main_v14]; · iexact H_main_v14
  isplitl [H_main_arg18]; · iexact H_main_arg18
  iexact H_main_v15

/-! ## The run and the frame -/

/-- The frame from a frame run: for any proof data whose arrays are the region-entry contents (`hA`), a run to the
    library's `FramePost` read at the argument arrays — an argument some window stages is an input window's array,
    never written; an argument no window stages ends as the region found it; each is then the launch memory's,
    the host operations writing none — is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).1 10).trans (((dats 0 c).arrAt_in 10 rfl _).trans ((hA c 10).trans (V_main_arg14 m c))),
      ((h c).2 main_arg15 (Pipeline.mem_restRefs_of main_arg15 (by decide) (by decide))).trans (V_main_arg15 m c),
      ((h c).1 12).trans (((dats 0 c).arrAt_in 12 rfl _).trans ((hA c 12).trans (V_main_arg16 m c))),
      ((h c).2 main_arg17 (Pipeline.mem_restRefs_of main_arg17 (by decide) (by decide))).trans (V_main_arg17 m c),
      ((h c).1 14).trans (((dats 0 c).arrAt_in 14 rfl _).trans ((hA c 14).trans (V_main_arg18 m c)))⟩) h

-- the launch theorem's implicit arguments are found by unifying its conclusion with this one, which takes unfolding
-- plain definitions in a metavariable's type
set_option backward.isDefEq.respectTransparency.types false in
/-- At the compiled mesh, for any values, from any memory with zero counters: every weakly fair execution of @main on
    the TensorCores terminates, and every final state has every array of the pipeline at what the library computes
    from the proof data and every other unscoped buffer as the region found it. -/
theorem run_main : θ_run defs (onTc (τ := τ) (main (F := F))) (s₀ m ρ) (Pipeline.FramePost cfgs (dats m) 0 (V m)) :=
  Cert.Lib.SharedFrame.run_frame cfgs (dats m) (0 : Fin 1) cellOf_inj winFacts₀0 block_pos0 arr_whole0 stage_whole0
    defs₀ Variants.none m ρ main
    (hbody := fun c => (body_obligation m c).loose) (howed := fun _ _ => rfl) (V := V m) (hmain := hmain m Variants.none)
    (hdealt := hdealt m) (hscratch := fun c => scopedRest0_eq c) (hΦ := fun _ _ => rfl)

/-- info: 'Cert.Kernel.Hand.run_main' depends on axioms: [propext, Classical.choice, Quot.sound] -/
#guard_msgs in #print axioms run_main

/-- The frame: every weakly fair execution of @main terminates without a fault and the nineteen argument arrays end
    as launched, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

end Cert.Kernel.Hand

end
-- ==== Proof.FrameIdeal.lean ====
/-
  The frame of the kernel program: every weakly fair execution of @main — fifteen host operations on the weights,
  then one pipelined region of 128 grid points over sixteen windows — terminates without a fault and leaves the
  nineteen argument arrays as launched.

  Windows 0, 1 and 2 read blocks of one array (the activations: a block of 1024 rows and two blocks of 8 rows),
  so the array's ownership is dealt among them in three shares before the first point; every other window holds
  its array whole. The body loads every input window whole, computes, and stores the output
  window whole with one store: after the body the output's staging buffer is one pure function of the fifteen
  input blocks and the grid coordinate.
-/
import proofs.«169599_j67370857005464_2_alg».proof.Proof.Gen.KernelIdeal.Launch
import proofs.«169599_j67370857005464_2_alg».proof.Proof.Gen.KernelIdeal.Skeleton
import proofs.«169599_j67370857005464_2_alg».proof.Proof.Gen.KernelIdeal.Points
import Idealize.ShloMosaic.Lib.Pipeline.FrameBody
import Idealize.ShloMosaic.Lib.Ring
import Idealize.ShloMosaic.Lib.Tactic
import proofs.«169599_j67370857005464_2_alg».proof.Proof.LibSharedFrame

-- membership in a rectangle of long extents recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the fifteen host operations on the weights. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main up to the region: the host operations, over the unscoped buffers, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg13`: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg14`: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg15`: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg16`: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg17`: the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg18`: the region finds it as launched. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))
/-! ## The body's accesses -/

abbrev rS1024x128 : Rect S1024x128 := Rect.unit (s := S1024x128) ![0, 0] S1024x128.size inb_S1024x128_S1024x128_0_0
abbrev rS8x128 : Rect S8x128 := Rect.unit (s := S8x128) ![0, 0] S8x128.size inb_S8x128_S8x128_0_0
abbrev rS128x768 : Rect S128x768 := Rect.unit (s := S128x768) ![0, 0] S128x768.size inb_S128x768_S128x768_0_0
abbrev rS768 : Rect S768 := Rect.unit (s := S768) ![0] S768.size inb_S768_S768_0
abbrev rS256x768 : Rect S256x768 := Rect.unit (s := S256x768) ![0, 0] S256x768.size inb_S256x768_S256x768_0_0
abbrev rS256x128 : Rect S256x128 := Rect.unit (s := S256x128) ![0, 0] S256x128.size inb_S256x128_S256x128_0_0
abbrev rS128 : Rect S128 := Rect.unit (s := S128) ![0] S128.size inb_S128_S128_0
abbrev rS128x64 : Rect S128x64 := Rect.unit (s := S128x64) ![0, 0] S128x64.size inb_S128x64_S128x64_0_0
abbrev rS64 : Rect S64 := Rect.unit (s := S64) ![0] S64.size inb_S64_S64_0
abbrev rS64x10 : Rect S64x10 := Rect.unit (s := S64x10) ![0, 0] S64x10.size inb_S64x10_S64x10_0_0
abbrev rS10 : Rect S10 := Rect.unit (s := S10) ![0] S10.size inb_S10_S10_0
abbrev rS1024x10 : Rect S1024x10 := Rect.unit (s := S1024x10) ![0, 0] S1024x10.size inb_S1024x10_S1024x10_0_0

/-! ## What the body leaves in the output window's buffer -/

/-- Window 15's staging buffer after the body at grid coordinate `i`, from the fifteen input windows' blocks: its one
    store, of the body's composed arithmetic on the blocks read whole. -/
def out15 (i : grid0.Coords) (x0 : Vec F S1024x128 .f32) (x1 : Vec F S8x128 .f32) (x2 : Vec F S8x128 .f32) (x3 : Vec F S128x768 .bf16) (x4 : Vec F S768 .f32) (x5 : Vec F S768 .f32) (x6 : Vec F S256x768 .bf16) (x7 : Vec F S768 .f32) (x8 : Vec F S768 .f32) (x9 : Vec F S256x128 .bf16) (x10 : Vec F S128 .f32) (x11 : Vec F S128x64 .bf16) (x12 : Vec F S64 .f32) (x13 : Vec F S64x10 .bf16) (x14 : Vec F S10 .f32) : Vec F S1024x10 .f32 :=
  View.canon [⟨rS1024x10, k0_pay1 (k0_pay28 (k0_pay21 (k0_pay15 (k0_pay6 (View.ld x1 rS8x128) (View.ld x0 rS1024x128) (View.ld x2 rS8x128) (View.ld x3 rS128x768) (View.ld x4 rS768) (View.ld x5 rS768)) (k0_pay7 (View.ld x1 rS8x128) (View.ld x0 rS1024x128) (View.ld x2 rS8x128) (View.ld x3 rS128x768) (View.ld x4 rS768)) (k0_pay8 (View.ld x1 rS8x128) (View.ld x0 rS1024x128) (View.ld x2 rS8x128) (View.ld x3 rS128x768) (View.ld x4 rS768)) (k0_pay9 (View.ld x1 rS8x128) (View.ld x0 rS1024x128) (View.ld x2 rS8x128) (View.ld x3 rS128x768) (View.ld x4 rS768)) (k0_pay10 (View.ld x5 rS768)) (k0_pay11 (View.ld x5 rS768)) (k0_pay12 (View.ld x5 rS768)) (View.ld x6 rS256x768) (View.ld x7 rS768)) (k0_pay18 (View.ld x8 rS768)) (k0_pay19 (k0_pay6 (View.ld x1 rS8x128) (View.ld x0 rS1024x128) (View.ld x2 rS8x128) (View.ld x3 rS128x768) (View.ld x4 rS768) (View.ld x5 rS768)) (k0_pay7 (View.ld x1 rS8x128) (View.ld x0 rS1024x128) (View.ld x2 rS8x128) (View.ld x3 rS128x768) (View.ld x4 rS768)) (k0_pay8 (View.ld x1 rS8x128) (View.ld x0 rS1024x128) (View.ld x2 rS8x128) (View.ld x3 rS128x768) (View.ld x4 rS768)) (k0_pay9 (View.ld x1 rS8x128) (View.ld x0 rS1024x128) (View.ld x2 rS8x128) (View.ld x3 rS128x768) (View.ld x4 rS768)) (k0_pay10 (View.ld x5 rS768)) (k0_pay11 (View.ld x5 rS768)) (k0_pay12 (View.ld x5 rS768)) (View.ld x6 rS256x768) (View.ld x7 rS768) (View.ld x8 rS768)) (k0_pay20 (k0_pay6 (View.ld x1 rS8x128) (View.ld x0 rS1024x128) (View.ld x2 rS8x128) (View.ld x3 rS128x768) (View.ld x4 rS768) (View.ld x5 rS768)) (k0_pay7 (View.ld x1 rS8x128) (View.ld x0 rS1024x128) (View.ld x2 rS8x128) (View.ld x3 rS128x768) (View.ld x4 rS768)) (k0_pay8 (View.ld x1 rS8x128) (View.ld x0 rS1024x128) (View.ld x2 rS8x128) (View.ld x3 rS128x768) (View.ld x4 rS768)) (k0_pay9 (View.ld x1 rS8x128) (View.ld x0 rS1024x128) (View.ld x2 rS8x128) (View.ld x3 rS128x768) (View.ld x4 rS768)) (k0_pay10 (View.ld x5 rS768)) (k0_pay11 (View.ld x5 rS768)) (k0_pay12 (View.ld x5 rS768)) (View.ld x6 rS256x768) (View.ld x7 rS768) (View.ld x8 rS768)) (View.ld x9 rS256x128)) (k0_pay22 (BitVec.ofNat 32 (i 0).val)) (k0_pay23 (F := F) (BitVec.ofNat 32 (i 0).val)) (k0_pay24 (F := F) (BitVec.ofNat 32 (i 0).val)) (k0_pay25 (F := F) (BitVec.ofNat 32 (i 0).val)) (k0_pay26 (F := F) (BitVec.ofNat 32 (i 0).val)) (k0_pay27 (BitVec.ofNat 32 (i 0).val)) (View.ld x10 rS128) (View.ld x11 rS128x64) (View.ld x12 rS64) (View.ld x13 rS64x10)) (View.ld x14 rS10)⟩]

/-- The one store is of the whole buffer, so it covers it. -/
theorem cover15 (p0 : Vec F S1024x10 .f32) (y : S1024x10.Idx) :
    ∃ pc ∈ ([⟨rS1024x10, p0⟩] : List (View.Piece (Elt F) S1024x10 .f32)), y ∈ pc.1.set :=
  View.cover_of_tiled [⟨rS1024x10, p0⟩] S1024x10.size (by rfl) y

/-! ## The body's triple -/

set_option maxHeartbeats 4000000 in
/-- The kernel body on whole staging memrefs, the inputs' at read contents `xW` and the output's at anything, runs to
    the continuation holding the inputs' as they were and the output's at `out15` of the inputs'. -/
theorem sound_kernel (c : Dev nD) (E : Set ℕ) (i : grid0.Coords) (arg1 : Memref sig .tc .vmem S1024x128 .f32) (harg1 : arg1.IsWhole) (arg2 : Memref sig .tc .vmem S8x128 .f32) (harg2 : arg2.IsWhole) (arg3 : Memref sig .tc .vmem S8x128 .f32) (harg3 : arg3.IsWhole) (arg4 : Memref sig .tc .vmem S128x768 .bf16) (harg4 : arg4.IsWhole) (arg5 : Memref sig .tc .vmem S768 .f32) (harg5 : arg5.IsWhole) (arg6 : Memref sig .tc .vmem S768 .f32) (harg6 : arg6.IsWhole) (arg7 : Memref sig .tc .vmem S256x768 .bf16) (harg7 : arg7.IsWhole) (arg8 : Memref sig .tc .vmem S768 .f32) (harg8 : arg8.IsWhole) (arg9 : Memref sig .tc .vmem S768 .f32) (harg9 : arg9.IsWhole) (arg10 : Memref sig .tc .vmem S256x128 .bf16) (harg10 : arg10.IsWhole) (arg11 : Memref sig .tc .vmem S128 .f32) (harg11 : arg11.IsWhole) (arg12 : Memref sig .tc .vmem S128x64 .bf16) (harg12 : arg12.IsWhole) (arg13 : Memref sig .tc .vmem S64 .f32) (harg13 : arg13.IsWhole) (arg14 : Memref sig .tc .vmem S64x10 .bf16) (harg14 : arg14.IsWhole) (arg15 : Memref sig .tc .vmem S10 .f32) (harg15 : arg15.IsWhole) (arg16 : Memref sig .tc .vmem S1024x10 .f32) (harg16 : arg16.IsWhole)
    (x0 : Vec F S1024x128 .f32) (x1 : Vec F S8x128 .f32) (x2 : Vec F S8x128 .f32) (x3 : Vec F S128x768 .bf16) (x4 : Vec F S768 .f32) (x5 : Vec F S768 .f32) (x6 : Vec F S256x768 .bf16) (x7 : Vec F S768 .f32) (x8 : Vec F S768 .f32) (x9 : Vec F S256x128 .bf16) (x10 : Vec F S128 .f32) (x11 : Vec F S128x64 .bf16) (x12 : Vec F S64 .f32) (x13 : Vec F S64x10 .bf16) (x14 : Vec F S10 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare (out15 i x0 x1 x2 x3 x4 x5 x6 x7 x8 x9 x10 x11 x12 x13 x14)) -∗ K ⟨⟩))
      ⊢ wp frame (wpE (defs₀ (F := F)) Variants.none c none) E (cc0__kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, Hk⟩
  subst hf0 hf1 hf2 hf3 hf4 hf5 hf6 hf7 hf8 hf9 hf10 hf11 hf12 hf13 hf14
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  iexists _; isplitr
  swap; · iexact H15
  ipureintro
  exact View.read_writes_eq_canon _ _ _ (cover15 _)
/-- Input window 0's current staging buffer holds its block at every point, fetched there or not, for any proof
    data whose array is `V`'s (`hA`) and whose body leaves the block in place (`hafter`): unfetched, the block index has
    not moved; the window is uncut and never idle. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof
    data whose array is `V`'s (`hA`) and whose body leaves the block in place (`hafter`): unfetched, the block index has
    not moved; the window is uncut and never idle. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof
    data whose array is `V`'s (`hA`) and whose body leaves the block in place (`hafter`): unfetched, the block index has
    not moved; the window is uncut and never idle. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof
    data whose array is `V`'s (`hA`) and whose body leaves the block in place (`hafter`): unfetched, the block index has
    not moved; the window is uncut and never idle. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for any proof
    data whose array is `V`'s (`hA`) and whose body leaves the block in place (`hafter`): unfetched, the block index has
    not moved; the window is uncut and never idle. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for any proof
    data whose array is `V`'s (`hA`) and whose body leaves the block in place (`hafter`): unfetched, the block index has
    not moved; the window is uncut and never idle. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for any proof
    data whose array is `V`'s (`hA`) and whose body leaves the block in place (`hafter`): unfetched, the block index has
    not moved; the window is uncut and never idle. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for any proof
    data whose array is `V`'s (`hA`) and whose body leaves the block in place (`hafter`): unfetched, the block index has
    not moved; the window is uncut and never idle. -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for any proof
    data whose array is `V`'s (`hA`) and whose body leaves the block in place (`hafter`): unfetched, the block index has
    not moved; the window is uncut and never idle. -/
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for any proof
    data whose array is `V`'s (`hA`) and whose body leaves the block in place (`hafter`): unfetched, the block index has
    not moved; the window is uncut and never idle. -/
theorem before9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for any proof
    data whose array is `V`'s (`hA`) and whose body leaves the block in place (`hafter`): unfetched, the block index has
    not moved; the window is uncut and never idle. -/
theorem before10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for any proof
    data whose array is `V`'s (`hA`) and whose body leaves the block in place (`hafter`): unfetched, the block index has
    not moved; the window is uncut and never idle. -/
theorem before11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for any proof
    data whose array is `V`'s (`hA`) and whose body leaves the block in place (`hafter`): unfetched, the block index has
    not moved; the window is uncut and never idle. -/
theorem before12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for any proof
    data whose array is `V`'s (`hA`) and whose body leaves the block in place (`hafter`): unfetched, the block index has
    not moved; the window is uncut and never idle. -/
theorem before13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not, for any proof
    data whose array is `V`'s (`hA`) and whose body leaves the block in place (`hafter`): unfetched, the block index has
    not moved; the window is uncut and never idle. -/
theorem before14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)

/-! ## The pipeline's proof data -/

/-- The proof data of the one pipeline on core `c`: the arrays as the region finds them (`V`); after the body at
    point `t` each input's buffer at its block and the output's at `out15` of the input blocks and the point's
    coordinate; an empty invariant (the core has no scoped buffer beside the staging buffers, and the body uses
    nothing of its own); nothing owed; the three windows on the activations hold a share of that array each, every
    other window its array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => out15 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    | ⟨_ + 16, h⟩ => absurd h (Nat.not_lt.2 (Nat.le_add_left _ _))
  Φ _ := BI.emp
  q w := match w with
    | ⟨0, _⟩ => fullShare.left
    | ⟨1, _⟩ => fullShare.right.left
    | ⟨2, _⟩ => fullShare.right.right
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
    | ⟨12, _⟩ => fullShare
    | ⟨13, _⟩ => fullShare
    | ⟨14, _⟩ => fullShare
    | ⟨15, _⟩ => fullShare
    | ⟨_ + 16, h⟩ => absurd h (Nat.not_lt.2 (Nat.le_add_left _ _))
  owed _ := 0

/-- The proof data's arrays are the region-entry contents: the definition projected, `V` never unfolded. -/
theorem A_eq (c : Dev nD) (w : Fin cfg0.W) : (dats m 0 c).A w = V m c (Pipeline.arrRef spec0 w) := by
  dsimp only [dats]

/-- What the body leaves, window by window. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = out15 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by dsimp only [dats]

/-- Each input's current staging buffer holds its block at every point, fetched there or not. -/
theorem before_0 (c : Dev nD) (t : Fin cfg0.N) (d) : (dats m 0 c).before 0 t d = iblk m c 0 t :=
  before0_of m (dats m 0 c) (A_eq m c 0) (after_0 m c) t d
theorem before_1 (c : Dev nD) (t : Fin cfg0.N) (d) : (dats m 0 c).before 1 t d = iblk m c 1 t :=
  before1_of m (dats m 0 c) (A_eq m c 1) (after_1 m c) t d
theorem before_2 (c : Dev nD) (t : Fin cfg0.N) (d) : (dats m 0 c).before 2 t d = iblk m c 2 t :=
  before2_of m (dats m 0 c) (A_eq m c 2) (after_2 m c) t d
theorem before_3 (c : Dev nD) (t : Fin cfg0.N) (d) : (dats m 0 c).before 3 t d = iblk m c 3 t :=
  before3_of m (dats m 0 c) (A_eq m c 3) (after_3 m c) t d
theorem before_4 (c : Dev nD) (t : Fin cfg0.N) (d) : (dats m 0 c).before 4 t d = iblk m c 4 t :=
  before4_of m (dats m 0 c) (A_eq m c 4) (after_4 m c) t d
theorem before_5 (c : Dev nD) (t : Fin cfg0.N) (d) : (dats m 0 c).before 5 t d = iblk m c 5 t :=
  before5_of m (dats m 0 c) (A_eq m c 5) (after_5 m c) t d
theorem before_6 (c : Dev nD) (t : Fin cfg0.N) (d) : (dats m 0 c).before 6 t d = iblk m c 6 t :=
  before6_of m (dats m 0 c) (A_eq m c 6) (after_6 m c) t d
theorem before_7 (c : Dev nD) (t : Fin cfg0.N) (d) : (dats m 0 c).before 7 t d = iblk m c 7 t :=
  before7_of m (dats m 0 c) (A_eq m c 7) (after_7 m c) t d
theorem before_8 (c : Dev nD) (t : Fin cfg0.N) (d) : (dats m 0 c).before 8 t d = iblk m c 8 t :=
  before8_of m (dats m 0 c) (A_eq m c 8) (after_8 m c) t d
theorem before_9 (c : Dev nD) (t : Fin cfg0.N) (d) : (dats m 0 c).before 9 t d = iblk m c 9 t :=
  before9_of m (dats m 0 c) (A_eq m c 9) (after_9 m c) t d
theorem before_10 (c : Dev nD) (t : Fin cfg0.N) (d) : (dats m 0 c).before 10 t d = iblk m c 10 t :=
  before10_of m (dats m 0 c) (A_eq m c 10) (after_10 m c) t d
theorem before_11 (c : Dev nD) (t : Fin cfg0.N) (d) : (dats m 0 c).before 11 t d = iblk m c 11 t :=
  before11_of m (dats m 0 c) (A_eq m c 11) (after_11 m c) t d
theorem before_12 (c : Dev nD) (t : Fin cfg0.N) (d) : (dats m 0 c).before 12 t d = iblk m c 12 t :=
  before12_of m (dats m 0 c) (A_eq m c 12) (after_12 m c) t d
theorem before_13 (c : Dev nD) (t : Fin cfg0.N) (d) : (dats m 0 c).before 13 t d = iblk m c 13 t :=
  before13_of m (dats m 0 c) (A_eq m c 13) (after_13 m c) t d
theorem before_14 (c : Dev nD) (t : Fin cfg0.N) (d) : (dats m 0 c).before 14 t d = iblk m c 14 t :=
  before14_of m (dats m 0 c) (A_eq m c 14) (after_14 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t))

set_option maxHeartbeats 1000000 in
/-- The body at any point: the inputs' memrefs hold their blocks, so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14, after_15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_kernel c Set.univ (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The library's body obligation, at every point. -/
theorem body_obligation (c : Dev nD) : BodyObligation (dats (F := F) m 0 c) (defs₀ (F := F)) Variants.none () Set.univ := fun t => by
  rw [bigSep_W0, bigSep_W0]
  exact sound_body m c t
/-! ## The arrays dealt among the windows -/

/-- The share each window holds its array at: the three windows on the activations one part each of that
    array's ownership (the full share's left part, and the left and the right part of its right part), every other window the whole of its own. -/
theorem share_0 (c : Dev nD) : (dats m 0 c).share 0 = fullShare.left := rfl
theorem share_1 (c : Dev nD) : (dats m 0 c).share 1 = fullShare.right.left := rfl
theorem share_2 (c : Dev nD) : (dats m 0 c).share 2 = fullShare.right.right := rfl
theorem share_3 (c : Dev nD) : (dats m 0 c).share 3 = fullShare := rfl
theorem share_4 (c : Dev nD) : (dats m 0 c).share 4 = fullShare := rfl
theorem share_5 (c : Dev nD) : (dats m 0 c).share 5 = fullShare := rfl
theorem share_6 (c : Dev nD) : (dats m 0 c).share 6 = fullShare := rfl
theorem share_7 (c : Dev nD) : (dats m 0 c).share 7 = fullShare := rfl
theorem share_8 (c : Dev nD) : (dats m 0 c).share 8 = fullShare := rfl
theorem share_9 (c : Dev nD) : (dats m 0 c).share 9 = fullShare := rfl
theorem share_10 (c : Dev nD) : (dats m 0 c).share 10 = fullShare := rfl
theorem share_11 (c : Dev nD) : (dats m 0 c).share 11 = fullShare := rfl
theorem share_12 (c : Dev nD) : (dats m 0 c).share 12 = fullShare := rfl
theorem share_13 (c : Dev nD) : (dats m 0 c).share 13 = fullShare := rfl
theorem share_14 (c : Dev nD) : (dats m 0 c).share 14 = fullShare := rfl
theorem share_15 (c : Dev nD) : (dats m 0 c).share 15 = fullShare := rfl

/-- Window `w`'s array as the proof data holds it at the region's entry: the whole buffer behind it, at the
    region-entry contents, at the window's share. -/
theorem arr_entry (c : Dev nD) (w : Fin cfg0.W) :
    ((cfg0.win w).arr.view.loc (c.tc : Thread nD τ) ↦[(cfg0.win w).arr.view.set]{(dats m 0 c).share w} (dats m 0 c).arrAt w 0 : sProp 𝕄)
      = (((c.tc : Thread nD τ).loc (Pipeline.arrRef spec0 w)) ↦{(dats m 0 c).share w} V m c (Pipeline.arrRef spec0 w)) := by
  have h : (cfg0.win w).arr.IsWhole := arr_whole0 w
  rw [h.set_eq_univ]; rfl

/-- The distinct buffers behind the sixteen windows' arrays, listed: fourteen, the activations counted once. -/
theorem arrBufs0_eq (c : Dev nD) (V' : (b : Ref sig .tc) → Buf (Elt F) ((c.tc : Thread nD τ).loc b)) :
    (Pipeline.arrBufs spec0 c V' : sProp 𝕄)
      = iprop((((c.tc : Thread nD τ).loc main_arg0) ↦{fullShare} V' main_arg0) ∗ (((c.tc : Thread nD τ).loc main_v3) ↦{fullShare} V' main_v3) ∗ (((c.tc : Thread nD τ).loc main_v4) ↦{fullShare} V' main_v4) ∗ (((c.tc : Thread nD τ).loc main_v5) ↦{fullShare} V' main_v5) ∗ (((c.tc : Thread nD τ).loc main_v9) ↦{fullShare} V' main_v9) ∗ (((c.tc : Thread nD τ).loc main_v10) ↦{fullShare} V' main_v10) ∗ (((c.tc : Thread nD τ).loc main_v11) ↦{fullShare} V' main_v11) ∗ (((c.tc : Thread nD τ).loc main_v12) ↦{fullShare} V' main_v12) ∗ (((c.tc : Thread nD τ).loc main_arg14) ↦{fullShare} V' main_arg14) ∗ (((c.tc : Thread nD τ).loc main_v13) ↦{fullShare} V' main_v13) ∗ (((c.tc : Thread nD τ).loc main_arg16) ↦{fullShare} V' main_arg16) ∗ (((c.tc : Thread nD τ).loc main_v14) ↦{fullShare} V' main_v14) ∗ (((c.tc : Thread nD τ).loc main_arg18) ↦{fullShare} V' main_arg18) ∗ (((c.tc : Thread nD τ).loc main_v15) ↦{fullShare} V' main_v15)) := by
  unfold Pipeline.arrBufs
  exact bigSep_eq_bigSepL_of_eq [main_arg0, main_v3, main_v4, main_v5, main_v9, main_v10, main_v11, main_v12, main_arg14, main_v13, main_arg16, main_v14, main_arg18, main_v15] (by decide) (by decide) _

/-- The buffers behind the windows' arrays, each held whole as the region finds it, make the proof data's arrays:
    the activations' ownership is split in three, one part per window reading it; every other buffer goes whole to
    its one window. -/
theorem hdealt (c : Dev nD) : (Pipeline.arrBufs spec0 c (V m c) : sProp 𝕄) ⊢ (dats m 0 c).arrays ((dats m 0 c).arrAt · 0) := by
  rw [arrBufs0_eq]
  unfold Dat.arrays
  rw [bigSep_congr fun w _ => arr_entry m c w]
  rw [bigSep_W0]
  rw [share_0, share_1, share_2, share_3, share_4, share_5, share_6, share_7, share_8, share_9, share_10, share_11, share_12, share_13, share_14, share_15]
  iintro ⟨H_main_arg0, H_main_v3, H_main_v4, H_main_v5, H_main_v9, H_main_v10, H_main_v11, H_main_v12, H_main_arg14, H_main_v13, H_main_arg16, H_main_v14, H_main_arg18, H_main_v15⟩
  ihave Hs := (pointsTo_share (PosShare.mem_left_op_right fullShare)).1 $$ H_main_arg0
  icases Hs with ⟨Hl, Hr⟩
  ihave Hs := (pointsTo_share (PosShare.mem_left_op_right fullShare.right)).1 $$ Hr
  icases Hs with ⟨Hrl, Hrr⟩
  isplitl [Hl]; · iexact Hl
  isplitl [Hrl]; · iexact Hrl
  isplitl [Hrr]; · iexact Hrr
  isplitl [H_main_v3]; · iexact H_main_v3
  isplitl [H_main_v4]; · iexact H_main_v4
  isplitl [H_main_v5]; · iexact H_main_v5
  isplitl [H_main_v9]; · iexact H_main_v9
  isplitl [H_main_v10]; · iexact H_main_v10
  isplitl [H_main_v11]; · iexact H_main_v11
  isplitl [H_main_v12]; · iexact H_main_v12
  isplitl [H_main_arg14]; · iexact H_main_arg14
  isplitl [H_main_v13]; · iexact H_main_v13
  isplitl [H_main_arg16]; · iexact H_main_arg16
  isplitl [H_main_v14]; · iexact H_main_v14
  isplitl [H_main_arg18]; · iexact H_main_arg18
  iexact H_main_v15

/-! ## The run and the frame -/

/-- The frame from a frame run: for any proof data whose arrays are the region-entry contents (`hA`), a run to the
    library's `FramePost` read at the argument arrays — an argument some window stages is an input window's array,
    never written; an argument no window stages ends as the region found it; each is then the launch memory's,
    the host operations writing none — is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).1 10).trans (((dats 0 c).arrAt_in 10 rfl _).trans ((hA c 10).trans (V_main_arg14 m c))),
      ((h c).2 main_arg15 (Pipeline.mem_restRefs_of main_arg15 (by decide) (by decide))).trans (V_main_arg15 m c),
      ((h c).1 12).trans (((dats 0 c).arrAt_in 12 rfl _).trans ((hA c 12).trans (V_main_arg16 m c))),
      ((h c).2 main_arg17 (Pipeline.mem_restRefs_of main_arg17 (by decide) (by decide))).trans (V_main_arg17 m c),
      ((h c).1 14).trans (((dats 0 c).arrAt_in 14 rfl _).trans ((hA c 14).trans (V_main_arg18 m c)))⟩) h

-- the launch theorem's implicit arguments are found by unifying its conclusion with this one, which takes unfolding
-- plain definitions in a metavariable's type
set_option backward.isDefEq.respectTransparency.types false in
/-- At the compiled mesh, for any values, from any memory with zero counters: every weakly fair execution of @main on
    the TensorCores terminates, and every final state has every array of the pipeline at what the library computes
    from the proof data and every other unscoped buffer as the region found it. -/
theorem run_main : θ_run defs (onTc (τ := τ) (main (F := F))) (s₀ m ρ) (Pipeline.FramePost cfgs (dats m) 0 (V m)) :=
  Cert.Lib.SharedFrame.run_frame cfgs (dats m) (0 : Fin 1) cellOf_inj winFacts₀0 block_pos0 arr_whole0 stage_whole0
    defs₀ Variants.none m ρ main
    (hbody := fun c => (body_obligation m c).loose) (howed := fun _ _ => rfl) (V := V m) (hmain := hmain m Variants.none)
    (hdealt := hdealt m) (hscratch := fun c => scopedRest0_eq c) (hΦ := fun _ _ => rfl)

/-- info: 'Cert.KernelIdeal.Hand.run_main' depends on axioms: [propext, Classical.choice, Quot.sound] -/
#guard_msgs in #print axioms run_main

/-- The frame: every weakly fair execution of @main terminates without a fault and the nineteen argument arrays end
    as launched, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

end Cert.KernelIdeal.Hand

end
-- ==== Proof.Spec.lean ====
/-
  What the network computes, as plain functions on the extended reals — no program is imported here.

  Per row: two bidirectional GRU layers with zero hidden state (a cell is (1 - z) · n with r, z logistic gates and
  n = tanh(i_n + r · h_n), the forward and backward cells side by side), then two graph-convolution layers on
  the chain graph 0 — 1 — … — 131071 with self loops, symmetrically normalised (node r has degree 2 at the two
  ends and 3 inside, weight 1/sqrt(deg r · deg s) on the edge r — s), then a dense layer.

  Three spellings of the convolution are stated:
  * `stencil`  — the mathematical one: self, left and right neighbour, a neighbour absent at an end of the chain;
  * `stencilL` — inside a tile of 1040 consecutive local rows whose row ρ carries the label t·1024 − 8 + ρ (an integer, which may
                 fall outside the chain at the first and last tile): neighbours are the cyclically adjacent local rows, and a
                 0/1 factor switches a neighbour off where the label says the chain ends;
  * `aggE`     — the sum over the list of 393214 directed edges (r → r+1, r+1 → r, r → r) of the edge's weight times the
                 source's row, collected at the edge's target.
-/
import Idealize.ShloMosaic.PureOps.Ideal
import Idealize.ShloMosaic.Lib.ValueIdx
import Mathlib.Algebra.BigOperators.Fin

noncomputable section

namespace Cert.Spec

open Idealize.ShloMosaic Idealize.ShloMosaic.ValueIdx

/-- The input weights [384, K] and the two bias vectors of one direction of one GRU layer. -/
structure Gru (K : Nat) where
  w : Fin 384 → Fin K → EReal
  bi : Fin 384 → EReal
  bh : Fin 384 → EReal

/-- Every weight of the network. -/
structure Params where
  f1 : Gru 128
  b1 : Gru 128
  f2 : Gru 256
  b2 : Gru 256
  wg1 : Fin 256 → Fin 128 → EReal
  bg1 : Fin 128 → EReal
  wg2 : Fin 128 → Fin 64 → EReal
  bg2 : Fin 64 → EReal
  wfc : Fin 64 → Fin 10 → EReal
  bfc : Fin 10 → EReal

/-- Column `o + j` of the 384 gate columns, for a gate starting at column `o` ∈ {0, 128, 256}. -/
def col (o : Nat) (ho : o + 128 ≤ 384) (j : Fin 128) : Fin 384 := ⟨o + j.val, by omega⟩

/-- A gate pre-activation: the row times column `c` of the transposed weights, plus the input bias. -/
def gate {K : Nat} (G : Gru K) (xr : Fin K → EReal) (c : Fin 384) : EReal := (∑ k : Fin K, xr k * G.w c k) + G.bi c

/-- One GRU cell from a zero hidden state, entry `j`: (1 − z) · tanh(i_n + r · h_n). -/
def cell {K : Nat} (G : Gru K) (xr : Fin K → EReal) (j : Fin 128) : EReal :=
  (1 - Ideal.logistic (gate G xr (col 128 (by omega) j) + G.bh (col 128 (by omega) j)))
    * Ideal.tanh (gate G xr (col 256 (by omega) j)
        + Ideal.logistic (gate G xr (col 0 (by omega) j) + G.bh (col 0 (by omega) j)) * G.bh (col 256 (by omega) j))

/-- The forward cell's 128 entries followed by the backward cell's. -/
def pair {K : Nat} (Gf Gb : Gru K) (xr : Fin K → EReal) (j : Fin 256) : EReal :=
  if h : j.val < 128 then cell Gf xr ⟨j.val, h⟩ else cell Gb xr ⟨j.val - 128, by omega⟩

/-- Both GRU layers on one row. -/
def rowH2 (P : Params) (xr : Fin 128 → EReal) : Fin 256 → EReal := pair P.f2 P.b2 (pair P.f1 P.b1 xr)

/-- The first convolution's projection of one row. -/
def xw1 (P : Params) (xr : Fin 128 → EReal) (j : Fin 128) : EReal := ∑ k : Fin 256, rowH2 P xr k * P.wg1 k j

/-! ## The chain graph, mathematically -/

/-- Degree with the self loop: 2 at the two ends, 3 inside. -/
def deg (r : Nat) : EReal := if r = 0 ∨ r = 131071 then 2 else 3
def dinv (r : Nat) : EReal := Ideal.rsqrt (deg r)

/-- One normalised convolution of row-indexed data `xw`, plus a bias. -/
def stencil {C : Nat} (xw : Nat → Fin C → EReal) (b : Fin C → EReal) (r : Nat) (j : Fin C) : EReal :=
  dinv r * dinv r * xw r j
    + (if 0 < r then dinv r * dinv (r - 1) * xw (r - 1) j else 0)
    + (if r < 131071 then dinv r * dinv (r + 1) * xw (r + 1) j else 0)
    + b j

def g1 (P : Params) (x : Nat → Fin 128 → EReal) : Nat → Fin 128 → EReal := stencil (fun r j => xw1 P (x r) j) P.bg1
def xw2 (P : Params) (x : Nat → Fin 128 → EReal) (r : Nat) (k : Fin 64) : EReal := ∑ j : Fin 128, g1 P x r j * P.wg2 j k
def g2 (P : Params) (x : Nat → Fin 128 → EReal) : Nat → Fin 64 → EReal := stencil (xw2 P x) P.bg2
/-- THE RESULT at row `r`, column `q`. -/
def out (P : Params) (x : Nat → Fin 128 → EReal) (r : Nat) (q : Fin 10) : EReal := (∑ k : Fin 64, g2 P x r k * P.wfc k q) + P.bfc q

/-! ## Inside one tile of 1040 local rows -/

/-- Local row ρ of tile t carries this label. -/
def lab (t : Nat) (ρ : Fin 1040) : Int := (t : Int) * 1024 - 8 + (ρ.val : Int)
def prv (ρ : Fin 1040) : Fin 1040 := ⟨(ρ.val + 1039) % 1040, Nat.mod_lt _ (by omega)⟩
def nxt (ρ : Fin 1040) : Fin 1040 := ⟨(ρ.val + 1) % 1040, Nat.mod_lt _ (by omega)⟩
def degL (l : Int) : EReal := if l = 0 ∨ l = 131071 then 2 else 3
def dinvL (l : Int) : EReal := Ideal.rsqrt (degL l)
/-- 1 where the label has a left neighbour on the chain, else 0; and the same to the right. -/
def lm (l : Int) : EReal := if 0 < l then 1 else 0
def rm (l : Int) : EReal := if l < 131071 then 1 else 0

def stencilL {C : Nat} (t : Nat) (xw : Fin 1040 → Fin C → EReal) (b : Fin C → EReal) (ρ : Fin 1040) (j : Fin C) : EReal :=
  dinvL (lab t ρ) * dinvL (lab t ρ) * xw ρ j
    + dinvL (lab t ρ) * dinvL (lab t (prv ρ)) * lm (lab t ρ) * xw (prv ρ) j
    + dinvL (lab t ρ) * dinvL (lab t (nxt ρ)) * rm (lab t ρ) * xw (nxt ρ) j
    + b j

def g1L (P : Params) (t : Nat) (xe : Fin 1040 → Fin 128 → EReal) : Fin 1040 → Fin 128 → EReal :=
  stencilL t (fun ρ j => xw1 P (xe ρ) j) P.bg1
def xw2L (P : Params) (t : Nat) (xe : Fin 1040 → Fin 128 → EReal) (ρ : Fin 1040) (k : Fin 64) : EReal :=
  ∑ j : Fin 128, g1L P t xe ρ j * P.wg2 j k
def g2L (P : Params) (t : Nat) (xe : Fin 1040 → Fin 128 → EReal) : Fin 1040 → Fin 64 → EReal :=
  stencilL t (xw2L P t xe) P.bg2
/-- The tile's result at its row `i` (local row 8 + i), column `q`. -/
def outL (P : Params) (t : Nat) (xe : Fin 1040 → Fin 128 → EReal) (i : Fin 1024) (q : Fin 10) : EReal :=
  (∑ k : Fin 64, g2L P t xe ⟨8 + i.val, by omega⟩ k * P.wfc k q) + P.bfc q

/-- Which row of the whole array local row ρ of tile t holds: the 8 rows before the tile (the tile's own first 8 at
    tile 0), the tile's 1024 rows, the 8 rows after it (the array's last 8 at the last tile). -/
def srcRow (t : Nat) (ρ : Fin 1040) : Nat :=
  if ρ.val < 8 then max (t * 128 - 1) 0 * 8 + ρ.val
  else if ρ.val < 1032 then t * 1024 + (ρ.val - 8)
  else min ((t + 1) * 128) 16383 * 8 + (ρ.val - 1032)

/-! ## Over the list of directed edges -/

/-- Edge e's source and target: e < 131071 is e → e+1; the next 131071 are e'+1 → e'; the last 131072 are loops. -/
def srcE (e : Fin 393214) : Nat := if e.val < 131071 then e.val else if e.val < 262142 then e.val - 131071 + 1 else e.val - 262142
def tgtE (e : Fin 393214) : Nat := if e.val < 131071 then e.val + 1 else if e.val < 262142 then e.val - 131071 else e.val - 262142

/-- The degree as the count of edges arriving. -/
def degE (r : Nat) : EReal := 0 + ∑ e : Fin 393214, if tgtE e = r then (1 : EReal) else 0
def dinvE (r : Nat) : EReal := Ideal.rsqrt (degE r)
def normE (e : Fin 393214) : EReal := dinvE (srcE e) * dinvE (tgtE e)

def aggE {C : Nat} (xw : Nat → Fin C → EReal) (b : Fin C → EReal) (r : Nat) (j : Fin C) : EReal :=
  (0 + ∑ e ∈ Finset.univ.filter (fun e : Fin 393214 => tgtE e = r), normE e * xw (srcE e) j) + b j

def g1E (P : Params) (x : Nat → Fin 128 → EReal) : Nat → Fin 128 → EReal := aggE (fun r j => xw1 P (x r) j) P.bg1
def xw2E (P : Params) (x : Nat → Fin 128 → EReal) (r : Nat) (k : Fin 64) : EReal := ∑ j : Fin 128, g1E P x r j * P.wg2 j k
def g2E (P : Params) (x : Nat → Fin 128 → EReal) : Nat → Fin 64 → EReal := aggE (xw2E P x) P.bg2
def outE (P : Params) (x : Nat → Fin 128 → EReal) (r : Nat) (q : Fin 10) : EReal := (∑ k : Fin 64, g2E P x r k * P.wfc k q) + P.bfc q

/-! ## From the argument arrays -/

/-- Row `r` of the [131072, 128] input as a function of a natural number (zero past the end). -/
def rowsOf (X : (⟨2, ![131072, 128]⟩ : Shape).Idx → EReal) (r : Nat) (k : Fin 128) : EReal :=
  if h : r < 131072 then X (ix2 ⟨r, h⟩ k) else 0

def gruOf {K : Nat} (w : (⟨2, ![384, K]⟩ : Shape).Idx → EReal) (bi bh : (⟨1, ![384]⟩ : Shape).Idx → EReal) : Gru K :=
  ⟨fun c k => w (ix2 c k), fun c => bi (ix1 c), fun c => bh (ix1 c)⟩

/-- The network's weights from the 18 weight arrays, in the programs' argument order (arguments 1 to 18). -/
def paramsOf
    (a1 : (⟨2, ![384, 128]⟩ : Shape).Idx → EReal) (a2 a3 : (⟨1, ![384]⟩ : Shape).Idx → EReal)
    (a4 : (⟨2, ![384, 128]⟩ : Shape).Idx → EReal) (a5 a6 : (⟨1, ![384]⟩ : Shape).Idx → EReal)
    (a7 : (⟨2, ![384, 256]⟩ : Shape).Idx → EReal) (a8 a9 : (⟨1, ![384]⟩ : Shape).Idx → EReal)
    (a10 : (⟨2, ![384, 256]⟩ : Shape).Idx → EReal) (a11 a12 : (⟨1, ![384]⟩ : Shape).Idx → EReal)
    (a13 : (⟨2, ![256, 128]⟩ : Shape).Idx → EReal) (a14 : (⟨1, ![128]⟩ : Shape).Idx → EReal)
    (a15 : (⟨2, ![128, 64]⟩ : Shape).Idx → EReal) (a16 : (⟨1, ![64]⟩ : Shape).Idx → EReal)
    (a17 : (⟨2, ![64, 10]⟩ : Shape).Idx → EReal) (a18 : (⟨1, ![10]⟩ : Shape).Idx → EReal) : Params where
  f1 := gruOf a1 a2 a3
  b1 := gruOf a4 a5 a6
  f2 := gruOf a7 a8 a9
  b2 := gruOf a10 a11 a12
  wg1 := fun k j => a13 (ix2 k j)
  bg1 := fun j => a14 (ix1 j)
  wg2 := fun j k => a15 (ix2 j k)
  bg2 := fun k => a16 (ix1 k)
  wfc := fun k q => a17 (ix2 k q)
  bfc := fun q => a18 (ix1 q)

end Cert.Spec

end
-- ==== Proof.KBlocks.lean ====
/-
  From the blocks to the arrays, at the exact extended reals: which rows of the activations each of the three windows
  on them holds at a grid point, that every weight window holds its whole array at every point, and that the 128
  blocks of 1024 rows the points write back tile the result array — so the result array after the run is any
  function whose block at every point is what that point writes back.
-/
import proofs.«169599_j67370857005464_2_alg».proof.Proof.FrameIdeal
import proofs.«169599_j67370857005464_2_alg».proof.Proof.Spec
import Idealize.ShloMosaic.Lib.Pipeline.Value
import Idealize.ShloMosaic.Lib.ValueIdx

set_option maxRecDepth 16384

noncomputable section

namespace Cert.KernelIdeal.HandValue

open Cert.KernelIdeal Cert.KernelIdeal.Gen Cert.KernelIdeal.Hand Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)
/-! ## The index maps, decided over the 128 points -/

/-- The activations' three windows and the result's window at point `t`: the main block is block `t` of 1024 rows, the
    block before it is the 8 rows ending where it starts (the first 8 rows at the first point), the block after it the 8
    rows starting where it ends (the last 8 rows at the last point), and the result's block is block `t`. -/
theorem idx_facts : ∀ t : Fin cfg0.N, win0_0.index t (0 : Fin 2) = t.val ∧ win0_0.index t (1 : Fin 2) = 0
    ∧ win0_1.index t (0 : Fin 2) = max (t.val * 128 - 1) 0 ∧ win0_1.index t (1 : Fin 2) = 0
    ∧ win0_2.index t (0 : Fin 2) = min ((t.val + 1) * 128) 16383 ∧ win0_2.index t (1 : Fin 2) = 0
    ∧ win0_15.index t (0 : Fin 2) = t.val ∧ win0_15.index t (1 : Fin 2) = 0 :=
  (by decide +kernel : ∀ t : Fin grid0.N, _)

/-- Every weight window sits at block 0 on every axis at every point: its block is its whole array. -/
theorem idx_zero : ∀ t : Fin cfg0.N, win0_3.index t (0 : Fin 2) = 0
    ∧ win0_3.index t (1 : Fin 2) = 0
    ∧ win0_4.index t (0 : Fin 1) = 0
    ∧ win0_5.index t (0 : Fin 1) = 0
    ∧ win0_6.index t (0 : Fin 2) = 0
    ∧ win0_6.index t (1 : Fin 2) = 0
    ∧ win0_7.index t (0 : Fin 1) = 0
    ∧ win0_8.index t (0 : Fin 1) = 0
    ∧ win0_9.index t (0 : Fin 2) = 0
    ∧ win0_9.index t (1 : Fin 2) = 0
    ∧ win0_10.index t (0 : Fin 1) = 0
    ∧ win0_11.index t (0 : Fin 2) = 0
    ∧ win0_11.index t (1 : Fin 2) = 0
    ∧ win0_12.index t (0 : Fin 1) = 0
    ∧ win0_13.index t (0 : Fin 2) = 0
    ∧ win0_13.index t (1 : Fin 2) = 0
    ∧ win0_14.index t (0 : Fin 1) = 0 :=
  (by decide +kernel : ∀ t : Fin grid0.N, _)

/-- The one grid coordinate of point `t` is `t`. -/
theorem coords_val : ∀ t : Fin cfg0.N, (grid0.coords t 0).val = t.val :=
  (by decide +kernel : ∀ t : Fin grid0.N, _)
/-! ## The activations' three windows, row by row -/

/-- The main window at point `t` holds rows `1024 t … 1024 t + 1023` of the activations. -/
theorem iblk0_row (c : Dev nD) (t : Fin cfg0.N) (r : Fin 1024) (k : Fin 128) :
    (iblk m c 0 t : Vec Ideal S1024x128 .f32) (ix2 r k) = Cert.Spec.rowsOf (m ((c : Thread nD τ).loc main_arg0)) (t.val * 1024 + r.val) k := by
  obtain ⟨e0, e1, -⟩ := idx_facts t
  have ht : t.val < 128 := lt_of_lt_of_eq t.isLt N_0
  have hr : t.val * 1024 + r.val < 131072 := by have := r.isLt; omega
  unfold Cert.Spec.rowsOf
  rw [dif_pos hr, ← V_main_arg0 m c]
  unfold iblk
  rw [View.read_apply]
  show V m c main_arg0 _ = V m c main_arg0 _
  refine congrArg _ (funext fun a => Fin.ext ?_)
  match a with
  | ⟨0, _⟩ => show win0_0.index t (0 : Fin 2) * 1024 + 1 * r.val = t.val * 1024 + r.val; rw [e0]; omega
  | ⟨1, _⟩ => show win0_0.index t (1 : Fin 2) * 128 + 1 * k.val = k.val; rw [e1]; omega

/-- The window before it holds the 8 rows of block `max (128 t − 1) 0` of 8 rows. -/
theorem iblk1_row (c : Dev nD) (t : Fin cfg0.N) (r : Fin 8) (k : Fin 128) :
    (iblk m c 1 t : Vec Ideal S8x128 .f32) (ix2 r k) = Cert.Spec.rowsOf (m ((c : Thread nD τ).loc main_arg0)) (max (t.val * 128 - 1) 0 * 8 + r.val) k := by
  obtain ⟨-, -, e0, e1, -⟩ := idx_facts t
  have ht : t.val < 128 := lt_of_lt_of_eq t.isLt N_0
  have hr : max (t.val * 128 - 1) 0 * 8 + r.val < 131072 := by have := r.isLt; omega
  unfold Cert.Spec.rowsOf
  rw [dif_pos hr, ← V_main_arg0 m c]
  unfold iblk
  rw [View.read_apply]
  show V m c main_arg0 _ = V m c main_arg0 _
  refine congrArg _ (funext fun a => Fin.ext ?_)
  match a with
  | ⟨0, _⟩ => show win0_1.index t (0 : Fin 2) * 8 + 1 * r.val = max (t.val * 128 - 1) 0 * 8 + r.val; rw [e0]; omega
  | ⟨1, _⟩ => show win0_1.index t (1 : Fin 2) * 128 + 1 * k.val = k.val; rw [e1]; omega

/-- The window after it holds the 8 rows of block `min (128 (t + 1)) 16383` of 8 rows. -/
theorem iblk2_row (c : Dev nD) (t : Fin cfg0.N) (r : Fin 8) (k : Fin 128) :
    (iblk m c 2 t : Vec Ideal S8x128 .f32) (ix2 r k) = Cert.Spec.rowsOf (m ((c : Thread nD τ).loc main_arg0)) (min ((t.val + 1) * 128) 16383 * 8 + r.val) k := by
  obtain ⟨-, -, -, -, e0, e1, -⟩ := idx_facts t
  have ht : t.val < 128 := lt_of_lt_of_eq t.isLt N_0
  have hr : min ((t.val + 1) * 128) 16383 * 8 + r.val < 131072 := by have := r.isLt; omega
  unfold Cert.Spec.rowsOf
  rw [dif_pos hr, ← V_main_arg0 m c]
  unfold iblk
  rw [View.read_apply]
  show V m c main_arg0 _ = V m c main_arg0 _
  refine congrArg _ (funext fun a => Fin.ext ?_)
  match a with
  | ⟨0, _⟩ => show win0_2.index t (0 : Fin 2) * 8 + 1 * r.val = min ((t.val + 1) * 128) 16383 * 8 + r.val; rw [e0]; omega
  | ⟨1, _⟩ => show win0_2.index t (1 : Fin 2) * 128 + 1 * k.val = k.val; rw [e1]; omega

/-! ## The twelve weight windows: each its whole array -/

/-- Window 3 holds the whole of its array at every point. -/
theorem iblk_whole_3 (c : Dev nD) (t : Fin cfg0.N) : (iblk m c 3 t : Vec Ideal S128x768 .bf16) = V m c main_v3 := by
  obtain ⟨z3_0, z3_1, z4_0, z5_0, z6_0, z6_1, z7_0, z8_0, z9_0, z9_1, z10_0, z11_0, z11_1, z12_0, z13_0, z13_1, z14_0⟩ := idx_zero t
  funext y
  unfold iblk
  rw [View.read_apply]
  show V m c main_v3 _ = V m c main_v3 y
  refine congrArg _ (funext fun a => Fin.ext ?_)
  match a with
    | ⟨0, _⟩ => show win0_3.index t (0 : Fin 2) * 128 + 1 * (y 0).val = (y 0).val; rw [z3_0]; omega
    | ⟨1, _⟩ => show win0_3.index t (1 : Fin 2) * 768 + 1 * (y 1).val = (y 1).val; rw [z3_1]; omega

/-- Window 4 holds the whole of its array at every point. -/
theorem iblk_whole_4 (c : Dev nD) (t : Fin cfg0.N) : (iblk m c 4 t : Vec Ideal S768 .f32) = V m c main_v4 := by
  obtain ⟨z3_0, z3_1, z4_0, z5_0, z6_0, z6_1, z7_0, z8_0, z9_0, z9_1, z10_0, z11_0, z11_1, z12_0, z13_0, z13_1, z14_0⟩ := idx_zero t
  funext y
  unfold iblk
  rw [View.read_apply]
  show V m c main_v4 _ = V m c main_v4 y
  refine congrArg _ (funext fun a => Fin.ext ?_)
  match a with
    | ⟨0, _⟩ => show win0_4.index t (0 : Fin 1) * 768 + 1 * (y 0).val = (y 0).val; rw [z4_0]; omega

/-- Window 5 holds the whole of its array at every point. -/
theorem iblk_whole_5 (c : Dev nD) (t : Fin cfg0.N) : (iblk m c 5 t : Vec Ideal S768 .f32) = V m c main_v5 := by
  obtain ⟨z3_0, z3_1, z4_0, z5_0, z6_0, z6_1, z7_0, z8_0, z9_0, z9_1, z10_0, z11_0, z11_1, z12_0, z13_0, z13_1, z14_0⟩ := idx_zero t
  funext y
  unfold iblk
  rw [View.read_apply]
  show V m c main_v5 _ = V m c main_v5 y
  refine congrArg _ (funext fun a => Fin.ext ?_)
  match a with
    | ⟨0, _⟩ => show win0_5.index t (0 : Fin 1) * 768 + 1 * (y 0).val = (y 0).val; rw [z5_0]; omega

/-- Window 6 holds the whole of its array at every point. -/
theorem iblk_whole_6 (c : Dev nD) (t : Fin cfg0.N) : (iblk m c 6 t : Vec Ideal S256x768 .bf16) = V m c main_v9 := by
  obtain ⟨z3_0, z3_1, z4_0, z5_0, z6_0, z6_1, z7_0, z8_0, z9_0, z9_1, z10_0, z11_0, z11_1, z12_0, z13_0, z13_1, z14_0⟩ := idx_zero t
  funext y
  unfold iblk
  rw [View.read_apply]
  show V m c main_v9 _ = V m c main_v9 y
  refine congrArg _ (funext fun a => Fin.ext ?_)
  match a with
    | ⟨0, _⟩ => show win0_6.index t (0 : Fin 2) * 256 + 1 * (y 0).val = (y 0).val; rw [z6_0]; omega
    | ⟨1, _⟩ => show win0_6.index t (1 : Fin 2) * 768 + 1 * (y 1).val = (y 1).val; rw [z6_1]; omega

/-- Window 7 holds the whole of its array at every point. -/
theorem iblk_whole_7 (c : Dev nD) (t : Fin cfg0.N) : (iblk m c 7 t : Vec Ideal S768 .f32) = V m c main_v10 := by
  obtain ⟨z3_0, z3_1, z4_0, z5_0, z6_0, z6_1, z7_0, z8_0, z9_0, z9_1, z10_0, z11_0, z11_1, z12_0, z13_0, z13_1, z14_0⟩ := idx_zero t
  funext y
  unfold iblk
  rw [View.read_apply]
  show V m c main_v10 _ = V m c main_v10 y
  refine congrArg _ (funext fun a => Fin.ext ?_)
  match a with
    | ⟨0, _⟩ => show win0_7.index t (0 : Fin 1) * 768 + 1 * (y 0).val = (y 0).val; rw [z7_0]; omega

/-- Window 8 holds the whole of its array at every point. -/
theorem iblk_whole_8 (c : Dev nD) (t : Fin cfg0.N) : (iblk m c 8 t : Vec Ideal S768 .f32) = V m c main_v11 := by
  obtain ⟨z3_0, z3_1, z4_0, z5_0, z6_0, z6_1, z7_0, z8_0, z9_0, z9_1, z10_0, z11_0, z11_1, z12_0, z13_0, z13_1, z14_0⟩ := idx_zero t
  funext y
  unfold iblk
  rw [View.read_apply]
  show V m c main_v11 _ = V m c main_v11 y
  refine congrArg _ (funext fun a => Fin.ext ?_)
  match a with
    | ⟨0, _⟩ => show win0_8.index t (0 : Fin 1) * 768 + 1 * (y 0).val = (y 0).val; rw [z8_0]; omega

/-- Window 9 holds the whole of its array at every point. -/
theorem iblk_whole_9 (c : Dev nD) (t : Fin cfg0.N) : (iblk m c 9 t : Vec Ideal S256x128 .bf16) = V m c main_v12 := by
  obtain ⟨z3_0, z3_1, z4_0, z5_0, z6_0, z6_1, z7_0, z8_0, z9_0, z9_1, z10_0, z11_0, z11_1, z12_0, z13_0, z13_1, z14_0⟩ := idx_zero t
  funext y
  unfold iblk
  rw [View.read_apply]
  show V m c main_v12 _ = V m c main_v12 y
  refine congrArg _ (funext fun a => Fin.ext ?_)
  match a with
    | ⟨0, _⟩ => show win0_9.index t (0 : Fin 2) * 256 + 1 * (y 0).val = (y 0).val; rw [z9_0]; omega
    | ⟨1, _⟩ => show win0_9.index t (1 : Fin 2) * 128 + 1 * (y 1).val = (y 1).val; rw [z9_1]; omega

/-- Window 10 holds the whole of its array at every point. -/
theorem iblk_whole_10 (c : Dev nD) (t : Fin cfg0.N) : (iblk m c 10 t : Vec Ideal S128 .f32) = V m c main_arg14 := by
  obtain ⟨z3_0, z3_1, z4_0, z5_0, z6_0, z6_1, z7_0, z8_0, z9_0, z9_1, z10_0, z11_0, z11_1, z12_0, z13_0, z13_1, z14_0⟩ := idx_zero t
  funext y
  unfold iblk
  rw [View.read_apply]
  show V m c main_arg14 _ = V m c main_arg14 y
  refine congrArg _ (funext fun a => Fin.ext ?_)
  match a with
    | ⟨0, _⟩ => show win0_10.index t (0 : Fin 1) * 128 + 1 * (y 0).val = (y 0).val; rw [z10_0]; omega

/-- Window 11 holds the whole of its array at every point. -/
theorem iblk_whole_11 (c : Dev nD) (t : Fin cfg0.N) : (iblk m c 11 t : Vec Ideal S128x64 .bf16) = V m c main_v13 := by
  obtain ⟨z3_0, z3_1, z4_0, z5_0, z6_0, z6_1, z7_0, z8_0, z9_0, z9_1, z10_0, z11_0, z11_1, z12_0, z13_0, z13_1, z14_0⟩ := idx_zero t
  funext y
  unfold iblk
  rw [View.read_apply]
  show V m c main_v13 _ = V m c main_v13 y
  refine congrArg _ (funext fun a => Fin.ext ?_)
  match a with
    | ⟨0, _⟩ => show win0_11.index t (0 : Fin 2) * 128 + 1 * (y 0).val = (y 0).val; rw [z11_0]; omega
    | ⟨1, _⟩ => show win0_11.index t (1 : Fin 2) * 64 + 1 * (y 1).val = (y 1).val; rw [z11_1]; omega

/-- Window 12 holds the whole of its array at every point. -/
theorem iblk_whole_12 (c : Dev nD) (t : Fin cfg0.N) : (iblk m c 12 t : Vec Ideal S64 .f32) = V m c main_arg16 := by
  obtain ⟨z3_0, z3_1, z4_0, z5_0, z6_0, z6_1, z7_0, z8_0, z9_0, z9_1, z10_0, z11_0, z11_1, z12_0, z13_0, z13_1, z14_0⟩ := idx_zero t
  funext y
  unfold iblk
  rw [View.read_apply]
  show V m c main_arg16 _ = V m c main_arg16 y
  refine congrArg _ (funext fun a => Fin.ext ?_)
  match a with
    | ⟨0, _⟩ => show win0_12.index t (0 : Fin 1) * 64 + 1 * (y 0).val = (y 0).val; rw [z12_0]; omega

/-- Window 13 holds the whole of its array at every point. -/
theorem iblk_whole_13 (c : Dev nD) (t : Fin cfg0.N) : (iblk m c 13 t : Vec Ideal S64x10 .bf16) = V m c main_v14 := by
  obtain ⟨z3_0, z3_1, z4_0, z5_0, z6_0, z6_1, z7_0, z8_0, z9_0, z9_1, z10_0, z11_0, z11_1, z12_0, z13_0, z13_1, z14_0⟩ := idx_zero t
  funext y
  unfold iblk
  rw [View.read_apply]
  show V m c main_v14 _ = V m c main_v14 y
  refine congrArg _ (funext fun a => Fin.ext ?_)
  match a with
    | ⟨0, _⟩ => show win0_13.index t (0 : Fin 2) * 64 + 1 * (y 0).val = (y 0).val; rw [z13_0]; omega
    | ⟨1, _⟩ => show win0_13.index t (1 : Fin 2) * 10 + 1 * (y 1).val = (y 1).val; rw [z13_1]; omega

/-- Window 14 holds the whole of its array at every point. -/
theorem iblk_whole_14 (c : Dev nD) (t : Fin cfg0.N) : (iblk m c 14 t : Vec Ideal S10 .f32) = V m c main_arg18 := by
  obtain ⟨z3_0, z3_1, z4_0, z5_0, z6_0, z6_1, z7_0, z8_0, z9_0, z9_1, z10_0, z11_0, z11_1, z12_0, z13_0, z13_1, z14_0⟩ := idx_zero t
  funext y
  unfold iblk
  rw [View.read_apply]
  show V m c main_arg18 _ = V m c main_arg18 y
  refine congrArg _ (funext fun a => Fin.ext ?_)
  match a with
    | ⟨0, _⟩ => show win0_14.index t (0 : Fin 1) * 10 + 1 * (y 0).val = (y 0).val; rw [z14_0]; omega
/-! ## The result's window -/

theorem hz2 : (![0, 0] : Fin 2 → Nat) = fun _ => 0 := funext fun a => by fin_cases a <;> rfl
theorem hz1 : (![0] : Fin 1 → Nat) = fun _ => 0 := funext fun a => by fin_cases a; rfl

/-- What point `t` writes back to the result array: the body's result on the fifteen input blocks at `t`. -/
theorem flushed15 (c : Dev nD) (t : Fin cfg0.N) :
    (dats m 0 c).flushed 15 t = (cfg0.win 15).cut (grid0.coords t) (out15 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) := by
  show (cfg0.win 15).cut (grid0.coords t) ((dats m 0 c).after 15 t) = _
  rw [after_15]

/-- The body's result is its one store's payload on the blocks themselves: every load reads a whole buffer, and the
    store writes the whole buffer. -/
theorem out15_apply (i : grid0.Coords) (x0 : Vec Ideal S1024x128 .f32) (x1 : Vec Ideal S8x128 .f32) (x2 : Vec Ideal S8x128 .f32) (x3 : Vec Ideal S128x768 .bf16) (x4 : Vec Ideal S768 .f32) (x5 : Vec Ideal S768 .f32) (x6 : Vec Ideal S256x768 .bf16) (x7 : Vec Ideal S768 .f32) (x8 : Vec Ideal S768 .f32) (x9 : Vec Ideal S256x128 .bf16) (x10 : Vec Ideal S128 .f32) (x11 : Vec Ideal S128x64 .bf16) (x12 : Vec Ideal S64 .f32) (x13 : Vec Ideal S64x10 .bf16) (x14 : Vec Ideal S10 .f32) :
    out15 i x0 x1 x2 x3 x4 x5 x6 x7 x8 x9 x10 x11 x12 x13 x14 = k0_pay1 (k0_pay28 (k0_pay21 (k0_pay15 (k0_pay6 x1 x0 x2 x3 x4 x5) (k0_pay7 x1 x0 x2 x3 x4) (k0_pay8 x1 x0 x2 x3 x4) (k0_pay9 x1 x0 x2 x3 x4) (k0_pay10 x5) (k0_pay11 x5) (k0_pay12 x5) x6 x7) (k0_pay18 x8) (k0_pay19 (k0_pay6 x1 x0 x2 x3 x4 x5) (k0_pay7 x1 x0 x2 x3 x4) (k0_pay8 x1 x0 x2 x3 x4) (k0_pay9 x1 x0 x2 x3 x4) (k0_pay10 x5) (k0_pay11 x5) (k0_pay12 x5) x6 x7 x8) (k0_pay20 (k0_pay6 x1 x0 x2 x3 x4 x5) (k0_pay7 x1 x0 x2 x3 x4) (k0_pay8 x1 x0 x2 x3 x4) (k0_pay9 x1 x0 x2 x3 x4) (k0_pay10 x5) (k0_pay11 x5) (k0_pay12 x5) x6 x7 x8) x9) (k0_pay22 (BitVec.ofNat 32 (i 0).val)) (k0_pay23 (F := Ideal) (BitVec.ofNat 32 (i 0).val)) (k0_pay24 (F := Ideal) (BitVec.ofNat 32 (i 0).val)) (k0_pay25 (F := Ideal) (BitVec.ofNat 32 (i 0).val)) (k0_pay26 (F := Ideal) (BitVec.ofNat 32 (i 0).val)) (k0_pay27 (BitVec.ofNat 32 (i 0).val)) x10 x11 x12 x13) x14 := by
  unfold out15 rS1024x128 rS8x128 rS128x768 rS768 rS256x768 rS256x128 rS128 rS128x64 rS64 rS64x10 rS10 rS1024x10
  rw [View.canon_unit_zero hz2]
  simp only [View.ld_unit_zero (S := S1024x128) hz2, View.ld_unit_zero (S := S8x128) hz2, View.ld_unit_zero (S := S128x768) hz2, View.ld_unit_zero (S := S768) hz1, View.ld_unit_zero (S := S256x768) hz2, View.ld_unit_zero (S := S256x128) hz2, View.ld_unit_zero (S := S128) hz1, View.ld_unit_zero (S := S128x64) hz2, View.ld_unit_zero (S := S64) hz1, View.ld_unit_zero (S := S64x10) hz2, View.ld_unit_zero (S := S10) hz1]

/-- Point `t`'s block of the result array is rows `1024 t … 1024 t + 1023`, every column. -/
theorem emb15 (t : Fin cfg0.N) (j : S1024x10.Idx) :
    ((((cfg0.win 15).blk t).view.emb j : S131072x10.Idx) 0).val = t.val * 1024 + (j 0).val
      ∧ ((((cfg0.win 15).blk t).view.emb j : S131072x10.Idx) 1).val = (j 1).val := by
  obtain ⟨-, -, -, -, -, -, e0, e1⟩ := idx_facts t
  refine ⟨?_, ?_⟩
  · show win0_15.index t (0 : Fin 2) * 1024 + 1 * (j 0).val = t.val * 1024 + (j 0).val; rw [e0]; omega
  · show win0_15.index t (1 : Fin 2) * 10 + 1 * (j 1).val = (j 1).val; rw [e1]; omega

/-- An index of the result array is in point `t`'s block iff each coordinate is in the block's range on its axis. -/
theorem mem_blk15 (t : Fin cfg0.N) (i : S131072x10.Idx) :
    i ∈ ((cfg0.win 15).blk t).view.set ↔ ∀ a : Fin 2, win0_15.index t a * S1024x10.size a ≤ (i a).val ∧ (i a).val < win0_15.index t a * S1024x10.size a + S1024x10.size a := by
  show i ∈ ((View.whole main_v15).slice (win0_15.rect t)).set ↔ _
  rw [View.set_slice_whole, Rect.mem_set_unit]
  exact Iff.rfl

/-- Every index of the result array is in some point's block: row `p` in the block of point `p / 1024`. -/
theorem cover15 (i : S131072x10.Idx) : ∃ t : Fin cfg0.N, (cfg0.win 15).flush t = true ∧ i ∈ ((cfg0.win 15).blk t).view.set := by
  have h0 : (i 0).val < 131072 := (i 0).isLt
  have h1 : (i 1).val < 10 := (i 1).isLt
  have hN : cfg0.N = 128 := N_0
  let t : Fin cfg0.N := ⟨(i 0).val / 1024, lt_of_lt_of_eq (by omega : (i 0).val / 1024 < 128) hN.symm⟩
  have htv : t.val = (i 0).val / 1024 := rfl
  obtain ⟨-, -, -, -, -, -, e0, e1⟩ := idx_facts t
  refine ⟨t, flush0_15 t, ?_⟩
  rw [mem_blk15]
  intro a
  match a with
  | ⟨0, _⟩ => show win0_15.index t (0 : Fin 2) * 1024 ≤ (i 0).val ∧ (i 0).val < win0_15.index t (0 : Fin 2) * 1024 + 1024; rw [e0, htv]; omega
  | ⟨1, _⟩ => show win0_15.index t (1 : Fin 2) * 10 ≤ (i 1).val ∧ (i 1).val < win0_15.index t (1 : Fin 2) * 10 + 10; rw [e1]; omega

/-- The result array after the run is any function `G` whose block at every point is what the point writes back:
    the 128 blocks tile the array. -/
theorem final15 (c : Dev nD) (G : S131072x10.Idx → EReal)
    (hfl : ∀ t, (dats m 0 c).flushed 15 t = ((cfg0.win 15).blk t).view.read (Elt Ideal) G) :
    (dats m 0 c).arrAt 15 cfg0.N = G :=
  (dats m 0 c).arrAt_eq_of_cover 15 G (fun t _ => hfl t) cover15

/-! ## The run, with the result array named -/

/-- After the frame run, the result array is `(dats m 0 c).arrAt 15 N`. -/
theorem post15 (r : PUnit × MemSt nD τ sig (Elt Ideal)) (h : Pipeline.FramePost cfgs (dats m) 0 (V m) r) (c : Dev nD) :
    r.2.mem ((c : Thread nD τ).loc main_v15) = (dats m 0 c).arrAt 15 cfg0.N :=
  (h c).1 15

/-- After the frame run each argument is as launched: an input window's array is never written back, an array no
    window stages ends as the region found it, and no host operation writes an argument. -/
theorem kept_main_arg0 (r : PUnit × MemSt nD τ sig (Elt Ideal)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))
theorem kept_main_arg1 (r : PUnit × MemSt nD τ sig (Elt Ideal)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)
theorem kept_main_arg2 (r : PUnit × MemSt nD τ sig (Elt Ideal)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)
theorem kept_main_arg3 (r : PUnit × MemSt nD τ sig (Elt Ideal)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)
theorem kept_main_arg4 (r : PUnit × MemSt nD τ sig (Elt Ideal)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)
theorem kept_main_arg5 (r : PUnit × MemSt nD τ sig (Elt Ideal)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)
theorem kept_main_arg6 (r : PUnit × MemSt nD τ sig (Elt Ideal)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)
theorem kept_main_arg7 (r : PUnit × MemSt nD τ sig (Elt Ideal)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)
theorem kept_main_arg8 (r : PUnit × MemSt nD τ sig (Elt Ideal)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)
theorem kept_main_arg9 (r : PUnit × MemSt nD τ sig (Elt Ideal)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)
theorem kept_main_arg10 (r : PUnit × MemSt nD τ sig (Elt Ideal)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)
theorem kept_main_arg11 (r : PUnit × MemSt nD τ sig (Elt Ideal)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)
theorem kept_main_arg12 (r : PUnit × MemSt nD τ sig (Elt Ideal)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_main_arg12 m c)
theorem kept_main_arg13 (r : PUnit × MemSt nD τ sig (Elt Ideal)) (h : Pipeline.FramePost cfgs (dats m) 0 (V m) r) (c : Dev nD) :
    r.2.mem ((c : Thread nD τ).loc main_arg13) = m ((c : Thread nD τ).loc main_arg13) :=
  ((h c).2 main_arg13 (Pipeline.mem_restRefs_of main_arg13 (by decide) (by decide))).trans (V_main_arg13 m c)
theorem kept_main_arg14 (r : PUnit × MemSt nD τ sig (Elt Ideal)) (h : Pipeline.FramePost cfgs (dats m) 0 (V m) r) (c : Dev nD) :
    r.2.mem ((c : Thread nD τ).loc main_arg14) = m ((c : Thread nD τ).loc main_arg14) :=
  ((h c).1 10).trans (((dats m 0 c).arrAt_in 10 rfl _).trans ((A_eq m c 10).trans (V_main_arg14 m c)))
theorem kept_main_arg15 (r : PUnit × MemSt nD τ sig (Elt Ideal)) (h : Pipeline.FramePost cfgs (dats m) 0 (V m) r) (c : Dev nD) :
    r.2.mem ((c : Thread nD τ).loc main_arg15) = m ((c : Thread nD τ).loc main_arg15) :=
  ((h c).2 main_arg15 (Pipeline.mem_restRefs_of main_arg15 (by decide) (by decide))).trans (V_main_arg15 m c)
theorem kept_main_arg16 (r : PUnit × MemSt nD τ sig (Elt Ideal)) (h : Pipeline.FramePost cfgs (dats m) 0 (V m) r) (c : Dev nD) :
    r.2.mem ((c : Thread nD τ).loc main_arg16) = m ((c : Thread nD τ).loc main_arg16) :=
  ((h c).1 12).trans (((dats m 0 c).arrAt_in 12 rfl _).trans ((A_eq m c 12).trans (V_main_arg16 m c)))
theorem kept_main_arg17 (r : PUnit × MemSt nD τ sig (Elt Ideal)) (h : Pipeline.FramePost cfgs (dats m) 0 (V m) r) (c : Dev nD) :
    r.2.mem ((c : Thread nD τ).loc main_arg17) = m ((c : Thread nD τ).loc main_arg17) :=
  ((h c).2 main_arg17 (Pipeline.mem_restRefs_of main_arg17 (by decide) (by decide))).trans (V_main_arg17 m c)
theorem kept_main_arg18 (r : PUnit × MemSt nD τ sig (Elt Ideal)) (h : Pipeline.FramePost cfgs (dats m) 0 (V m) r) (c : Dev nD) :
    r.2.mem ((c : Thread nD τ).loc main_arg18) = m ((c : Thread nD τ).loc main_arg18) :=
  ((h c).1 14).trans (((dats m 0 c).arrAt_in 14 rfl _).trans ((A_eq m c 14).trans (V_main_arg18 m c)))

/-- The frame run with the result array after the run named, the arguments unchanged. -/
theorem run_blocks : θ_run defs (onTc (τ := τ) (main (F := Ideal))) ⟨m, fun _ => 0, ρ⟩ fun r => ∀ c : Dev nD,
      r.2.mem ((c : Thread nD τ).loc main_v15) = (dats m 0 c).arrAt 15 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18) :=
  (θ_run defs _ _).mono (fun r h c => ⟨post15 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c,
      kept_main_arg15 m r h c,
      kept_main_arg16 m r h c,
      kept_main_arg17 m r h c,
      kept_main_arg18 m r h c⟩)
    (run_main m ρ)

end Cert.KernelIdeal.HandValue

end
-- ==== Proof.LibJoinCols.lean ====
/-
  Two matrices with the same number of rows laid side by side, read at an entry. If `x` is n × a and `y` is n × b,
  their concatenation along the column axis is n × c (the shape record's side condition makes c = a + b); its entry
  (p, k) is `x (p, k)` when k < a and `y (p, k - a)` otherwise.
-/
import Idealize.ShloMosaic.Lib.ValueIdx
import Idealize.ShloMosaic.Lib.Pipeline.Value

noncomputable section

namespace Cert.Lib.JoinCols

open Idealize.ShloMosaic Idealize.ShloMosaic.ValueIdx

variable {α : Type}

/-- A column position inside the first matrix reads the first matrix there. -/
theorem concat_cols_left {n a b c : Nat} (x : (⟨2, ![n, a]⟩ : Shape).Idx → α) (y : (⟨2, ![n, b]⟩ : Shape).Idx → α)
    (h : Shape.Concatenates [(⟨2, ![n, a]⟩ : Shape), ⟨2, ![n, b]⟩] ⟨2, ![n, c]⟩ (1 : Fin 2))
    (p : Fin n) (k : Fin c) (hk : k.val < a) :
    concatenate (⟨2, ![n, c]⟩ : Shape) (1 : Fin 2) [⟨⟨2, ![n, a]⟩, x⟩, ⟨⟨2, ![n, b]⟩, y⟩] h (ix2 p k) = x (ix2 p ⟨k.val, hk⟩) :=
  concatenate_pair_apply_left (1 : Fin 2) x y h (ix2 p k) rfl (ix2 p ⟨k.val, hk⟩) (fun d => by
    match d with
    | ⟨0, _⟩ => rfl
    | ⟨1, _⟩ => rfl)

/-- A column position past the first matrix reads the second matrix, the first one's width less. -/
theorem concat_cols_right {n a b c : Nat} (x : (⟨2, ![n, a]⟩ : Shape).Idx → α) (y : (⟨2, ![n, b]⟩ : Shape).Idx → α)
    (h : Shape.Concatenates [(⟨2, ![n, a]⟩ : Shape), ⟨2, ![n, b]⟩] ⟨2, ![n, c]⟩ (1 : Fin 2))
    (p : Fin n) (k : Fin c) (hk : a ≤ k.val) (hb : k.val - a < b) :
    concatenate (⟨2, ![n, c]⟩ : Shape) (1 : Fin 2) [⟨⟨2, ![n, a]⟩, x⟩, ⟨⟨2, ![n, b]⟩, y⟩] h (ix2 p k) = y (ix2 p ⟨k.val - a, hb⟩) :=
  concatenate_pair_apply_right (1 : Fin 2) x y h (ix2 p k) rfl rfl (ix2 p ⟨k.val - a, hb⟩) (fun d hd => by
    match d with
    | ⟨0, _⟩ => rfl
    | ⟨1, _⟩ => exact absurd rfl hd) (by show k.val - a + a = k.val; omega)

end Cert.Lib.JoinCols

end
-- ==== Proof.LibJoinVec.lean ====
/-
  Two vectors laid end to end, read at an entry. If `x` has a entries and `y` has b, their concatenation has c entries
  (the shape record's side condition makes c = a + b); its entry k is `x k` when k < a and `y (k - a)` otherwise.
-/
import Idealize.ShloMosaic.Lib.ValueIdx
import Idealize.ShloMosaic.Lib.Pipeline.Value

noncomputable section

namespace Cert.Lib.JoinVec

open Idealize.ShloMosaic Idealize.ShloMosaic.ValueIdx

variable {α : Type}

/-- A position inside the first vector reads the first vector there. -/
theorem concat_vec_left {a b c : Nat} (x : (⟨1, ![a]⟩ : Shape).Idx → α) (y : (⟨1, ![b]⟩ : Shape).Idx → α)
    (h : Shape.Concatenates [(⟨1, ![a]⟩ : Shape), ⟨1, ![b]⟩] ⟨1, ![c]⟩ (0 : Fin 1)) (k : Fin c) (hk : k.val < a) :
    concatenate (⟨1, ![c]⟩ : Shape) (0 : Fin 1) [⟨⟨1, ![a]⟩, x⟩, ⟨⟨1, ![b]⟩, y⟩] h (ix1 k) = x (ix1 ⟨k.val, hk⟩) :=
  concatenate_pair_apply_left (0 : Fin 1) x y h (ix1 k) rfl (ix1 ⟨k.val, hk⟩) (fun d => by
    match d with
    | ⟨0, _⟩ => rfl)

/-- A position past the first vector reads the second vector, the first one's length less. -/
theorem concat_vec_right {a b c : Nat} (x : (⟨1, ![a]⟩ : Shape).Idx → α) (y : (⟨1, ![b]⟩ : Shape).Idx → α)
    (h : Shape.Concatenates [(⟨1, ![a]⟩ : Shape), ⟨1, ![b]⟩] ⟨1, ![c]⟩ (0 : Fin 1)) (k : Fin c) (hk : a ≤ k.val)
    (hb : k.val - a < b) :
    concatenate (⟨1, ![c]⟩ : Shape) (0 : Fin 1) [⟨⟨1, ![a]⟩, x⟩, ⟨⟨1, ![b]⟩, y⟩] h (ix1 k) = y (ix1 ⟨k.val - a, hb⟩) :=
  concatenate_pair_apply_right (0 : Fin 1) x y h (ix1 k) rfl rfl (ix1 ⟨k.val - a, hb⟩) (fun d hd => by
    match d with
    | ⟨0, _⟩ => exact absurd rfl hd) (by show k.val - a + a = k.val; omega)

end Cert.Lib.JoinVec

end
-- ==== Proof.KPrep.lean ====
/-
  What the weight buffers hold when the region is entered, entry by entry.

  Before the region the program lays the weights out for the kernel: each GRU layer's two input-weight matrices are
  transposed and set side by side, [K, 768] = [forward's transpose | backward's transpose], each pair of bias vectors is
  set end to end, [768] = [forward | backward], and the three dense matrices are kept as they are. (The change of float
  format on the matrices is the identity on the extended reals.) So column c of a joined matrix is row c of the forward
  weights when c < 384 and row c − 384 of the backward weights otherwise, and likewise for the biases.
-/
import proofs.«169599_j67370857005464_2_alg».proof.Proof.FrameIdeal
import proofs.«169599_j67370857005464_2_alg».proof.Proof.LibJoinCols
import proofs.«169599_j67370857005464_2_alg».proof.Proof.LibJoinVec
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.HandValue

open Cert.KernelIdeal Cert.KernelIdeal.Gen Cert.KernelIdeal.Hand Idealize.ShloMosaic Idealize.ShloMosaic.TcCoe Idealize.SL.Sem
open Idealize.ShloMosaic.ValueIdx Cert.Lib.JoinCols Cert.Lib.JoinVec

variable (m : (ℓ : Loc nD τ sig) → Buf (Elt Ideal) ℓ)

/-! ## The buffers as terms of the arguments -/

theorem V_v3 (c : Dev nD) : (V m c main_v3 : S128x768.Idx → EReal)
    = truncf (F := Ideal) .bf16 (concatenate S128x768 1 [⟨S128x384, transpose S128x384 [1, 0] (m ((c : Thread nD τ).loc main_arg1)) transposes_S384x128_S128x384_1_0⟩, ⟨S128x384, transpose S128x384 [1, 0] (m ((c : Thread nD τ).loc main_arg4)) transposes_S384x128_S128x384_1_0⟩] concatenates_S128x384_S128x384_S128x768_d1) bitsLt_bf16_f32 := by
  dsimp only [V, hostOps0]; after_results; try rfl

theorem V_v9 (c : Dev nD) : (V m c main_v9 : S256x768.Idx → EReal)
    = truncf (F := Ideal) .bf16 (concatenate S256x768 1 [⟨S256x384, transpose S256x384 [1, 0] (m ((c : Thread nD τ).loc main_arg7)) transposes_S384x256_S256x384_1_0⟩, ⟨S256x384, transpose S256x384 [1, 0] (m ((c : Thread nD τ).loc main_arg10)) transposes_S384x256_S256x384_1_0⟩] concatenates_S256x384_S256x384_S256x768_d1) bitsLt_bf16_f32 := by
  dsimp only [V, hostOps0]; after_results; try rfl

theorem V_v4 (c : Dev nD) : (V m c main_v4 : S768.Idx → EReal)
    = concatenate S768 0 [⟨S384, m ((c : Thread nD τ).loc main_arg2)⟩, ⟨S384, m ((c : Thread nD τ).loc main_arg5)⟩] concatenates_S384_S384_S768_d0 := by
  dsimp only [V, hostOps0]; after_results; try rfl

theorem V_v5 (c : Dev nD) : (V m c main_v5 : S768.Idx → EReal)
    = concatenate S768 0 [⟨S384, m ((c : Thread nD τ).loc main_arg3)⟩, ⟨S384, m ((c : Thread nD τ).loc main_arg6)⟩] concatenates_S384_S384_S768_d0 := by
  dsimp only [V, hostOps0]; after_results; try rfl

theorem V_v10 (c : Dev nD) : (V m c main_v10 : S768.Idx → EReal)
    = concatenate S768 0 [⟨S384, m ((c : Thread nD τ).loc main_arg8)⟩, ⟨S384, m ((c : Thread nD τ).loc main_arg11)⟩] concatenates_S384_S384_S768_d0 := by
  dsimp only [V, hostOps0]; after_results; try rfl

theorem V_v11 (c : Dev nD) : (V m c main_v11 : S768.Idx → EReal)
    = concatenate S768 0 [⟨S384, m ((c : Thread nD τ).loc main_arg9)⟩, ⟨S384, m ((c : Thread nD τ).loc main_arg12)⟩] concatenates_S384_S384_S768_d0 := by
  dsimp only [V, hostOps0]; after_results; try rfl

theorem V_v12 (c : Dev nD) : (V m c main_v12 : S256x128.Idx → EReal)
    = truncf (F := Ideal) .bf16 (m ((c : Thread nD τ).loc main_arg13)) bitsLt_bf16_f32 := by
  dsimp only [V, hostOps0]; after_results; try rfl

theorem V_v13 (c : Dev nD) : (V m c main_v13 : S128x64.Idx → EReal)
    = truncf (F := Ideal) .bf16 (m ((c : Thread nD τ).loc main_arg15)) bitsLt_bf16_f32 := by
  dsimp only [V, hostOps0]; after_results; try rfl

theorem V_v14 (c : Dev nD) : (V m c main_v14 : S64x10.Idx → EReal)
    = truncf (F := Ideal) .bf16 (m ((c : Thread nD τ).loc main_arg17)) bitsLt_bf16_f32 := by
  dsimp only [V, hostOps0]; after_results; try rfl

/-! ## Entry by entry -/

/-- Layer 1's joined matrix: column j < 384 of row k is the forward weights' entry (j, k). -/
theorem v3_fwd (c : Dev nD) (k : Fin 128) (j : Fin 384) :
    (V m c main_v3 : S128x768.Idx → EReal) (ix2 k ⟨j.val, by omega⟩) = m ((c : Thread nD τ).loc main_arg1) (ix2 j k) := by
  rw [V_v3]
  rw [truncf_apply, concat_cols_left _ _ concatenates_S128x384_S128x384_S128x768_d1 k ⟨j.val, by omega⟩ j.isLt]
  exact transpose_ix2_apply _ _ k j

/-- and column 384 + j is the backward weights' entry (j, k). -/
theorem v3_bwd (c : Dev nD) (k : Fin 128) (j : Fin 384) :
    (V m c main_v3 : S128x768.Idx → EReal) (ix2 k ⟨384 + j.val, by omega⟩) = m ((c : Thread nD τ).loc main_arg4) (ix2 j k) := by
  rw [V_v3]
  rw [truncf_apply, concat_cols_right _ _ concatenates_S128x384_S128x384_S128x768_d1 k ⟨384 + j.val, by omega⟩ (by show 384 ≤ 384 + j.val; omega) (by show 384 + j.val - 384 < 384; omega)]
  have e : (⟨384 + j.val - 384, by omega⟩ : Fin 384) = j := Fin.ext (by show 384 + j.val - 384 = j.val; omega)
  rw [e]
  exact transpose_ix2_apply _ _ k j

theorem v9_fwd (c : Dev nD) (k : Fin 256) (j : Fin 384) :
    (V m c main_v9 : S256x768.Idx → EReal) (ix2 k ⟨j.val, by omega⟩) = m ((c : Thread nD τ).loc main_arg7) (ix2 j k) := by
  rw [V_v9]
  rw [truncf_apply, concat_cols_left _ _ concatenates_S256x384_S256x384_S256x768_d1 k ⟨j.val, by omega⟩ j.isLt]
  exact transpose_ix2_apply _ _ k j

theorem v9_bwd (c : Dev nD) (k : Fin 256) (j : Fin 384) :
    (V m c main_v9 : S256x768.Idx → EReal) (ix2 k ⟨384 + j.val, by omega⟩) = m ((c : Thread nD τ).loc main_arg10) (ix2 j k) := by
  rw [V_v9]
  rw [truncf_apply, concat_cols_right _ _ concatenates_S256x384_S256x384_S256x768_d1 k ⟨384 + j.val, by omega⟩ (by show 384 ≤ 384 + j.val; omega) (by show 384 + j.val - 384 < 384; omega)]
  have e : (⟨384 + j.val - 384, by omega⟩ : Fin 384) = j := Fin.ext (by show 384 + j.val - 384 = j.val; omega)
  rw [e]
  exact transpose_ix2_apply _ _ k j

/-- Two bias vectors end to end: entry j < 384 is the first's, entry 384 + j the second's. -/
theorem join_fst (x y : S384.Idx → EReal) (j : Fin 384) :
    concatenate S768 0 [⟨S384, x⟩, ⟨S384, y⟩] concatenates_S384_S384_S768_d0 (ix1 ⟨j.val, by omega⟩) = x (ix1 j) := by
  rw [concat_vec_left x y concatenates_S384_S384_S768_d0 ⟨j.val, by omega⟩ j.isLt]

theorem join_snd (x y : S384.Idx → EReal) (j : Fin 384) :
    concatenate S768 0 [⟨S384, x⟩, ⟨S384, y⟩] concatenates_S384_S384_S768_d0 (ix1 ⟨384 + j.val, by omega⟩) = y (ix1 j) := by
  rw [concat_vec_right x y concatenates_S384_S384_S768_d0 ⟨384 + j.val, by omega⟩ (by show 384 ≤ 384 + j.val; omega) (by show 384 + j.val - 384 < 384; omega)]
  exact congrArg (fun i => y (ix1 i)) (Fin.ext (by show 384 + j.val - 384 = j.val; omega))

end Cert.KernelIdeal.HandValue

end
-- ==== Proof.KBodyLayout.lean ====
/-
  The kernel body's non-pointwise operations read at explicit coordinates, at the extended reals: a cut of a vector, a
  column or a row broadcast over a matrix, the five matrix products into a zero accumulator as sums over the shared
  axis, and the pointwise nonlinearities at an index.
-/
import proofs.«169599_j67370857005464_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Idealize.ShloMosaic Idealize.ShloMosaic.ValueIdx Cert.KernelIdeal Cert.KernelIdeal.Gen

/-! ## Layout operations at explicit coordinates -/

section Layout
variable {α : Type}

/-- A vector cut from `o` reads, at `j`, the source at `o + j`. -/
theorem slice1_apply {n m : Nat} (o : Nat) (X : (⟨1, ![n]⟩ : Shape).Idx → α)
    (h : (⟨1, ![n]⟩ : Shape).Slices ![o] ⟨1, ![m]⟩) (j : Fin m) (k : Fin n) (hk : k.val = o + j.val) :
    extractStridedSlice ⟨1, ![m]⟩ ![o] X h (ix1 j) = X (ix1 k) :=
  extractStridedSlice_apply _ _ _ _ _ (fun ax => by
    match ax with
    | ⟨0, _⟩ => exact hk)

/-- A column `[a, 1]` broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[b]` laid as one row and broadcast over `a` rows reads, at `(p, c)`, its entry `c`. -/
theorem rowBroadcast_apply {a b : ℕ} (v : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (p : Fin a) (c : Fin b) :
    broadcastTo ⟨2, ![a, b]⟩ (shapeCast ⟨2, ![1, b]⟩ v h1) h2 (ix2 p c) = v (ix1 c) := by
  rw [broadcastTo_1b_ab_apply, shapeCast_a_1a_apply]

end Layout

/-! ## Pointwise operations at an index -/

section Pointwise
variable {s : Shape} {φ : FTy}
theorem logistic_apply (a : FVec Ideal s φ) (i : s.Idx) : logistic a i = Ideal.logistic (a i) := rfl
theorem tanh_apply (a : FVec Ideal s φ) (i : s.Idx) : tanh a i = Ideal.tanh (a i) := rfl
theorem rsqrt_apply (a : FVec Ideal s φ) (i : s.Idx) : rsqrt a i = Ideal.rsqrt (a i) := rfl
end Pointwise

/-- A vector cut from `o`, with the source entry written out. -/
theorem slice1_eq {α : Type} {n m : Nat} (o : Nat) (X : (⟨1, ![n]⟩ : Shape).Idx → α)
    (h : (⟨1, ![n]⟩ : Shape).Slices ![o] ⟨1, ![m]⟩) (j : Fin m) :
    extractStridedSlice ⟨1, ![m]⟩ ![o] X h (ix1 j)
      = X (ix1 ⟨o + j.val, Nat.lt_of_lt_of_le (Nat.add_lt_add_left j.isLt o) (h.2 0)⟩) :=
  slice1_apply o X h j _ rfl

/-- The literal 1.0 is the extended real 1. -/
theorem one_f32 : (Scalar.ofBits (F := Ideal) .f32 0x3F800000#32 : EReal) = 1 := by
  show Ideal.ofBits .f32 0x3F800000#32 = 1
  simp [Ideal.ofBits, Ideal.ieee, -EReal.coe_mul]
  norm_num

/-! ## The matrix products at an index -/

theorem mm_1040_128_768_l0 (i : S1040x768.Idx) (q : dot_S1040x128_S128x768_S1040x768_1_0_0_1_n_n.contr.Idx) : (dot_S1040x128_S128x768_S1040x768_1_0_0_1_n_n.lhsIdx i q 0).val = (i 0).val := by
  unfold DotDims.lhsIdx
  rw [dif_neg (show ¬(0 : Fin S1040x128.rank) ∈ dot_S1040x128_S128x768_S1040x768_1_0_0_1_n_n.lhsBatch by decide),
    dif_pos (show (0 : Fin S1040x128.rank) ∈ dot_S1040x128_S128x768_S1040x768_1_0_0_1_n_n.lhsNonContracting by decide)]
  rfl
theorem mm_1040_128_768_r1 (i : S1040x768.Idx) (q : dot_S1040x128_S128x768_S1040x768_1_0_0_1_n_n.contr.Idx) : (dot_S1040x128_S128x768_S1040x768_1_0_0_1_n_n.rhsIdx i q 1).val = (i 1).val := by
  unfold DotDims.rhsIdx
  rw [dif_neg (show ¬(1 : Fin S128x768.rank) ∈ dot_S1040x128_S128x768_S1040x768_1_0_0_1_n_n.rhsBatch by decide),
    dif_pos (show (1 : Fin S128x768.rank) ∈ dot_S1040x128_S128x768_S1040x768_1_0_0_1_n_n.rhsNonContracting by decide)]
  rfl
/-- The [1040, 128] × [128, 768] product into a zero accumulator, at (r, c): the sum over the shared axis. -/
theorem mm_1040_128_768 {φ₁ φ₂ : FTy} (x : FVec Ideal S1040x128 φ₁) (w : FVec Ideal S128x768 φ₂) (r : Fin 1040) (c : Fin 768) :
    matmul dot_S1040x128_S128x768_S1040x768_1_0_0_1_n_n none x w (constant S1040x768 .f32 0x00000000#32) (ix2 r c)
      = ∑ k : Fin 128, x (ix2 r k) * w (ix2 k c) := by
  simp only [matmul]
  rw [Ideal.matmul_constant_zero_apply, ← Equiv.sum_comp (contrEquiv1 dot_S1040x128_S128x768_S1040x768_1_0_0_1_n_n 128 rfl rfl).symm]
  refine Finset.sum_congr rfl fun k _ => ?_
  have hk := contrEquiv1_symm_val dot_S1040x128_S128x768_S1040x768_1_0_0_1_n_n 128 rfl rfl k
  have el : dot_S1040x128_S128x768_S1040x768_1_0_0_1_n_n.lhsIdx (ix2 r c) ((contrEquiv1 dot_S1040x128_S128x768_S1040x768_1_0_0_1_n_n 128 rfl rfl).symm k) = ix2 r k :=
    funext fun a => Fin.ext (by
      match a with
      | ⟨0, _⟩ => exact mm_1040_128_768_l0 _ _
      | ⟨1, _⟩ => exact (dot_S1040x128_S128x768_S1040x768_1_0_0_1_n_n.lhsIdx_val_of_single rfl _ _).trans hk)
  have er : dot_S1040x128_S128x768_S1040x768_1_0_0_1_n_n.rhsIdx (ix2 r c) ((contrEquiv1 dot_S1040x128_S128x768_S1040x768_1_0_0_1_n_n 128 rfl rfl).symm k) = ix2 k c :=
    funext fun a => Fin.ext (by
      match a with
      | ⟨0, _⟩ => exact (dot_S1040x128_S128x768_S1040x768_1_0_0_1_n_n.rhsIdx_val_of_single rfl _ _).trans hk
      | ⟨1, _⟩ => exact mm_1040_128_768_r1 _ _)
  rw [el, er]

theorem mm_1040_256_768_l0 (i : S1040x768.Idx) (q : dot_S1040x256_S256x768_S1040x768_1_0_0_1_n_n.contr.Idx) : (dot_S1040x256_S256x768_S1040x768_1_0_0_1_n_n.lhsIdx i q 0).val = (i 0).val := by
  unfold DotDims.lhsIdx
  rw [dif_neg (show ¬(0 : Fin S1040x256.rank) ∈ dot_S1040x256_S256x768_S1040x768_1_0_0_1_n_n.lhsBatch by decide),
    dif_pos (show (0 : Fin S1040x256.rank) ∈ dot_S1040x256_S256x768_S1040x768_1_0_0_1_n_n.lhsNonContracting by decide)]
  rfl
theorem mm_1040_256_768_r1 (i : S1040x768.Idx) (q : dot_S1040x256_S256x768_S1040x768_1_0_0_1_n_n.contr.Idx) : (dot_S1040x256_S256x768_S1040x768_1_0_0_1_n_n.rhsIdx i q 1).val = (i 1).val := by
  unfold DotDims.rhsIdx
  rw [dif_neg (show ¬(1 : Fin S256x768.rank) ∈ dot_S1040x256_S256x768_S1040x768_1_0_0_1_n_n.rhsBatch by decide),
    dif_pos (show (1 : Fin S256x768.rank) ∈ dot_S1040x256_S256x768_S1040x768_1_0_0_1_n_n.rhsNonContracting by decide)]
  rfl
/-- The [1040, 256] × [256, 768] product into a zero accumulator, at (r, c): the sum over the shared axis. -/
theorem mm_1040_256_768 {φ₁ φ₂ : FTy} (x : FVec Ideal S1040x256 φ₁) (w : FVec Ideal S256x768 φ₂) (r : Fin 1040) (c : Fin 768) :
    matmul dot_S1040x256_S256x768_S1040x768_1_0_0_1_n_n none x w (constant S1040x768 .f32 0x00000000#32) (ix2 r c)
      = ∑ k : Fin 256, x (ix2 r k) * w (ix2 k c) := by
  simp only [matmul]
  rw [Ideal.matmul_constant_zero_apply, ← Equiv.sum_comp (contrEquiv1 dot_S1040x256_S256x768_S1040x768_1_0_0_1_n_n 256 rfl rfl).symm]
  refine Finset.sum_congr rfl fun k _ => ?_
  have hk := contrEquiv1_symm_val dot_S1040x256_S256x768_S1040x768_1_0_0_1_n_n 256 rfl rfl k
  have el : dot_S1040x256_S256x768_S1040x768_1_0_0_1_n_n.lhsIdx (ix2 r c) ((contrEquiv1 dot_S1040x256_S256x768_S1040x768_1_0_0_1_n_n 256 rfl rfl).symm k) = ix2 r k :=
    funext fun a => Fin.ext (by
      match a with
      | ⟨0, _⟩ => exact mm_1040_256_768_l0 _ _
      | ⟨1, _⟩ => exact (dot_S1040x256_S256x768_S1040x768_1_0_0_1_n_n.lhsIdx_val_of_single rfl _ _).trans hk)
  have er : dot_S1040x256_S256x768_S1040x768_1_0_0_1_n_n.rhsIdx (ix2 r c) ((contrEquiv1 dot_S1040x256_S256x768_S1040x768_1_0_0_1_n_n 256 rfl rfl).symm k) = ix2 k c :=
    funext fun a => Fin.ext (by
      match a with
      | ⟨0, _⟩ => exact (dot_S1040x256_S256x768_S1040x768_1_0_0_1_n_n.rhsIdx_val_of_single rfl _ _).trans hk
      | ⟨1, _⟩ => exact mm_1040_256_768_r1 _ _)
  rw [el, er]

theorem mm_1040_256_128_l0 (i : S1040x128.Idx) (q : dot_S1040x256_S256x128_S1040x128_1_0_0_1_n_n.contr.Idx) : (dot_S1040x256_S256x128_S1040x128_1_0_0_1_n_n.lhsIdx i q 0).val = (i 0).val := by
  unfold DotDims.lhsIdx
  rw [dif_neg (show ¬(0 : Fin S1040x256.rank) ∈ dot_S1040x256_S256x128_S1040x128_1_0_0_1_n_n.lhsBatch by decide),
    dif_pos (show (0 : Fin S1040x256.rank) ∈ dot_S1040x256_S256x128_S1040x128_1_0_0_1_n_n.lhsNonContracting by decide)]
  rfl
theorem mm_1040_256_128_r1 (i : S1040x128.Idx) (q : dot_S1040x256_S256x128_S1040x128_1_0_0_1_n_n.contr.Idx) : (dot_S1040x256_S256x128_S1040x128_1_0_0_1_n_n.rhsIdx i q 1).val = (i 1).val := by
  unfold DotDims.rhsIdx
  rw [dif_neg (show ¬(1 : Fin S256x128.rank) ∈ dot_S1040x256_S256x128_S1040x128_1_0_0_1_n_n.rhsBatch by decide),
    dif_pos (show (1 : Fin S256x128.rank) ∈ dot_S1040x256_S256x128_S1040x128_1_0_0_1_n_n.rhsNonContracting by decide)]
  rfl
/-- The [1040, 256] × [256, 128] product into a zero accumulator, at (r, c): the sum over the shared axis. -/
theorem mm_1040_256_128 {φ₁ φ₂ : FTy} (x : FVec Ideal S1040x256 φ₁) (w : FVec Ideal S256x128 φ₂) (r : Fin 1040) (c : Fin 128) :
    matmul dot_S1040x256_S256x128_S1040x128_1_0_0_1_n_n none x w (constant S1040x128 .f32 0x00000000#32) (ix2 r c)
      = ∑ k : Fin 256, x (ix2 r k) * w (ix2 k c) := by
  simp only [matmul]
  rw [Ideal.matmul_constant_zero_apply, ← Equiv.sum_comp (contrEquiv1 dot_S1040x256_S256x128_S1040x128_1_0_0_1_n_n 256 rfl rfl).symm]
  refine Finset.sum_congr rfl fun k _ => ?_
  have hk := contrEquiv1_symm_val dot_S1040x256_S256x128_S1040x128_1_0_0_1_n_n 256 rfl rfl k
  have el : dot_S1040x256_S256x128_S1040x128_1_0_0_1_n_n.lhsIdx (ix2 r c) ((contrEquiv1 dot_S1040x256_S256x128_S1040x128_1_0_0_1_n_n 256 rfl rfl).symm k) = ix2 r k :=
    funext fun a => Fin.ext (by
      match a with
      | ⟨0, _⟩ => exact mm_1040_256_128_l0 _ _
      | ⟨1, _⟩ => exact (dot_S1040x256_S256x128_S1040x128_1_0_0_1_n_n.lhsIdx_val_of_single rfl _ _).trans hk)
  have er : dot_S1040x256_S256x128_S1040x128_1_0_0_1_n_n.rhsIdx (ix2 r c) ((contrEquiv1 dot_S1040x256_S256x128_S1040x128_1_0_0_1_n_n 256 rfl rfl).symm k) = ix2 k c :=
    funext fun a => Fin.ext (by
      match a with
      | ⟨0, _⟩ => exact (dot_S1040x256_S256x128_S1040x128_1_0_0_1_n_n.rhsIdx_val_of_single rfl _ _).trans hk
      | ⟨1, _⟩ => exact mm_1040_256_128_r1 _ _)
  rw [el, er]

theorem mm_1040_128_64_l0 (i : S1040x64.Idx) (q : dot_S1040x128_S128x64_S1040x64_1_0_0_1_n_n.contr.Idx) : (dot_S1040x128_S128x64_S1040x64_1_0_0_1_n_n.lhsIdx i q 0).val = (i 0).val := by
  unfold DotDims.lhsIdx
  rw [dif_neg (show ¬(0 : Fin S1040x128.rank) ∈ dot_S1040x128_S128x64_S1040x64_1_0_0_1_n_n.lhsBatch by decide),
    dif_pos (show (0 : Fin S1040x128.rank) ∈ dot_S1040x128_S128x64_S1040x64_1_0_0_1_n_n.lhsNonContracting by decide)]
  rfl
theorem mm_1040_128_64_r1 (i : S1040x64.Idx) (q : dot_S1040x128_S128x64_S1040x64_1_0_0_1_n_n.contr.Idx) : (dot_S1040x128_S128x64_S1040x64_1_0_0_1_n_n.rhsIdx i q 1).val = (i 1).val := by
  unfold DotDims.rhsIdx
  rw [dif_neg (show ¬(1 : Fin S128x64.rank) ∈ dot_S1040x128_S128x64_S1040x64_1_0_0_1_n_n.rhsBatch by decide),
    dif_pos (show (1 : Fin S128x64.rank) ∈ dot_S1040x128_S128x64_S1040x64_1_0_0_1_n_n.rhsNonContracting by decide)]
  rfl
/-- The [1040, 128] × [128, 64] product into a zero accumulator, at (r, c): the sum over the shared axis. -/
theorem mm_1040_128_64 {φ₁ φ₂ : FTy} (x : FVec Ideal S1040x128 φ₁) (w : FVec Ideal S128x64 φ₂) (r : Fin 1040) (c : Fin 64) :
    matmul dot_S1040x128_S128x64_S1040x64_1_0_0_1_n_n none x w (constant S1040x64 .f32 0x00000000#32) (ix2 r c)
      = ∑ k : Fin 128, x (ix2 r k) * w (ix2 k c) := by
  simp only [matmul]
  rw [Ideal.matmul_constant_zero_apply, ← Equiv.sum_comp (contrEquiv1 dot_S1040x128_S128x64_S1040x64_1_0_0_1_n_n 128 rfl rfl).symm]
  refine Finset.sum_congr rfl fun k _ => ?_
  have hk := contrEquiv1_symm_val dot_S1040x128_S128x64_S1040x64_1_0_0_1_n_n 128 rfl rfl k
  have el : dot_S1040x128_S128x64_S1040x64_1_0_0_1_n_n.lhsIdx (ix2 r c) ((contrEquiv1 dot_S1040x128_S128x64_S1040x64_1_0_0_1_n_n 128 rfl rfl).symm k) = ix2 r k :=
    funext fun a => Fin.ext (by
      match a with
      | ⟨0, _⟩ => exact mm_1040_128_64_l0 _ _
      | ⟨1, _⟩ => exact (dot_S1040x128_S128x64_S1040x64_1_0_0_1_n_n.lhsIdx_val_of_single rfl _ _).trans hk)
  have er : dot_S1040x128_S128x64_S1040x64_1_0_0_1_n_n.rhsIdx (ix2 r c) ((contrEquiv1 dot_S1040x128_S128x64_S1040x64_1_0_0_1_n_n 128 rfl rfl).symm k) = ix2 k c :=
    funext fun a => Fin.ext (by
      match a with
      | ⟨0, _⟩ => exact (dot_S1040x128_S128x64_S1040x64_1_0_0_1_n_n.rhsIdx_val_of_single rfl _ _).trans hk
      | ⟨1, _⟩ => exact mm_1040_128_64_r1 _ _)
  rw [el, er]

theorem mm_1024_64_10_l0 (i : S1024x10.Idx) (q : dot_S1024x64_S64x10_S1024x10_1_0_0_1_n_n.contr.Idx) : (dot_S1024x64_S64x10_S1024x10_1_0_0_1_n_n.lhsIdx i q 0).val = (i 0).val := by
  unfold DotDims.lhsIdx
  rw [dif_neg (show ¬(0 : Fin S1024x64.rank) ∈ dot_S1024x64_S64x10_S1024x10_1_0_0_1_n_n.lhsBatch by decide),
    dif_pos (show (0 : Fin S1024x64.rank) ∈ dot_S1024x64_S64x10_S1024x10_1_0_0_1_n_n.lhsNonContracting by decide)]
  rfl
theorem mm_1024_64_10_r1 (i : S1024x10.Idx) (q : dot_S1024x64_S64x10_S1024x10_1_0_0_1_n_n.contr.Idx) : (dot_S1024x64_S64x10_S1024x10_1_0_0_1_n_n.rhsIdx i q 1).val = (i 1).val := by
  unfold DotDims.rhsIdx
  rw [dif_neg (show ¬(1 : Fin S64x10.rank) ∈ dot_S1024x64_S64x10_S1024x10_1_0_0_1_n_n.rhsBatch by decide),
    dif_pos (show (1 : Fin S64x10.rank) ∈ dot_S1024x64_S64x10_S1024x10_1_0_0_1_n_n.rhsNonContracting by decide)]
  rfl
/-- The [1024, 64] × [64, 10] product into a zero accumulator, at (r, c): the sum over the shared axis. -/
theorem mm_1024_64_10 {φ₁ φ₂ : FTy} (x : FVec Ideal S1024x64 φ₁) (w : FVec Ideal S64x10 φ₂) (r : Fin 1024) (c : Fin 10) :
    matmul dot_S1024x64_S64x10_S1024x10_1_0_0_1_n_n none x w (constant S1024x10 .f32 0x00000000#32) (ix2 r c)
      = ∑ k : Fin 64, x (ix2 r k) * w (ix2 k c) := by
  simp only [matmul]
  rw [Ideal.matmul_constant_zero_apply, ← Equiv.sum_comp (contrEquiv1 dot_S1024x64_S64x10_S1024x10_1_0_0_1_n_n 64 rfl rfl).symm]
  refine Finset.sum_congr rfl fun k _ => ?_
  have hk := contrEquiv1_symm_val dot_S1024x64_S64x10_S1024x10_1_0_0_1_n_n 64 rfl rfl k
  have el : dot_S1024x64_S64x10_S1024x10_1_0_0_1_n_n.lhsIdx (ix2 r c) ((contrEquiv1 dot_S1024x64_S64x10_S1024x10_1_0_0_1_n_n 64 rfl rfl).symm k) = ix2 r k :=
    funext fun a => Fin.ext (by
      match a with
      | ⟨0, _⟩ => exact mm_1024_64_10_l0 _ _
      | ⟨1, _⟩ => exact (dot_S1024x64_S64x10_S1024x10_1_0_0_1_n_n.lhsIdx_val_of_single rfl _ _).trans hk)
  have er : dot_S1024x64_S64x10_S1024x10_1_0_0_1_n_n.rhsIdx (ix2 r c) ((contrEquiv1 dot_S1024x64_S64x10_S1024x10_1_0_0_1_n_n 64 rfl rfl).symm k) = ix2 k c :=
    funext fun a => Fin.ext (by
      match a with
      | ⟨0, _⟩ => exact (dot_S1024x64_S64x10_S1024x10_1_0_0_1_n_n.rhsIdx_val_of_single rfl _ _).trans hk
      | ⟨1, _⟩ => exact mm_1024_64_10_r1 _ _)
  rw [el, er]

end Cert.KernelIdeal.Body

end
-- ==== Proof.KBodyRows.lean ====
/-
  One local row of a tile through the network's per-row part, read off the kernel body's arithmetic at the extended reals.

  The tile's 1040 rows are the 8 rows loaded before the main block, the block's 1024 rows and the 8 rows loaded after it,
  stacked. A fused recurrent layer multiplies a row by one [K, 768] matrix whose first 384 columns are the forward
  direction's three gates and whose last 384 the backward direction's, adds the input bias, and forms each direction's
  cell (1 - z) * tanh(i_n + r * h_n) from the hidden bias; the two directions' 128 entries side by side are the next
  layer's row. After two such layers a [256, 128] matrix gives the first convolution's projection of the row.
  Each statement below reads one of these stages at an explicit (row, column) and names it in the specification's words.
-/
import proofs.«169599_j67370857005464_2_alg».proof.Proof.KBodyLayout
import proofs.«169599_j67370857005464_2_alg».proof.Proof.Spec

noncomputable section

namespace Cert.KernelIdeal.Body

open Idealize.ShloMosaic Idealize.ShloMosaic.ValueIdx Cert.KernelIdeal Cert.KernelIdeal.Gen

/-! ## The tile's rows -/

/-- The three loaded blocks stacked: local row ρ < 8 is row ρ of the block before, ρ - 8 < 1024 row ρ - 8 of the main
    block, and the rest row ρ - 1032 of the block after. -/
def extRows (xp : Vec Ideal S8x128 .f32) (xm : Vec Ideal S1024x128 .f32) (xn : Vec Ideal S8x128 .f32)
    (ρ : Fin 1040) (k : Fin 128) : EReal :=
  if h : ρ.val < 8 then xp (ix2 ⟨ρ.val, h⟩ k)
  else if h2 : ρ.val < 1032 then xm (ix2 ⟨ρ.val - 8, by omega⟩ k)
  else xn (ix2 ⟨ρ.val - 1032, by omega⟩ k)

/-- The concatenation of the three blocks along the rows is `extRows`. -/
theorem concat_rows_apply (xp : Vec Ideal S8x128 .f32) (xm : Vec Ideal S1024x128 .f32) (xn : Vec Ideal S8x128 .f32)
    (ρ : Fin 1040) (k : Fin 128) :
    concatenate S1040x128 0 [⟨S8x128, xp⟩, ⟨S1024x128, xm⟩, ⟨S8x128, xn⟩]
        concatenates_S8x128_S1024x128_S8x128_S1040x128_d0 (ix2 ρ k) = extRows xp xm xn ρ k := by
  unfold extRows
  split
  · next h =>
    exact concatenate_apply_piece 0 _ _ (ix2 ρ k) 0 (by simp) S8x128 xp rfl rfl 0 rfl (ix2 ⟨ρ.val, h⟩ k)
      (fun b hb => by
        match b with
        | ⟨0, _⟩ => exact absurd rfl hb
        | ⟨1, _⟩ => rfl)
      (by show 0 + ρ.val = ρ.val; omega)
  · next h =>
    split
    · next h2 =>
      exact concatenate_apply_piece 0 _ _ (ix2 ρ k) 1 (by simp) S1024x128 xm rfl rfl 8 rfl (ix2 ⟨ρ.val - 8, by omega⟩ k)
        (fun b hb => by
          match b with
          | ⟨0, _⟩ => exact absurd rfl hb
          | ⟨1, _⟩ => rfl)
        (by show 8 + (ρ.val - 8) = ρ.val; omega)
    · next h2 =>
      exact concatenate_apply_piece 0 _ _ (ix2 ρ k) 2 (by simp) S8x128 xn rfl rfl 1032 rfl (ix2 ⟨ρ.val - 1032, by omega⟩ k)
        (fun b hb => by
          match b with
          | ⟨0, _⟩ => exact absurd rfl hb
          | ⟨1, _⟩ => rfl)
        (by show 1032 + (ρ.val - 1032) = ρ.val; omega)

/-! ## A fused layer's gates and cells -/

/-- Column `o + c` of the 768 fused gate columns, for the direction whose 384 columns start at `o` ∈ {0, 384}. -/
def fcol (o : Nat) (ho : o + 384 ≤ 768) (c : Fin 384) : Fin 768 := ⟨o + c.val, by omega⟩

/-- One direction of a fused layer, in the specification's record: its weights are columns `o …` of the [K, 768] matrix
    (so the record's [384, K] matrix is the transpose of that band), its biases entries `o …` of the two [768] vectors. -/
def gruAt {K : Nat} (o : Nat) (ho : o + 384 ≤ 768) (w : (⟨2, ![K, 768]⟩ : Shape).Idx → EReal)
    (bi bh : (⟨1, ![768]⟩ : Shape).Idx → EReal) : Spec.Gru K :=
  ⟨fun c k => w (ix2 k (fcol o ho c)), fun c => bi (ix1 (fcol o ho c)), fun c => bh (ix1 (fcol o ho c))⟩

/-- A cell from its direction's 384 gate pre-activations `g` and 384 hidden biases `h`. -/
def cellOf (g h : Fin 384 → EReal) (j : Fin 128) : EReal :=
  (1 - Ideal.logistic (g (Spec.col 128 (by omega) j) + h (Spec.col 128 (by omega) j)))
    * Ideal.tanh (g (Spec.col 256 (by omega) j)
        + Ideal.logistic (g (Spec.col 0 (by omega) j) + h (Spec.col 0 (by omega) j)) * h (Spec.col 256 (by omega) j))

theorem cell_eq_cellOf {K : Nat} (G : Spec.Gru K) (xr : Fin K → EReal) (j : Fin 128) :
    Spec.cell G xr j = cellOf (Spec.gate G xr) G.bh j := rfl

/-! ## The first layer -/

section Layer1
variable (xp : Vec Ideal S8x128 .f32) (xm : Vec Ideal S1024x128 .f32) (xn : Vec Ideal S8x128 .f32)
  (w3 : Vec Ideal S128x768 .bf16) (w4 w5 : Vec Ideal S768 .f32)

/-- The first layer's 768 gate pre-activations of local row ρ. -/
theorem pay2_apply (ρ : Fin 1040) (c : Fin 768) :
    k0_pay2 xp xm xn w3 w4 (ix2 ρ c) = (∑ k : Fin 128, extRows xp xm xn ρ k * w3 (ix2 k c)) + w4 (ix1 c) := by
  unfold k0_pay2
  rw [addf_apply, mm_1040_128_768, rowBroadcast_apply, shapeCast_self, shapeCast_self]
  refine congrArg (· + _) (Finset.sum_congr rfl fun k _ => ?_)
  rw [truncf_apply, concat_rows_apply]

theorem pay2_gate (o : Nat) (ho : o + 384 ≤ 768) (ρ : Fin 1040) (c : Fin 384) :
    k0_pay2 xp xm xn w3 w4 (ix2 ρ (fcol o ho c)) = Spec.gate (gruAt o ho w3 w4 w5) (extRows xp xm xn ρ) c :=
  pay2_apply xp xm xn w3 w4 ρ (fcol o ho c)

/-- The forward cell of the first layer. -/
theorem pay6_apply (ρ : Fin 1040) (j : Fin 128) :
    k0_pay6 xp xm xn w3 w4 w5 (ix2 ρ j) = Spec.cell (gruAt 0 (by omega) w3 w4 w5) (extRows xp xm xn ρ) j := by
  rw [cell_eq_cellOf]
  unfold k0_pay6 cellOf
  simp only [mulf_apply, subf_apply, addf_apply, logistic_apply, tanh_apply, broadcast_apply, rowBroadcast_apply,
    slice2_axis1_eq, slice1_eq, one_f32]
  unfold k0_pay4
  simp only [shapeCast_self]
  simp only [← pay2_gate xp xm xn w3 w4 w5]
  rfl
end Layer1

/-- A cell from its three gate pre-activations and its three hidden biases at one entry. -/
def cell3 (ir iz inn hr hz hn : EReal) : EReal :=
  (1 - Ideal.logistic (iz + hz)) * Ideal.tanh (inn + Ideal.logistic (ir + hr) * hn)

theorem cellOf_eq_cell3 (g h : Fin 384 → EReal) (j : Fin 128) :
    cellOf g h j = cell3 (g (Spec.col 0 (by omega) j)) (g (Spec.col 128 (by omega) j)) (g (Spec.col 256 (by omega) j))
      (h (Spec.col 0 (by omega) j)) (h (Spec.col 128 (by omega) j)) (h (Spec.col 256 (by omega) j)) := rfl

/-- 128 entries followed by 128 more. -/
def pairOf (f g : Fin 128 → EReal) (k : Fin 256) : EReal :=
  if h : k.val < 128 then f ⟨k.val, h⟩ else g ⟨k.val - 128, by omega⟩

theorem pair_eq_pairOf {K : Nat} (Gf Gb : Spec.Gru K) (xr : Fin K → EReal) (k : Fin 256) :
    Spec.pair Gf Gb xr k = pairOf (Spec.cell Gf xr) (Spec.cell Gb xr) k := rfl

/-- Two [1040, 128] blocks side by side, at (ρ, k). -/
theorem concat_cols_apply (x y : FVec Ideal S1040x128 .f32) (ρ : Fin 1040) (k : Fin 256) :
    concatenate S1040x256 1 [⟨S1040x128, x⟩, ⟨S1040x128, y⟩] concatenates_S1040x128_S1040x128_S1040x256_d1 (ix2 ρ k)
      = pairOf (fun j => x (ix2 ρ j)) (fun j => y (ix2 ρ j)) k := by
  unfold pairOf
  split
  · next hk =>
    exact concatenate_pair_apply_left 1 x y _ (ix2 ρ k) rfl (ix2 ρ ⟨k.val, hk⟩) (fun b => by
      match b with
      | ⟨0, _⟩ => rfl
      | ⟨1, _⟩ => rfl)
  · next hk =>
    exact concatenate_pair_apply_right 1 x y _ (ix2 ρ k) rfl rfl (ix2 ρ ⟨k.val - 128, by omega⟩) (fun b hb => by
      match b with
      | ⟨0, _⟩ => rfl
      | ⟨1, _⟩ => exact absurd rfl hb)
      (by show (k.val - 128) + 128 = k.val; omega)

section Layer1b
variable (xp : Vec Ideal S8x128 .f32) (xm : Vec Ideal S1024x128 .f32) (xn : Vec Ideal S8x128 .f32)
  (w3 : Vec Ideal S128x768 .bf16) (w4 w5 : Vec Ideal S768 .f32)

/-- The backward direction's three gate bands and three hidden-bias bands of the first layer. -/
theorem pay7_apply (ρ : Fin 1040) (j : Fin 128) :
    k0_pay7 xp xm xn w3 w4 (ix2 ρ j)
      = Spec.gate (gruAt 384 (by omega) w3 w4 w5) (extRows xp xm xn ρ) (Spec.col 0 (by omega) j) := by
  rw [← pay2_gate xp xm xn w3 w4 w5]
  unfold k0_pay7 k0_pay3
  simp only [slice2_axis1_eq]
  rfl
theorem pay8_apply (ρ : Fin 1040) (j : Fin 128) :
    k0_pay8 xp xm xn w3 w4 (ix2 ρ j)
      = Spec.gate (gruAt 384 (by omega) w3 w4 w5) (extRows xp xm xn ρ) (Spec.col 128 (by omega) j) := by
  rw [← pay2_gate xp xm xn w3 w4 w5]
  unfold k0_pay8 k0_pay3
  simp only [slice2_axis1_eq]
  rfl
theorem pay9_apply (ρ : Fin 1040) (j : Fin 128) :
    k0_pay9 xp xm xn w3 w4 (ix2 ρ j)
      = Spec.gate (gruAt 384 (by omega) w3 w4 w5) (extRows xp xm xn ρ) (Spec.col 256 (by omega) j) := by
  rw [← pay2_gate xp xm xn w3 w4 w5]
  unfold k0_pay9 k0_pay3
  simp only [slice2_axis1_eq]
  rfl
theorem pay10_apply (j : Fin 128) :
    k0_pay10 w5 (ix1 j) = (gruAt 384 (by omega) w3 w4 w5).bh (Spec.col 0 (by omega) j) := by
  unfold k0_pay10 k0_pay5 k0_pay4
  simp only [slice1_eq, shapeCast_self]
  rfl
theorem pay11_apply (j : Fin 128) :
    k0_pay11 w5 (ix1 j) = (gruAt 384 (by omega) w3 w4 w5).bh (Spec.col 128 (by omega) j) := by
  unfold k0_pay11 k0_pay5 k0_pay4
  simp only [slice1_eq, shapeCast_self]
  rfl
theorem pay12_apply (j : Fin 128) :
    k0_pay12 w5 (ix1 j) = (gruAt 384 (by omega) w3 w4 w5).bh (Spec.col 256 (by omega) j) := by
  unfold k0_pay12 k0_pay5 k0_pay4
  simp only [slice1_eq, shapeCast_self]
  rfl
end Layer1b

/-! ## The second layer -/

section Layer2
variable (v40 v41 v42 v43 : FVec Ideal S1040x128 .f32) (v44 v45 v46 : FVec Ideal S128 .f32)
  (w6 : Vec Ideal S256x768 .bf16) (w7 w8 : Vec Ideal S768 .f32)

/-- The second layer's 768 gate pre-activations of local row ρ, over the first layer's forward cell `v40` and the
    backward cell's gate bands `v41 v42 v43` and hidden-bias bands `v44 v45 v46`. -/
theorem pay13_apply (ρ : Fin 1040) (c : Fin 768) :
    k0_pay13 v40 v41 v42 v43 v44 v45 v46 w6 w7 (ix2 ρ c)
      = (∑ k : Fin 256, pairOf (fun j => v40 (ix2 ρ j))
            (fun j => cell3 (v41 (ix2 ρ j)) (v42 (ix2 ρ j)) (v43 (ix2 ρ j)) (v44 (ix1 j)) (v45 (ix1 j)) (v46 (ix1 j))) k
          * w6 (ix2 k c)) + w7 (ix1 c) := by
  unfold k0_pay13
  rw [addf_apply, mm_1040_256_768, rowBroadcast_apply, shapeCast_self, shapeCast_self]
  refine congrArg (· + _) (Finset.sum_congr rfl fun k _ => ?_)
  rw [truncf_apply, concat_cols_apply]
  refine congrArg (· * _) (congrArg (fun g => pairOf _ g k) (funext fun j => ?_))
  unfold cell3
  simp only [mulf_apply, subf_apply, addf_apply, logistic_apply, tanh_apply, broadcast_apply, rowBroadcast_apply, one_f32]

/-- The forward cell of the second layer, as the product of its two stored factors. -/
theorem pay20_mul_pay19 (ρ : Fin 1040) (j : Fin 128) :
    k0_pay20 v40 v41 v42 v43 v44 v45 v46 w6 w7 w8 (ix2 ρ j) * k0_pay19 v40 v41 v42 v43 v44 v45 v46 w6 w7 w8 (ix2 ρ j)
      = cellOf (fun c => k0_pay13 v40 v41 v42 v43 v44 v45 v46 w6 w7 (ix2 ρ (fcol 0 (by omega) c)))
          (fun c => w8 (ix1 (fcol 0 (by omega) c))) j := by
  unfold k0_pay20 k0_pay19 k0_pay14 k0_pay17 k0_pay16 cellOf
  simp only [mulf_apply, subf_apply, addf_apply, logistic_apply, tanh_apply, broadcast_apply, rowBroadcast_apply,
    slice2_axis1_eq, slice1_eq, one_f32, shapeCast_self]
  rfl

theorem pay15_apply (ρ : Fin 1040) (c : Fin 384) :
    k0_pay15 v40 v41 v42 v43 v44 v45 v46 w6 w7 (ix2 ρ c)
      = k0_pay13 v40 v41 v42 v43 v44 v45 v46 w6 w7 (ix2 ρ (fcol 384 (by omega) c)) := by
  unfold k0_pay15
  simp only [slice2_axis1_eq]
  rfl

theorem pay18_apply (c : Fin 384) : k0_pay18 w8 (ix1 c) = w8 (ix1 (fcol 384 (by omega) c)) := by
  unfold k0_pay18 k0_pay16
  simp only [slice1_eq, shapeCast_self]
  rfl
end Layer2

/-! ## The first convolution's projection -/

/-- The [1040, 256] second-layer rows (forward cell as a product of two factors, backward cell from its gate block
    `v74` and hidden biases `v78`) times the [256, 128] matrix. -/
theorem pay21_apply (v74 : FVec Ideal S1040x384 .f32) (v78 : FVec Ideal S384 .f32) (v97 v99 : FVec Ideal S1040x128 .f32)
    (w9 : Vec Ideal S256x128 .bf16) (ρ : Fin 1040) (j : Fin 128) :
    k0_pay21 v74 v78 v97 v99 w9 (ix2 ρ j)
      = ∑ k : Fin 256, pairOf (fun i => v99 (ix2 ρ i) * v97 (ix2 ρ i))
            (fun i => cellOf (fun c => v74 (ix2 ρ c)) (fun c => v78 (ix1 c)) i) k * w9 (ix2 k j) := by
  unfold k0_pay21
  rw [mm_1040_256_128, shapeCast_self]
  refine Finset.sum_congr rfl fun k _ => ?_
  rw [truncf_apply, concat_cols_apply]
  refine congrArg (· * _) (congrArg (fun g => pairOf _ g k) (funext fun i => ?_))
  unfold cellOf
  simp only [mulf_apply, subf_apply, addf_apply, logistic_apply, tanh_apply, broadcast_apply, rowBroadcast_apply,
    slice2_axis1_eq, slice1_eq, one_f32]
  rfl

/-! ## The network's weights from the window contents, and the per-row part composed -/

/-- The specification's parameters from the twelve weight windows: each fused [K, 768] matrix holds the forward
    direction's transposed weights in columns 0 … 383 and the backward direction's in columns 384 … 767, and each
    fused [768] bias the forward entries then the backward ones. -/
def paramsK (w3 : Vec Ideal S128x768 .bf16) (w4 w5 : Vec Ideal S768 .f32) (w6 : Vec Ideal S256x768 .bf16)
    (w7 w8 : Vec Ideal S768 .f32) (w9 : Vec Ideal S256x128 .bf16) (w10 : Vec Ideal S128 .f32)
    (w11 : Vec Ideal S128x64 .bf16) (w12 : Vec Ideal S64 .f32) (w13 : Vec Ideal S64x10 .bf16)
    (w14 : Vec Ideal S10 .f32) : Spec.Params where
  f1 := gruAt 0 (by omega) w3 w4 w5
  b1 := gruAt 384 (by omega) w3 w4 w5
  f2 := gruAt 0 (by omega) w6 w7 w8
  b2 := gruAt 384 (by omega) w6 w7 w8
  wg1 := fun k j => w9 (ix2 k j)
  bg1 := fun j => w10 (ix1 j)
  wg2 := fun j k => w11 (ix2 j k)
  bg2 := fun k => w12 (ix1 k)
  wfc := fun k q => w13 (ix2 k q)
  bfc := fun q => w14 (ix1 q)

section Rows
variable (xp : Vec Ideal S8x128 .f32) (xm : Vec Ideal S1024x128 .f32) (xn : Vec Ideal S8x128 .f32)
  (w3 : Vec Ideal S128x768 .bf16) (w4 w5 : Vec Ideal S768 .f32)
  (w6 : Vec Ideal S256x768 .bf16) (w7 w8 : Vec Ideal S768 .f32) (w9 : Vec Ideal S256x128 .bf16)

/-- The first layer's output row: forward cell then backward cell. -/
theorem layer1_pair (ρ : Fin 1040) (k : Fin 256) :
    pairOf (fun j => k0_pay6 xp xm xn w3 w4 w5 (ix2 ρ j))
        (fun j => cell3 (k0_pay7 xp xm xn w3 w4 (ix2 ρ j)) (k0_pay8 xp xm xn w3 w4 (ix2 ρ j))
          (k0_pay9 xp xm xn w3 w4 (ix2 ρ j)) (k0_pay10 w5 (ix1 j)) (k0_pay11 w5 (ix1 j)) (k0_pay12 w5 (ix1 j))) k
      = Spec.pair (gruAt 0 (by omega) w3 w4 w5) (gruAt 384 (by omega) w3 w4 w5) (extRows xp xm xn ρ) k := by
  rw [pair_eq_pairOf]
  refine congrArg₂ (fun f g => pairOf f g k) (funext fun j => pay6_apply xp xm xn w3 w4 w5 ρ j) (funext fun j => ?_)
  rw [cell_eq_cellOf, cellOf_eq_cell3, pay7_apply xp xm xn w3 w4 w5, pay8_apply xp xm xn w3 w4 w5,
    pay9_apply xp xm xn w3 w4 w5, pay10_apply w3 w4 w5, pay11_apply w3 w4 w5, pay12_apply w3 w4 w5]

/-- The second layer's gate pre-activations, in the specification's words. -/
theorem pay13_gate (o : Nat) (ho : o + 384 ≤ 768) (ρ : Fin 1040) (c : Fin 384) :
    k0_pay13 (k0_pay6 xp xm xn w3 w4 w5) (k0_pay7 xp xm xn w3 w4) (k0_pay8 xp xm xn w3 w4) (k0_pay9 xp xm xn w3 w4) (k0_pay10 w5) (k0_pay11 w5) (k0_pay12 w5) w6 w7 (ix2 ρ (fcol o ho c))
      = Spec.gate (gruAt o ho w6 w7 w8)
          (Spec.pair (gruAt 0 (by omega) w3 w4 w5) (gruAt 384 (by omega) w3 w4 w5) (extRows xp xm xn ρ)) c := by
  rw [pay13_apply]
  unfold Spec.gate
  refine congrArg (· + _) (Finset.sum_congr rfl fun k _ => congrArg (· * _) ?_)
  exact layer1_pair xp xm xn w3 w4 w5 ρ k

/-- The first convolution's projection of local row ρ. -/
theorem pay21_xw1 (w10 : Vec Ideal S128 .f32) (w11 : Vec Ideal S128x64 .bf16) (w12 : Vec Ideal S64 .f32)
    (w13 : Vec Ideal S64x10 .bf16) (w14 : Vec Ideal S10 .f32) (ρ : Fin 1040) (j : Fin 128) :
    k0_pay21 (k0_pay15 (k0_pay6 xp xm xn w3 w4 w5) (k0_pay7 xp xm xn w3 w4) (k0_pay8 xp xm xn w3 w4) (k0_pay9 xp xm xn w3 w4) (k0_pay10 w5) (k0_pay11 w5) (k0_pay12 w5) w6 w7) (k0_pay18 w8) (k0_pay19 (k0_pay6 xp xm xn w3 w4 w5) (k0_pay7 xp xm xn w3 w4) (k0_pay8 xp xm xn w3 w4) (k0_pay9 xp xm xn w3 w4) (k0_pay10 w5) (k0_pay11 w5) (k0_pay12 w5) w6 w7 w8) (k0_pay20 (k0_pay6 xp xm xn w3 w4 w5) (k0_pay7 xp xm xn w3 w4) (k0_pay8 xp xm xn w3 w4) (k0_pay9 xp xm xn w3 w4) (k0_pay10 w5) (k0_pay11 w5) (k0_pay12 w5) w6 w7 w8) w9 (ix2 ρ j)
      = Spec.xw1 (paramsK w3 w4 w5 w6 w7 w8 w9 w10 w11 w12 w13 w14) (extRows xp xm xn ρ) j := by
  rw [pay21_apply]
  unfold Spec.xw1 Spec.rowH2
  refine Finset.sum_congr rfl fun k _ => congrArg (· * _) ?_
  rw [pair_eq_pairOf]
  refine congrArg₂ (fun f g => pairOf f g k) (funext fun i => ?_) (funext fun i => ?_)
  · rw [pay20_mul_pay19, cell_eq_cellOf]
    refine congrArg (fun g => cellOf g _ i) (funext fun c => ?_)
    exact pay13_gate xp xm xn w3 w4 w5 w6 w7 w8 0 (by omega) ρ c
  · rw [cell_eq_cellOf]
    refine congrArg₂ (fun g h => cellOf g h i) (funext fun c => ?_) (funext fun c => ?_)
    · rw [pay15_apply]
      exact pay13_gate xp xm xn w3 w4 w5 w6 w7 w8 384 (by omega) ρ c
    · exact pay18_apply w8 c
end Rows

end Cert.KernelIdeal.Body

end
-- ==== Proof.KParams.lean ====
/-
  What the kernel's windows hold at a grid point, in the specification's terms.

  The twelve weight windows hold their whole arrays at every point, and those arrays are the argument arrays re-laid
  (the joined matrices and bias vectors): read through the fused layout they give exactly the parameters the
  arguments give. The three windows on the input rows hold, stacked, the 1040 rows of the halo tile: the 8 rows before
  the tile (the tile's own first 8 at the first tile), the tile's 1024 rows, the 8 rows after it (the array's last 8
  at the last tile).
-/
import proofs.«169599_j67370857005464_2_alg».proof.Proof.KBlocks
import proofs.«169599_j67370857005464_2_alg».proof.Proof.KPrep
import proofs.«169599_j67370857005464_2_alg».proof.Proof.KBodyRows

noncomputable section

namespace Cert.KernelIdeal.HandValue

open Cert.KernelIdeal Cert.KernelIdeal.Gen Cert.KernelIdeal.Hand Idealize.ShloMosaic Idealize.ShloMosaic.TcCoe Idealize.SL.Sem
open Idealize.ShloMosaic.ValueIdx

variable (m : (ℓ : Loc nD τ sig) → Buf (Elt Ideal) ℓ)

theorem gru_ext {K : Nat} (G G' : Spec.Gru K) (h1 : G.w = G'.w) (h2 : G.bi = G'.bi) (h3 : G.bh = G'.bh) : G = G' := by
  cases G; cases G'; simp only [Spec.Gru.mk.injEq]; exact ⟨h1, h2, h3⟩

theorem params_ext (P P' : Spec.Params) (h1 : P.f1 = P'.f1) (h2 : P.b1 = P'.b1) (h3 : P.f2 = P'.f2) (h4 : P.b2 = P'.b2)
    (h5 : P.wg1 = P'.wg1) (h6 : P.bg1 = P'.bg1) (h7 : P.wg2 = P'.wg2) (h8 : P.bg2 = P'.bg2) (h9 : P.wfc = P'.wfc)
    (h10 : P.bfc = P'.bfc) : P = P' := by
  cases P; cases P'; simp only [Spec.Params.mk.injEq]; exact ⟨h1, h2, h3, h4, h5, h6, h7, h8, h9, h10⟩

/-- A joined bias vector read in its forward half, and in its backward half. -/
theorem bias_fwd (c : Dev nD) (x y : S384.Idx → EReal) (g : Fin 384) :
    concatenate S768 0 [⟨S384, x⟩, ⟨S384, y⟩] concatenates_S384_S384_S768_d0 (ix1 (Body.fcol 0 (by omega) g)) = x (ix1 g) := by
  have e : Body.fcol 0 (by omega) g = (⟨g.val, by omega⟩ : Fin 768) := Fin.ext (by show 0 + g.val = g.val; omega)
  rw [e]; exact join_fst x y g

theorem bias_bwd (c : Dev nD) (x y : S384.Idx → EReal) (g : Fin 384) :
    concatenate S768 0 [⟨S384, x⟩, ⟨S384, y⟩] concatenates_S384_S384_S768_d0 (ix1 (Body.fcol 384 (by omega) g)) = y (ix1 g) :=
  join_snd x y g

/-- Layer 1's fused weights and biases are the arguments' forward and backward records. -/
theorem gru1_fwd (c : Dev nD) : Body.gruAt 0 (by omega) (V m c main_v3 : S128x768.Idx → EReal) (V m c main_v4) (V m c main_v5)
    = Spec.gruOf (m ((c : Thread nD τ).loc main_arg1)) (m ((c : Thread nD τ).loc main_arg2)) (m ((c : Thread nD τ).loc main_arg3)) := by
  refine gru_ext _ _ (funext fun g => funext fun k => ?_) (funext fun g => ?_) (funext fun g => ?_)
  · show (V m c main_v3 : S128x768.Idx → EReal) (ix2 k (Body.fcol 0 (by omega) g)) = _
    have e : Body.fcol 0 (by omega) g = (⟨g.val, by omega⟩ : Fin 768) := Fin.ext (by show 0 + g.val = g.val; omega)
    rw [e]; exact v3_fwd m c k g
  · show (V m c main_v4 : S768.Idx → EReal) (ix1 (Body.fcol 0 (by omega) g)) = _
    rw [V_v4]; exact bias_fwd c _ _ g
  · show (V m c main_v5 : S768.Idx → EReal) (ix1 (Body.fcol 0 (by omega) g)) = _
    rw [V_v5]; exact bias_fwd c _ _ g

theorem gru1_bwd (c : Dev nD) : Body.gruAt 384 (by omega) (V m c main_v3 : S128x768.Idx → EReal) (V m c main_v4) (V m c main_v5)
    = Spec.gruOf (m ((c : Thread nD τ).loc main_arg4)) (m ((c : Thread nD τ).loc main_arg5)) (m ((c : Thread nD τ).loc main_arg6)) := by
  refine gru_ext _ _ (funext fun g => funext fun k => ?_) (funext fun g => ?_) (funext fun g => ?_)
  · exact v3_bwd m c k g
  · show (V m c main_v4 : S768.Idx → EReal) (ix1 (Body.fcol 384 (by omega) g)) = _
    rw [V_v4]; exact bias_bwd c _ _ g
  · show (V m c main_v5 : S768.Idx → EReal) (ix1 (Body.fcol 384 (by omega) g)) = _
    rw [V_v5]; exact bias_bwd c _ _ g

theorem gru2_fwd (c : Dev nD) : Body.gruAt 0 (by omega) (V m c main_v9 : S256x768.Idx → EReal) (V m c main_v10) (V m c main_v11)
    = Spec.gruOf (m ((c : Thread nD τ).loc main_arg7)) (m ((c : Thread nD τ).loc main_arg8)) (m ((c : Thread nD τ).loc main_arg9)) := by
  refine gru_ext _ _ (funext fun g => funext fun k => ?_) (funext fun g => ?_) (funext fun g => ?_)
  · show (V m c main_v9 : S256x768.Idx → EReal) (ix2 k (Body.fcol 0 (by omega) g)) = _
    have e : Body.fcol 0 (by omega) g = (⟨g.val, by omega⟩ : Fin 768) := Fin.ext (by show 0 + g.val = g.val; omega)
    rw [e]; exact v9_fwd m c k g
  · show (V m c main_v10 : S768.Idx → EReal) (ix1 (Body.fcol 0 (by omega) g)) = _
    rw [V_v10]; exact bias_fwd c _ _ g
  · show (V m c main_v11 : S768.Idx → EReal) (ix1 (Body.fcol 0 (by omega) g)) = _
    rw [V_v11]; exact bias_fwd c _ _ g

theorem gru2_bwd (c : Dev nD) : Body.gruAt 384 (by omega) (V m c main_v9 : S256x768.Idx → EReal) (V m c main_v10) (V m c main_v11)
    = Spec.gruOf (m ((c : Thread nD τ).loc main_arg10)) (m ((c : Thread nD τ).loc main_arg11)) (m ((c : Thread nD τ).loc main_arg12)) := by
  refine gru_ext _ _ (funext fun g => funext fun k => ?_) (funext fun g => ?_) (funext fun g => ?_)
  · exact v9_bwd m c k g
  · show (V m c main_v10 : S768.Idx → EReal) (ix1 (Body.fcol 384 (by omega) g)) = _
    rw [V_v10]; exact bias_bwd c _ _ g
  · show (V m c main_v11 : S768.Idx → EReal) (ix1 (Body.fcol 384 (by omega) g)) = _
    rw [V_v11]; exact bias_bwd c _ _ g

/-- THE PARAMETERS the windows give at any point are the parameters the arguments give. -/
theorem paramsK_eq (c : Dev nD) (t : Fin cfg0.N) :
    Body.paramsK (iblk m c 3 t) (iblk m c 4 t) (iblk m c 5 t) (iblk m c 6 t) (iblk m c 7 t) (iblk m c 8 t) (iblk m c 9 t)
        (iblk m c 10 t) (iblk m c 11 t) (iblk m c 12 t) (iblk m c 13 t) (iblk m c 14 t)
      = Spec.paramsOf (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) := by
  rw [iblk_whole_3, iblk_whole_4, iblk_whole_5, iblk_whole_6, iblk_whole_7, iblk_whole_8, iblk_whole_9, iblk_whole_10,
    iblk_whole_11, iblk_whole_12, iblk_whole_13, iblk_whole_14]
  refine params_ext _ _ (gru1_fwd m c) (gru1_bwd m c) (gru2_fwd m c) (gru2_bwd m c) ?_ ?_ ?_ ?_ ?_ ?_
  · funext k j
    show (V m c main_v12 : S256x128.Idx → EReal) (ix2 k j) = _
    rw [V_v12]; rfl
  · funext j
    show (V m c main_arg14 : S128.Idx → EReal) (ix1 j) = _
    rw [V_main_arg14]; rfl
  · funext j k
    show (V m c main_v13 : S128x64.Idx → EReal) (ix2 j k) = _
    rw [V_v13]; rfl
  · funext k
    show (V m c main_arg16 : S64.Idx → EReal) (ix1 k) = _
    rw [V_main_arg16]; rfl
  · funext k q
    show (V m c main_v14 : S64x10.Idx → EReal) (ix2 k q) = _
    rw [V_v14]; rfl
  · funext q
    show (V m c main_arg18 : S10.Idx → EReal) (ix1 q) = _
    rw [V_main_arg18]; rfl

/-- THE ROWS the three input windows hold at point t, stacked, are the halo tile's rows of the input array. -/
theorem extRows_eq (c : Dev nD) (t : Fin cfg0.N) :
    Body.extRows (iblk m c 1 t) (iblk m c 0 t) (iblk m c 2 t)
      = fun ρ => Spec.rowsOf (m ((c : Thread nD τ).loc main_arg0)) (Spec.srcRow t.val ρ) := by
  funext ρ k
  unfold Body.extRows Spec.srcRow
  by_cases h1 : ρ.val < 8
  · rw [dif_pos h1, if_pos h1]; exact iblk1_row m c t ⟨ρ.val, h1⟩ k
  · by_cases h2 : ρ.val < 1032
    · rw [dif_neg h1, dif_pos h2, if_neg h1, if_pos h2]; exact iblk0_row m c t ⟨ρ.val - 8, by omega⟩ k
    · rw [dif_neg h1, dif_neg h2, if_neg h1, if_neg h2]; exact iblk2_row m c t ⟨ρ.val - 1032, by omega⟩ k

end Cert.KernelIdeal.HandValue

end
-- ==== Proof.KBodyGraph.lean ====
/-
  The chain graph inside one tile, read off the kernel body's arithmetic at the extended reals.

  Local row ρ of tile t carries the label t·1024 - 8 + ρ, computed in 32-bit integers; for t < 128 it lies between -8 and
  131079, so nothing wraps and every comparison of the label with 0 or 131071 is the comparison of integers. The degree
  is 2 at the labels 0 and 131071 and 3 elsewhere, its inverse square root is the normalisation, and the two 0/1
  factors say whether the label has a left or a right neighbour on the chain. Rotating the rows by 1 brings the previous
  local row (cyclically) to each row, and rotating by 1039 the next one; a convolution is the row times its own weight,
  plus the previous and the next row times theirs, plus the bias.
-/
import proofs.«169599_j67370857005464_2_alg».proof.Proof.KBodyLayout
import proofs.«169599_j67370857005464_2_alg».proof.Proof.Spec
import Idealize.ShloMosaic.Lib.KernelVsHost
import Idealize.ShloMosaic.Lib.Affine

noncomputable section

namespace Cert.KernelIdeal.Body

open Idealize.ShloMosaic Idealize.ShloMosaic.ValueIdx Cert.KernelIdeal Cert.KernelIdeal.Gen

/-! ## Rotations of the rows -/

section Rotate
variable {α : Type} {C : Nat}

/-- Rotating the 1040 rows by 1: row ρ reads the previous local row. -/
theorem rotate_prev_apply (X : (⟨2, ![1040, C]⟩ : Shape).Idx → α) (h : (⟨2, ![1040, C]⟩ : Shape).Rotates 0 none)
    (ρ : Fin 1040) (j : Fin C) : dynamicRotate 0 1#32 none X h (ix2 ρ j) = X (ix2 (Spec.prv ρ) j) := by
  refine dynamicRotate_apply 0 1#32 X h (ix2 ρ j) (ix2 (Spec.prv ρ) j) fun b => ?_
  match b with
  | ⟨0, _⟩ =>
    show (ρ.val + 1039) % 1040 = (ρ.val + 1040 - (1#32 : BitVec 32).toNat % 1040) % 1040
    have : (1#32 : BitVec 32).toNat = 1 := rfl
    rw [this]
    have := ρ.isLt
    omega
  | ⟨1, _⟩ => rfl

/-- Rotating the 1040 rows by 1039: row ρ reads the next local row. -/
theorem rotate_next_apply (X : (⟨2, ![1040, C]⟩ : Shape).Idx → α) (h : (⟨2, ![1040, C]⟩ : Shape).Rotates 0 none)
    (ρ : Fin 1040) (j : Fin C) : dynamicRotate 0 1039#32 none X h (ix2 ρ j) = X (ix2 (Spec.nxt ρ) j) := by
  refine dynamicRotate_apply 0 1039#32 X h (ix2 ρ j) (ix2 (Spec.nxt ρ) j) fun b => ?_
  match b with
  | ⟨0, _⟩ =>
    show (ρ.val + 1) % 1040 = (ρ.val + 1040 - (1039#32 : BitVec 32).toNat % 1040) % 1040
    have : (1039#32 : BitVec 32).toNat = 1039 := rfl
    rw [this]
    have := ρ.isLt
    omega
  | ⟨1, _⟩ => rfl

end Rotate

/-! ## One convolution -/

/-- A row's own weight times the row, the left weight times the previous local row, the right weight times the next,
    plus the bias. -/
def stencilK {C : Nat} (ns nl nr : Fin 1040 → EReal) (X : Fin 1040 → Fin C → EReal) (b : Fin C → EReal)
    (ρ : Fin 1040) (j : Fin C) : EReal :=
  ns ρ * X ρ j + nl ρ * X (Spec.prv ρ) j + nr ρ * X (Spec.nxt ρ) j + b j

theorem stencilL_eq_stencilK {C : Nat} (t : Nat) (xw : Fin 1040 → Fin C → EReal) (b : Fin C → EReal) (ρ : Fin 1040)
    (j : Fin C) :
    Spec.stencilL t xw b ρ j
      = stencilK (fun ρ => Spec.dinvL (Spec.lab t ρ) * Spec.dinvL (Spec.lab t ρ))
          (fun ρ => Spec.dinvL (Spec.lab t ρ) * Spec.dinvL (Spec.lab t (Spec.prv ρ)) * Spec.lm (Spec.lab t ρ))
          (fun ρ => Spec.dinvL (Spec.lab t ρ) * Spec.dinvL (Spec.lab t (Spec.nxt ρ)) * Spec.rm (Spec.lab t ρ))
          xw b ρ j := rfl

/-- The convolution as the body spells it — three weight columns broadcast over the features, two rotations, a bias
    row — at (ρ, j). -/
theorem conv_apply {C : Nat} (X : FVec Ideal ⟨2, ![1040, C]⟩ .f32) (ns nl nr : FVec Ideal S1040x1 .f32)
    (b : Vec Ideal ⟨1, ![C]⟩ .f32)
    (hb1 hb2 hb3 : S1040x1.Broadcasts ⟨2, ![1040, C]⟩) (hr1 hr2 : (⟨2, ![1040, C]⟩ : Shape).Rotates 0 none)
    (hc : (⟨1, ![C]⟩ : Shape).ShapeCasts ⟨2, ![1, C]⟩) (hbb : (⟨2, ![1, C]⟩ : Shape).Broadcasts ⟨2, ![1040, C]⟩)
    (ρ : Fin 1040) (j : Fin C) :
    addf (addf (addf (mulf (broadcastTo ⟨2, ![1040, C]⟩ ns hb1) X)
            (mulf (broadcastTo ⟨2, ![1040, C]⟩ nl hb2) (dynamicRotate 0 1#32 none X hr1)))
          (mulf (broadcastTo ⟨2, ![1040, C]⟩ nr hb3) (dynamicRotate 0 1039#32 none X hr2)))
        (broadcastTo ⟨2, ![1040, C]⟩ (shapeCast ⟨2, ![1, C]⟩ b hc) hbb) (ix2 ρ j)
      = stencilK (fun ρ => ns (ix2 ρ (0 : Fin 1))) (fun ρ => nl (ix2 ρ (0 : Fin 1))) (fun ρ => nr (ix2 ρ (0 : Fin 1)))
          (fun ρ j => X (ix2 ρ j)) (fun j => b (ix1 j)) ρ j := by
  unfold stencilK
  rw [addf_apply, addf_apply, addf_apply, mulf_apply, mulf_apply, mulf_apply, broadcastTo_a1_ab_apply,
    broadcastTo_a1_ab_apply, broadcastTo_a1_ab_apply, rowBroadcast_apply, rotate_prev_apply, rotate_next_apply]

/-! ## Labels, degrees and the two neighbour factors -/

/-- The 32-bit label of local row ρ in tile t < 128, as an integer. -/
theorem label_toInt (t : Nat) (ht : t < 128) (ρ : Fin 1040) (u : Fin 1) :
    (k0_pay22 (BitVec.ofNat 32 t) (ix2 ρ u)).toInt = Spec.lab t ρ := by
  have e : k0_pay22 (BitVec.ofNat 32 t) (ix2 ρ u) = BitVec.ofNat 32 ρ.val + (BitVec.ofNat 32 t * 1024#32 - 8#32) := by
    unfold k0_pay22
    show BitVec.ofNat 32 (0 * 1040 + ρ.val) + _ = _
    rw [Nat.zero_mul, Nat.zero_add]
    rfl
  rw [e, BitVec.toInt_eq_toNat_cond]
  unfold Spec.lab
  simp only [BitVec.toNat_add, BitVec.toNat_sub, BitVec.toNat_mul, BitVec.toNat_ofNat]
  have hρ := ρ.isLt
  split <;> omega

/-- Two words are equal exactly when they are the same integer. -/
theorem cmpi_eq_int (x y : BitVec 32) : IntOp.cmpi .eq x y = 1#1 ↔ x.toInt = y.toInt := by
  rw [IntOp.cmpi_eq, BitVec.toInt_inj]

theorem or_bits (c1 c2 : BitVec 1) : IntOp.ori c1 c2 = 1#1 ↔ c1 = 1#1 ∨ c2 = 1#1 := by
  revert c1 c2; decide

theorem two_f32 : (Scalar.ofBits (F := Ideal) .f32 0x40000000#32 : EReal) = 2 := by
  show Ideal.ofBits .f32 0x40000000#32 = 2
  simp [Ideal.ofBits, Ideal.ieee, -EReal.coe_mul]
  norm_num
  rfl
theorem three_f32 : (Scalar.ofBits (F := Ideal) .f32 0x40400000#32 : EReal) = 3 := by
  show Ideal.ofBits .f32 0x40400000#32 = 3
  simp [Ideal.ofBits, Ideal.ieee, -EReal.coe_mul]
  norm_num
  rfl

/-- The normalisation 1/sqrt(degree) of local row ρ. -/
theorem pay23_apply (t : Nat) (ht : t < 128) (ρ : Fin 1040) (u : Fin 1) :
    k0_pay23 (F := Ideal) (BitVec.ofNat 32 t) (ix2 ρ u) = Spec.dinvL (Spec.lab t ρ) := by
  unfold k0_pay23 Spec.dinvL Spec.degL
  rw [rsqrt_apply, select_apply]
  refine congrArg Ideal.rsqrt ?_
  have h0 : IntOp.cmpi .eq (k0_pay22 (BitVec.ofNat 32 t) (ix2 ρ u)) 0#32 = 1#1 ↔ Spec.lab t ρ = 0 := by
    rw [cmpi_eq_int, label_toInt t ht ρ u]
    exact Iff.rfl
  have h1 : IntOp.cmpi .eq (k0_pay22 (BitVec.ofNat 32 t) (ix2 ρ u)) 131071#32 = 1#1 ↔ Spec.lab t ρ = 131071 := by
    rw [cmpi_eq_int, label_toInt t ht ρ u]
    exact Iff.rfl
  show Scalar.select (IntOp.ori (IntOp.cmpi .eq (k0_pay22 (BitVec.ofNat 32 t) (ix2 ρ u)) 0#32)
      (IntOp.cmpi .eq (k0_pay22 (BitVec.ofNat 32 t) (ix2 ρ u)) 131071#32))
      (Scalar.ofBits (F := Ideal) .f32 0x40000000#32) (Scalar.ofBits (F := Ideal) .f32 0x40400000#32) = _
  rw [two_f32, three_f32]
  unfold Scalar.select
  by_cases h : Spec.lab t ρ = 0 ∨ Spec.lab t ρ = 131071
  · rw [if_pos h]
    exact if_pos ((or_bits _ _).mpr (h.imp h0.mpr h1.mpr))
  · rw [if_neg h]
    exact if_neg (fun hc => h (((or_bits _ _).mp hc).imp h0.mp h1.mp))

theorem pay24_apply (t : Nat) (ht : t < 128) (ρ : Fin 1040) (u : Fin 1) :
    k0_pay24 (F := Ideal) (BitVec.ofNat 32 t) (ix2 ρ u) = Spec.dinvL (Spec.lab t ρ) * Spec.dinvL (Spec.lab t ρ) := by
  unfold k0_pay24
  rw [mulf_apply, pay23_apply t ht]

theorem pay25_apply (t : Nat) (ht : t < 128) (ρ : Fin 1040) (u : Fin 1) :
    k0_pay25 (F := Ideal) (BitVec.ofNat 32 t) (ix2 ρ u) = Spec.dinvL (Spec.lab t (Spec.prv ρ)) := by
  unfold k0_pay25
  rw [rotate_prev_apply, pay23_apply t ht]

theorem pay26_apply (t : Nat) (ht : t < 128) (ρ : Fin 1040) (u : Fin 1) :
    k0_pay26 (F := Ideal) (BitVec.ofNat 32 t) (ix2 ρ u) = Spec.dinvL (Spec.lab t (Spec.nxt ρ)) := by
  unfold k0_pay26
  rw [rotate_next_apply, pay23_apply t ht]

/-- The bit "the label has a left neighbour". -/
theorem pay27_apply (t : Nat) (ht : t < 128) (ρ : Fin 1040) (u : Fin 1) :
    k0_pay27 (BitVec.ofNat 32 t) (ix2 ρ u) = 1#1 ↔ 0 < Spec.lab t ρ := by
  unfold k0_pay27
  show IntOp.cmpi .sgt (k0_pay22 (BitVec.ofNat 32 t) (ix2 ρ u)) 0#32 = 1#1 ↔ _
  rw [IntOp.cmpi_sgt, label_toInt t ht ρ u]
  exact Iff.rfl

/-- A bit widened to 32 bits and converted to a float is the extended real 1 or 0. -/
theorem mask_apply (c : IVec S1040x1 1) (ρ : Fin 1040) (u : Fin 1) (p : Prop) [Decidable p]
    (h : c (ix2 ρ u) = 1#1 ↔ p) :
    (sitofp .f32 (extui 32 c natLt_1_32) : FVec Ideal S1040x1 .f32) (ix2 ρ u) = if p then 1 else 0 := by
  rw [sitofp_apply, extui_apply]
  show ((((c (ix2 ρ u)).setWidth 32).toInt : ℝ) : EReal) = _
  rcases BitVec.eq_zero_or_eq_one (c (ix2 ρ u)) with h0 | h1
  · have hp : ¬p := fun hp => by
      have := h.mpr hp
      rw [h0] at this
      exact absurd this (by decide)
    rw [if_neg hp, h0]
    simp
  · rw [if_pos (h.mp h1), h1]
    simp

/-! ## The two convolutions and the last product -/

/-- The left neighbour's weight column: own normalisation times the previous row's times the 0/1 factor. -/
def leftCol (v141 v143 : FVec Ideal S1040x1 .f32) (v146 : IVec S1040x1 1) : FVec Ideal S1040x1 .f32 :=
  mulf (mulf v141 v143) (sitofp .f32 (extui 32 v146 natLt_1_32))

/-- The right neighbour's weight column; its 0/1 factor compares the label with 131071. -/
def rightCol (v141 v144 : FVec Ideal S1040x1 .f32) (v132 : IVec S1040x1 32) : FVec Ideal S1040x1 .f32 :=
  mulf (mulf v141 v144) (sitofp .f32 (extui 32 (cmpi .slt v132 (broadcast S1040x1 131071#32)) natLt_1_32))

/-- The body's last part at (i, q): the first convolution of the projected rows `v127`, the [128, 64] product, the
    second convolution, rows 8 … 1031, and the [64, 10] product. -/
theorem pay28_apply (v127 : FVec Ideal S1040x128 .f32) (v132 : IVec S1040x1 32)
    (v141 v142 v143 v144 : FVec Ideal S1040x1 .f32) (v146 : IVec S1040x1 1) (w10 : Vec Ideal S128 .f32)
    (w11 : Vec Ideal S128x64 .bf16) (w12 : Vec Ideal S64 .f32) (w13 : Vec Ideal S64x10 .bf16)
    (i : Fin 1024) (q : Fin 10) :
    k0_pay28 v127 v132 v141 v142 v143 v144 v146 w10 w11 w12 w13 (ix2 i q)
      = ∑ k : Fin 64,
          stencilK (fun ρ => v142 (ix2 ρ (0 : Fin 1))) (fun ρ => leftCol v141 v143 v146 (ix2 ρ (0 : Fin 1)))
              (fun ρ => rightCol v141 v144 v132 (ix2 ρ (0 : Fin 1)))
              (fun ρ k => ∑ j : Fin 128,
                stencilK (fun ρ => v142 (ix2 ρ (0 : Fin 1))) (fun ρ => leftCol v141 v143 v146 (ix2 ρ (0 : Fin 1)))
                    (fun ρ => rightCol v141 v144 v132 (ix2 ρ (0 : Fin 1)))
                    (fun ρ j => v127 (ix2 ρ j)) (fun j => w10 (ix1 j)) ρ j * w11 (ix2 j k))
              (fun k => w12 (ix1 k)) ⟨8 + i.val, by omega⟩ k
            * w13 (ix2 k q) := by
  unfold k0_pay28
  rw [mm_1024_64_10]
  refine Finset.sum_congr rfl fun k _ => congrArg₂ (· * ·) ?_ (by rw [shapeCast_self])
  rw [truncf_apply, slice2_axis0_eq, conv_apply]
  refine congrArg (fun X => stencilK _ _ _ X _ _ k) (funext fun ρ => funext fun k' => ?_)
  rw [mm_1040_128_64]
  refine Finset.sum_congr rfl fun j _ => congrArg₂ (· * ·) ?_ (by rw [shapeCast_self])
  rw [truncf_apply, conv_apply]
  rfl

/-- The left weight column in the specification's words. -/
theorem leftCol_apply (t : Nat) (v141 v143 : FVec Ideal S1040x1 .f32) (v146 : IVec S1040x1 1) (ρ : Fin 1040)
    (h141 : v141 (ix2 ρ (0 : Fin 1)) = Spec.dinvL (Spec.lab t ρ))
    (h143 : v143 (ix2 ρ (0 : Fin 1)) = Spec.dinvL (Spec.lab t (Spec.prv ρ)))
    (h146 : v146 (ix2 ρ (0 : Fin 1)) = 1#1 ↔ 0 < Spec.lab t ρ) :
    leftCol v141 v143 v146 (ix2 ρ (0 : Fin 1))
      = Spec.dinvL (Spec.lab t ρ) * Spec.dinvL (Spec.lab t (Spec.prv ρ)) * Spec.lm (Spec.lab t ρ) := by
  unfold leftCol Spec.lm
  rw [mulf_apply, mulf_apply, mask_apply v146 ρ 0 (0 < Spec.lab t ρ) h146, h141, h143]

/-- The right weight column in the specification's words. -/
theorem rightCol_apply (t : Nat) (v141 v144 : FVec Ideal S1040x1 .f32) (v132 : IVec S1040x1 32) (ρ : Fin 1040)
    (h141 : v141 (ix2 ρ (0 : Fin 1)) = Spec.dinvL (Spec.lab t ρ))
    (h144 : v144 (ix2 ρ (0 : Fin 1)) = Spec.dinvL (Spec.lab t (Spec.nxt ρ)))
    (h132 : (v132 (ix2 ρ (0 : Fin 1))).toInt = Spec.lab t ρ) :
    rightCol v141 v144 v132 (ix2 ρ (0 : Fin 1))
      = Spec.dinvL (Spec.lab t ρ) * Spec.dinvL (Spec.lab t (Spec.nxt ρ)) * Spec.rm (Spec.lab t ρ) := by
  unfold rightCol Spec.rm
  have hb : cmpi .slt v132 (broadcast S1040x1 131071#32) (ix2 ρ (0 : Fin 1)) = 1#1 ↔ Spec.lab t ρ < 131071 := by
    show IntOp.cmpi .slt (v132 (ix2 ρ (0 : Fin 1))) 131071#32 = 1#1 ↔ _
    rw [IntOp.cmpi_slt, h132]
    exact Iff.rfl
  rw [mulf_apply, mulf_apply, mask_apply _ ρ 0 (Spec.lab t ρ < 131071) hb, h141, h144]

end Cert.KernelIdeal.Body

end
-- ==== Proof.KBodyValue.lean ====
/-
  The block the kernel body stores, as a function of the blocks it loads, is the network's result on the tile.

  The stored value threads the body's four parts: the first recurrent layer of the 1040 stacked rows, the second
  layer, the first convolution's projection together with the labels' normalisation columns, then the two
  convolutions, the cut to the tile's own 1024 rows and the dense layer with its bias. Reading it at (i, q) and
  naming each stage in the specification's words gives the specification's tile-local result at row i, column q.
-/
import proofs.«169599_j67370857005464_2_alg».proof.Proof.KBodyRows
import proofs.«169599_j67370857005464_2_alg».proof.Proof.KBodyGraph

noncomputable section

namespace Cert.KernelIdeal.Body

open Idealize.ShloMosaic Idealize.ShloMosaic.ValueIdx Cert.KernelIdeal Cert.KernelIdeal.Gen

/-- The value the body stores, over the grid coordinate's word `a0` and the fifteen loaded blocks: the three row
    blocks (before, main, after) and the twelve weight windows in window order. -/
def stored (a0 : BitVec 32) (xp : Vec Ideal S8x128 .f32) (xm : Vec Ideal S1024x128 .f32) (xn : Vec Ideal S8x128 .f32)
    (w3 : Vec Ideal S128x768 .bf16) (w4 w5 : Vec Ideal S768 .f32) (w6 : Vec Ideal S256x768 .bf16)
    (w7 w8 : Vec Ideal S768 .f32) (w9 : Vec Ideal S256x128 .bf16) (w10 : Vec Ideal S128 .f32)
    (w11 : Vec Ideal S128x64 .bf16) (w12 : Vec Ideal S64 .f32) (w13 : Vec Ideal S64x10 .bf16)
    (w14 : Vec Ideal S10 .f32) : FVec Ideal S1024x10 .f32 :=
  k0_pay1
    (k0_pay28
      (k0_pay21 (k0_pay15 (k0_pay6 xp xm xn w3 w4 w5) (k0_pay7 xp xm xn w3 w4) (k0_pay8 xp xm xn w3 w4) (k0_pay9 xp xm xn w3 w4) (k0_pay10 w5) (k0_pay11 w5) (k0_pay12 w5) w6 w7) (k0_pay18 w8) (k0_pay19 (k0_pay6 xp xm xn w3 w4 w5) (k0_pay7 xp xm xn w3 w4) (k0_pay8 xp xm xn w3 w4) (k0_pay9 xp xm xn w3 w4) (k0_pay10 w5) (k0_pay11 w5) (k0_pay12 w5) w6 w7 w8) (k0_pay20 (k0_pay6 xp xm xn w3 w4 w5) (k0_pay7 xp xm xn w3 w4) (k0_pay8 xp xm xn w3 w4) (k0_pay9 xp xm xn w3 w4) (k0_pay10 w5) (k0_pay11 w5) (k0_pay12 w5) w6 w7 w8) w9)
      (k0_pay22 a0) (k0_pay23 (F := Ideal) a0) (k0_pay24 (F := Ideal) a0) (k0_pay25 (F := Ideal) a0)
      (k0_pay26 (F := Ideal) a0) (k0_pay27 a0) w10 w11 w12 w13)
    w14

/-- The dense layer's bias row added to its product. -/
theorem pay1_apply (v193 : FVec Ideal S1024x10 .f32) (w14 : Vec Ideal S10 .f32) (i : Fin 1024) (q : Fin 10) :
    k0_pay1 v193 w14 (ix2 i q) = v193 (ix2 i q) + w14 (ix1 q) := by
  unfold k0_pay1
  rw [addf_apply, rowBroadcast_apply]

/-- THE STORED BLOCK at (i, q) is the specification's tile-local result, for any contents of the loaded blocks. -/
theorem stored_eq (t : Nat) (ht : t < 128)
    (xp : Vec Ideal S8x128 .f32) (xm : Vec Ideal S1024x128 .f32) (xn : Vec Ideal S8x128 .f32)
    (w3 : Vec Ideal S128x768 .bf16) (w4 w5 : Vec Ideal S768 .f32) (w6 : Vec Ideal S256x768 .bf16)
    (w7 w8 : Vec Ideal S768 .f32) (w9 : Vec Ideal S256x128 .bf16) (w10 : Vec Ideal S128 .f32)
    (w11 : Vec Ideal S128x64 .bf16) (w12 : Vec Ideal S64 .f32) (w13 : Vec Ideal S64x10 .bf16)
    (w14 : Vec Ideal S10 .f32) (i : Fin 1024) (q : Fin 10) :
    stored (BitVec.ofNat 32 t) xp xm xn w3 w4 w5 w6 w7 w8 w9 w10 w11 w12 w13 w14 (ix2 i q)
      = Spec.outL (paramsK w3 w4 w5 w6 w7 w8 w9 w10 w11 w12 w13 w14) t (extRows xp xm xn) i q := by
  unfold stored
  rw [pay1_apply, pay28_apply]
  unfold Spec.outL
  refine congrArg (· + _) (Finset.sum_congr rfl fun k _ => congrArg (· * _) ?_)
  have hns : (fun ρ : Fin 1040 => k0_pay24 (F := Ideal) (BitVec.ofNat 32 t) (ix2 ρ (0 : Fin 1)))
      = fun ρ => Spec.dinvL (Spec.lab t ρ) * Spec.dinvL (Spec.lab t ρ) :=
    funext fun ρ => pay24_apply t ht ρ 0
  have hnl : (fun ρ : Fin 1040 => leftCol (k0_pay23 (F := Ideal) (BitVec.ofNat 32 t)) (k0_pay25 (F := Ideal) (BitVec.ofNat 32 t))
        (k0_pay27 (BitVec.ofNat 32 t)) (ix2 ρ (0 : Fin 1)))
      = fun ρ => Spec.dinvL (Spec.lab t ρ) * Spec.dinvL (Spec.lab t (Spec.prv ρ)) * Spec.lm (Spec.lab t ρ) :=
    funext fun ρ => leftCol_apply t _ _ _ ρ (pay23_apply t ht ρ 0) (pay25_apply t ht ρ 0) (pay27_apply t ht ρ 0)
  have hnr : (fun ρ : Fin 1040 => rightCol (k0_pay23 (F := Ideal) (BitVec.ofNat 32 t)) (k0_pay26 (F := Ideal) (BitVec.ofNat 32 t))
        (k0_pay22 (BitVec.ofNat 32 t)) (ix2 ρ (0 : Fin 1)))
      = fun ρ => Spec.dinvL (Spec.lab t ρ) * Spec.dinvL (Spec.lab t (Spec.nxt ρ)) * Spec.rm (Spec.lab t ρ) :=
    funext fun ρ => rightCol_apply t _ _ _ ρ (pay23_apply t ht ρ 0) (pay26_apply t ht ρ 0) (label_toInt t ht ρ 0)
  rw [hns, hnl, hnr]
  unfold Spec.g2L
  rw [stencilL_eq_stencilK]
  refine congrArg (fun X => stencilK _ _ _ X _ _ k) (funext fun ρ => funext fun k' => ?_)
  unfold Spec.xw2L
  refine Finset.sum_congr rfl fun j _ => congrArg (· * _) ?_
  unfold Spec.g1L
  rw [stencilL_eq_stencilK]
  refine congrArg (fun X => stencilK _ _ _ X _ ρ j) (funext fun ρ' => funext fun j' => ?_)
  exact pay21_xw1 xp xm xn w3 w4 w5 w6 w7 w8 w9 w10 w11 w12 w13 w14 ρ' j'

end Cert.KernelIdeal.Body

end
-- ==== Proof.SpecLocal.lean ====
/-
  The tile-local spelling of the network, on the tile that the halo rows complete, is the stencil spelling.

  Tile t holds 1040 local rows; local row ρ carries the label t·1024 − 8 + ρ and holds row `srcRow t ρ` of the
  array, which IS the label whenever the label lies on the chain (0 ≤ label < 131072): only at the first tile's
  8 leading rows and the last tile's 8 trailing rows does it hold some other row, and those labels lie off the
  chain. A local row's convolution reads its cyclic neighbours ρ−1 and ρ+1, each through a factor that is 0 exactly
  when the label has no neighbour on that side — and 0 times anything is 0 on the extended reals — and otherwise
  the neighbour's label is on the chain too. So the first convolution is right on every local row 1 ≤ ρ ≤ 1038
  whose label is on the chain, and the second on the rows 8 ≤ ρ < 1032 the tile writes, whose neighbours
  7 ≤ ρ ± 1 ≤ 1032 are among those.
-/
import proofs.«169599_j67370857005464_2_alg».proof.Proof.Spec

noncomputable section

namespace Cert.Spec

/-- A local row whose label is on the chain holds that row of the array. -/
theorem srcRow_eq (t : Nat) (ht : t < 128) (ρ : Fin 1040) (l : Nat) (hl : lab t ρ = (l : Int)) (hlN : l < 131072) :
    srcRow t ρ = l := by
  unfold lab at hl
  unfold srcRow
  have hρ := ρ.isLt
  split_ifs with h1 h2 <;> omega

theorem prv_val (ρ : Fin 1040) (h : 1 ≤ ρ.val) : (prv ρ).val = ρ.val - 1 := by
  have hρ := ρ.isLt
  show (ρ.val + 1039) % 1040 = ρ.val - 1
  omega

theorem nxt_val (ρ : Fin 1040) (h : ρ.val ≤ 1038) : (nxt ρ).val = ρ.val + 1 := by
  show (ρ.val + 1) % 1040 = ρ.val + 1
  omega

theorem lab_prv (t : Nat) (ρ : Fin 1040) (h : 1 ≤ ρ.val) : lab t (prv ρ) = lab t ρ - 1 := by
  unfold lab; rw [prv_val ρ h]; omega

theorem lab_nxt (t : Nat) (ρ : Fin 1040) (h : ρ.val ≤ 1038) : lab t (nxt ρ) = lab t ρ + 1 := by
  unfold lab; rw [nxt_val ρ h]; omega

theorem dinvL_cast (l : Nat) : dinvL (l : Int) = dinv l := by
  unfold dinvL dinv degL deg
  rw [if_congr (show ((l : Int) = 0 ∨ (l : Int) = 131071) ↔ (l = 0 ∨ l = 131071) by omega) rfl rfl]

theorem dinvL_pred (l : Nat) (h : 0 < l) : dinvL ((l : Int) - 1) = dinv (l - 1) := by
  rw [show (l : Int) - 1 = ((l - 1 : Nat) : Int) by omega, dinvL_cast]

theorem dinvL_succ (l : Nat) : dinvL ((l : Int) + 1) = dinv (l + 1) := by
  rw [show (l : Int) + 1 = ((l + 1 : Nat) : Int) by omega, dinvL_cast]

theorem lm_cast (l : Nat) : lm (l : Int) = if 0 < l then 1 else 0 := by
  unfold lm; rw [if_congr (show (0 < (l : Int)) ↔ 0 < l by omega) rfl rfl]

theorem rm_cast (l : Nat) : rm (l : Int) = if l < 131071 then 1 else 0 := by
  unfold rm; rw [if_congr (show ((l : Int) < 131071) ↔ l < 131071 by omega) rfl rfl]

/-- One convolution: the tile-local spelling at an inner local row whose label `l` is on the chain is the stencil at
    row `l`, when the local data agree with the row-indexed data at the row itself and at each neighbour the chain has. -/
theorem stencilL_eq {C : Nat} (t : Nat) (xwL : Fin 1040 → Fin C → EReal) (xw : Nat → Fin C → EReal) (b : Fin C → EReal)
    (ρ : Fin 1040) (l : Nat) (j : Fin C) (h1 : 1 ≤ ρ.val) (h2 : ρ.val ≤ 1038) (hl : lab t ρ = (l : Int))
    (h0 : xwL ρ j = xw l j) (hL : 0 < l → xwL (prv ρ) j = xw (l - 1) j)
    (hR : l < 131071 → xwL (nxt ρ) j = xw (l + 1) j) : stencilL t xwL b ρ j = stencil xw b l j := by
  unfold stencilL stencil
  rw [lab_prv t ρ h1, lab_nxt t ρ h2, hl, dinvL_cast, lm_cast, rm_cast, h0]
  by_cases hl0 : 0 < l <;> by_cases hlM : l < 131071
  · simp only [if_pos hl0, if_pos hlM, mul_one, hL hl0, hR hlM, dinvL_pred l hl0, dinvL_succ l]
  · simp only [if_pos hl0, if_neg hlM, mul_one, mul_zero, zero_mul, hL hl0, dinvL_pred l hl0]
  · simp only [if_neg hl0, if_pos hlM, mul_one, mul_zero, zero_mul, hR hlM, dinvL_succ l]
  · simp only [if_neg hl0, if_neg hlM, mul_zero, zero_mul]

/-- The whole network: the tile's result at its row `i` is the network's result at row t·1024 + i of the array. -/
theorem outL_eq (P : Params) (x : Nat → Fin 128 → EReal) (t : Nat) (ht : t < 128) (i : Fin 1024) (q : Fin 10) :
    outL P t (fun ρ => x (srcRow t ρ)) i q = out P x (t * 1024 + i.val) q := by
  have hi := i.isLt
  -- the first convolution, on every inner local row whose label is on the chain
  have hA : ∀ (ρ : Fin 1040) (l : Nat), 1 ≤ ρ.val → ρ.val ≤ 1038 → lab t ρ = (l : Int) → l < 131072 →
      ∀ j, g1L P t (fun ρ => x (srcRow t ρ)) ρ j = g1 P x l j := by
    intro ρ l h1 h2 hl hlN j
    unfold g1L g1
    refine stencilL_eq t _ _ _ ρ l j h1 h2 hl ?_ ?_ ?_
    · show xw1 P (x (srcRow t ρ)) j = xw1 P (x l) j
      rw [srcRow_eq t ht ρ l hl hlN]
    · intro h0
      show xw1 P (x (srcRow t (prv ρ))) j = xw1 P (x (l - 1)) j
      rw [srcRow_eq t ht (prv ρ) (l - 1) (by rw [lab_prv t ρ h1, hl]; omega) (by omega)]
    · intro hM
      show xw1 P (x (srcRow t (nxt ρ))) j = xw1 P (x (l + 1)) j
      rw [srcRow_eq t ht (nxt ρ) (l + 1) (by rw [lab_nxt t ρ h2, hl]; omega) (by omega)]
  have hB : ∀ (ρ : Fin 1040) (l : Nat), 1 ≤ ρ.val → ρ.val ≤ 1038 → lab t ρ = (l : Int) → l < 131072 →
      ∀ k, xw2L P t (fun ρ => x (srcRow t ρ)) ρ k = xw2 P x l k := by
    intro ρ l h1 h2 hl hlN k
    unfold xw2L xw2
    exact Finset.sum_congr rfl fun j _ => by rw [hA ρ l h1 h2 hl hlN j]
  -- the second convolution, on the rows the tile writes
  have hρ0 : (⟨8 + i.val, by omega⟩ : Fin 1040).val = 8 + i.val := rfl
  have hl0 : lab t ⟨8 + i.val, by omega⟩ = ((t * 1024 + i.val : Nat) : Int) := by
    unfold lab; rw [hρ0]; omega
  have hr : t * 1024 + i.val < 131072 := by omega
  have hC : ∀ k, g2L P t (fun ρ => x (srcRow t ρ)) ⟨8 + i.val, by omega⟩ k = g2 P x (t * 1024 + i.val) k := by
    intro k
    unfold g2L g2
    refine stencilL_eq t _ _ _ ⟨8 + i.val, by omega⟩ (t * 1024 + i.val) k (by rw [hρ0]; omega) (by rw [hρ0]; omega) hl0
      (hB _ _ (by rw [hρ0]; omega) (by rw [hρ0]; omega) hl0 hr k) ?_ ?_
    · intro h0
      refine hB _ _ ?_ ?_ ?_ (by omega) k
      · rw [prv_val _ (by rw [hρ0]; omega), hρ0]; omega
      · rw [prv_val _ (by rw [hρ0]; omega), hρ0]; omega
      · rw [lab_prv t _ (by rw [hρ0]; omega), hl0]; omega
    · intro hM
      refine hB _ _ ?_ ?_ ?_ (by omega) k
      · rw [nxt_val _ (by rw [hρ0]; omega), hρ0]; omega
      · rw [nxt_val _ (by rw [hρ0]; omega), hρ0]; omega
      · rw [lab_nxt t _ (by rw [hρ0]; omega), hl0]; omega
  unfold outL out
  exact congrArg (· + P.bfc q) (Finset.sum_congr rfl fun k _ => by rw [hC k])

end Cert.Spec

end
-- ==== Proof.SpecResult.lean ====
/-
  The network's result as ONE function of the nineteen argument arrays: entry (p, q) of the [131072, 10] result is
  `Spec.out` at row p, column q, of the parameters and rows the arrays give. Both programs' runs are stated at it.
-/
import proofs.«169599_j67370857005464_2_alg».proof.Proof.Spec

noncomputable section

namespace Cert.Spec

open Idealize.ShloMosaic Idealize.ShloMosaic.ValueIdx

def G (a0 : (⟨2, ![131072, 128]⟩ : Shape).Idx → EReal)
    (a1 : (⟨2, ![384, 128]⟩ : Shape).Idx → EReal) (a2 a3 : (⟨1, ![384]⟩ : Shape).Idx → EReal)
    (a4 : (⟨2, ![384, 128]⟩ : Shape).Idx → EReal) (a5 a6 : (⟨1, ![384]⟩ : Shape).Idx → EReal)
    (a7 : (⟨2, ![384, 256]⟩ : Shape).Idx → EReal) (a8 a9 : (⟨1, ![384]⟩ : Shape).Idx → EReal)
    (a10 : (⟨2, ![384, 256]⟩ : Shape).Idx → EReal) (a11 a12 : (⟨1, ![384]⟩ : Shape).Idx → EReal)
    (a13 : (⟨2, ![256, 128]⟩ : Shape).Idx → EReal) (a14 : (⟨1, ![128]⟩ : Shape).Idx → EReal)
    (a15 : (⟨2, ![128, 64]⟩ : Shape).Idx → EReal) (a16 : (⟨1, ![64]⟩ : Shape).Idx → EReal)
    (a17 : (⟨2, ![64, 10]⟩ : Shape).Idx → EReal) (a18 : (⟨1, ![10]⟩ : Shape).Idx → EReal) :
    (⟨2, ![131072, 10]⟩ : Shape).Idx → EReal :=
  fun y => out (paramsOf a1 a2 a3 a4 a5 a6 a7 a8 a9 a10 a11 a12 a13 a14 a15 a16 a17 a18) (rowsOf a0) (y 0).val (y 1)

theorem G_apply (a0 : (⟨2, ![131072, 128]⟩ : Shape).Idx → EReal)
    (a1 : (⟨2, ![384, 128]⟩ : Shape).Idx → EReal) (a2 a3 : (⟨1, ![384]⟩ : Shape).Idx → EReal)
    (a4 : (⟨2, ![384, 128]⟩ : Shape).Idx → EReal) (a5 a6 : (⟨1, ![384]⟩ : Shape).Idx → EReal)
    (a7 : (⟨2, ![384, 256]⟩ : Shape).Idx → EReal) (a8 a9 : (⟨1, ![384]⟩ : Shape).Idx → EReal)
    (a10 : (⟨2, ![384, 256]⟩ : Shape).Idx → EReal) (a11 a12 : (⟨1, ![384]⟩ : Shape).Idx → EReal)
    (a13 : (⟨2, ![256, 128]⟩ : Shape).Idx → EReal) (a14 : (⟨1, ![128]⟩ : Shape).Idx → EReal)
    (a15 : (⟨2, ![128, 64]⟩ : Shape).Idx → EReal) (a16 : (⟨1, ![64]⟩ : Shape).Idx → EReal)
    (a17 : (⟨2, ![64, 10]⟩ : Shape).Idx → EReal) (a18 : (⟨1, ![10]⟩ : Shape).Idx → EReal) (p : Fin 131072) (q : Fin 10) :
    G a0 a1 a2 a3 a4 a5 a6 a7 a8 a9 a10 a11 a12 a13 a14 a15 a16 a17 a18 (ix2 p q)
      = out (paramsOf a1 a2 a3 a4 a5 a6 a7 a8 a9 a10 a11 a12 a13 a14 a15 a16 a17 a18) (rowsOf a0) p.val q := rfl

end Cert.Spec

end
-- ==== Proof.KValue.lean ====
/-
  The kernel's result array after the run is the network's result function of the arguments.

  At grid point t the body stores, at entry (i, q) of its [1024, 10] block, the tile-local network on the 1040 stacked
  rows with the point's parameters; the parameters are the arguments' and the stacked rows are the halo tile of the
  input, so by the halo argument that entry is the network's result at row t·1024 + i, which is where the block's
  entry (i, q) lies in the result array. The 128 blocks tile the array, so the array is the result function.
-/
import proofs.«169599_j67370857005464_2_alg».proof.Proof.KParams
import proofs.«169599_j67370857005464_2_alg».proof.Proof.KBodyValue
import proofs.«169599_j67370857005464_2_alg».proof.Proof.SpecLocal
import proofs.«169599_j67370857005464_2_alg».proof.Proof.SpecResult

noncomputable section

namespace Cert.KernelIdeal.HandValue

open Cert.KernelIdeal Cert.KernelIdeal.Gen Cert.KernelIdeal.Hand Idealize.ShloMosaic Idealize.ShloMosaic.TcCoe Idealize.SL.Sem
open Idealize.ShloMosaic.ValueIdx

variable (m : (ℓ : Loc nD τ sig) → Buf (Elt Ideal) ℓ) (ρ : Dev nD → PrngReg)

/-- The result function at core `c`'s launch contents. -/
abbrev Gk (c : Dev nD) : S131072x10.Idx → EReal := Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))

/-- WHAT POINT t WRITES BACK is block t of the result function. -/
theorem flushed_eq (c : Dev nD) (t : Fin cfg0.N) :
    (dats m 0 c).flushed 15 t = ((cfg0.win 15).blk t).view.read (Elt Ideal) (Gk m c) := by
  have ht : t.val < 128 := lt_of_lt_of_eq t.isLt N_0
  rw [flushed15, out15_apply]
  funext j
  obtain ⟨i, q, rfl⟩ : ∃ (i : Fin 1024) (q : Fin 10), j = ix2 i q := ⟨j 0, j 1, eq_ix2 j⟩
  show Body.stored (BitVec.ofNat 32 (grid0.coords t 0).val) (iblk m c 1 t) (iblk m c 0 t) (iblk m c 2 t) (iblk m c 3 t)
      (iblk m c 4 t) (iblk m c 5 t) (iblk m c 6 t) (iblk m c 7 t) (iblk m c 8 t) (iblk m c 9 t) (iblk m c 10 t)
      (iblk m c 11 t) (iblk m c 12 t) (iblk m c 13 t) (iblk m c 14 t) (ix2 i q)
    = Gk m c (((cfg0.win 15).blk t).view.emb (ix2 i q))
  have he : (((cfg0.win 15).blk t).view.emb (ix2 i q) : S131072x10.Idx) = ix2 ⟨t.val * 1024 + i.val, by omega⟩ q := by
    funext a
    apply Fin.ext
    match a with
    | ⟨0, _⟩ => exact (emb15 t (ix2 i q)).1
    | ⟨1, _⟩ => exact (emb15 t (ix2 i q)).2
  rw [he]
  unfold Gk
  rw [Spec.G_apply, coords_val t, Body.stored_eq t.val ht, paramsK_eq m c t, extRows_eq m c t,
    Spec.outL_eq _ _ t.val ht i q]

/-- THE RESULT ARRAY after the run. -/
theorem final (c : Dev nD) : (dats m 0 c).arrAt 15 cfg0.N = Gk m c := final15 m c (Gk m c) (flushed_eq m c)

/-- The kernel's run: every weakly fair execution ends with the result array at the result function of the arguments,
    and the arguments unchanged. -/
theorem run_G : θ_run defs (onTc (τ := τ) (main (F := Ideal))) ⟨m, fun _ => 0, ρ⟩ fun r => ∀ c : Dev nD,
      r.2.mem ((c : Thread nD τ).loc main_v15) = Gk m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18) :=
  (θ_run defs _ _).mono (fun r h c => ⟨(h c).1.trans (final m c), (h c).2⟩) (run_blocks m ρ)

end Cert.KernelIdeal.HandValue

end
-- ==== Proof.RefOps.lean ====
/-
  The array operations a plain matrix program is written with, each read at one entry, over the extended reals.

  A bias vector laid out as one row and repeated down the rows; a transposed matrix; a window of columns of a matrix
  and a window of a vector; two matrices side by side; a matrix product; the constants one and zero repeated over an
  array. Each lemma says which entry of which operand the operation's entry is.
-/
import Idealize.ShloMosaic.PureOps.Ideal.Laws
import Idealize.ShloMosaic.Lib.ValueIdx
import Idealize.ShloMosaic.Lib.IdealHost
import Idealize.ShloMosaic.Lib.KernelVsHost
import Idealize.ShloMosaic.Lib.StackMember
import Idealize.ShloMosaic.Lib.Pipeline.Value

noncomputable section

open scoped BigOperators

namespace Cert.ReferenceIdeal.Hand

open Idealize.ShloMosaic Idealize.ShloMosaic.ValueIdx

variable {α : Type}

/-- A vector laid out as one row and repeated down the rows reads, at (p, c), the vector at c. -/
theorem rowBias_at {M C : Nat} (h1 : (⟨1, ![C]⟩ : Shape).BroadcastsInDim ⟨2, ![1, C]⟩ ![1])
    (h2 : (⟨2, ![1, C]⟩ : Shape).BroadcastsInDim ⟨2, ![M, C]⟩ ![0, 1]) (b : (⟨1, ![C]⟩ : Shape).Idx → α)
    (p : Fin M) (c : Fin C) :
    broadcastInDim ⟨2, ![M, C]⟩ ![0, 1] h2 (broadcastInDim ⟨2, ![1, C]⟩ ![1] h1 b) (ix2 p c) = b (ix1 c) := by
  rw [broadcastInDim_oneRow_apply]
  refine broadcastInDim_apply ![1] h1 b (ix2 (0 : Fin 1) c) (ix1 c) ?_
  intro a
  match a with
  | ⟨0, _⟩ =>
    show c.val = if C = 1 then 0 else c.val
    split_ifs with hC
    · have := c.isLt; omega
    · rfl

/-- A vector laid out as one column and repeated along the rows reads, at (e, k), the vector at e. -/
theorem colScale_at {M C : Nat} (h1 : (⟨1, ![M]⟩ : Shape).BroadcastsInDim ⟨2, ![M, 1]⟩ ![0])
    (h2 : (⟨2, ![M, 1]⟩ : Shape).BroadcastsInDim ⟨2, ![M, C]⟩ ![0, 1]) (v : (⟨1, ![M]⟩ : Shape).Idx → α)
    (e : Fin M) (k : Fin C) :
    broadcastInDim ⟨2, ![M, C]⟩ ![0, 1] h2 (broadcastInDim ⟨2, ![M, 1]⟩ ![0] h1 v) (ix2 e k) = v (ix1 e) := by
  have e2 := broadcastInDim_apply ![0, 1] h2 (broadcastInDim ⟨2, ![M, 1]⟩ ![0] h1 v) (ix2 e k) (ix2 e (0 : Fin 1)) (by
    intro a
    match a with
    | ⟨0, _⟩ =>
      show e.val = if M = 1 then 0 else e.val
      split_ifs with hM
      · have := e.isLt; omega
      · rfl
    | ⟨1, _⟩ =>
      show (0 : Nat) = if (1 : Nat) = 1 then 0 else k.val
      rw [if_pos rfl])
  have e1 := broadcastInDim_apply ![0] h1 v (ix2 e (0 : Fin 1)) (ix1 e) (by
    intro a
    match a with
    | ⟨0, _⟩ =>
      show e.val = if M = 1 then 0 else e.val
      split_ifs with hM
      · have := e.isLt; omega
      · rfl)
  exact e2.trans e1

/-- The transpose of a [C, K] matrix reads, at (k, c), the matrix at (c, k). -/
theorem transpose_at {C K : Nat} (h : (⟨2, ![C, K]⟩ : Shape).Transposes [1, 0] ⟨2, ![K, C]⟩)
    (w : (⟨2, ![C, K]⟩ : Shape).Idx → α) (k : Fin K) (c : Fin C) :
    transpose ⟨2, ![K, C]⟩ [1, 0] w h (ix2 k c) = w (ix2 c k) := by
  refine transpose_apply [1, 0] w h (ix2 k c) (ix2 c k) ?_
  intro b
  match b with
  | ⟨0, _⟩ => rfl
  | ⟨1, _⟩ => rfl

/-- Columns o … o + W − 1 of a matrix read, at (p, j), the matrix at (p, o + j). -/
theorem colWindow_at {M C W : Nat} (o : Nat) (h : (⟨2, ![M, C]⟩ : Shape).Slices ![0, o] ⟨2, ![M, W]⟩)
    (g : (⟨2, ![M, C]⟩ : Shape).Idx → α) (p : Fin M) (j : Fin W) (hj : o + j.val < C) :
    extractStridedSlice ⟨2, ![M, W]⟩ ![0, o] g h (ix2 p j) = g (ix2 p ⟨o + j.val, hj⟩) := by
  refine extractStridedSlice_apply ![0, o] g h (ix2 p j) (ix2 p ⟨o + j.val, hj⟩) ?_
  intro a
  match a with
  | ⟨0, _⟩ =>
    show p.val = 0 + p.val
    omega
  | ⟨1, _⟩ => rfl

/-- Entries o … o + W − 1 of a vector read, at j, the vector at o + j. -/
theorem window_at {C W : Nat} (o : Nat) (h : (⟨1, ![C]⟩ : Shape).Slices ![o] ⟨1, ![W]⟩)
    (b : (⟨1, ![C]⟩ : Shape).Idx → α) (j : Fin W) (hj : o + j.val < C) :
    extractStridedSlice ⟨1, ![W]⟩ ![o] b h (ix1 j) = b (ix1 ⟨o + j.val, hj⟩) := by
  refine extractStridedSlice_apply ![o] b h (ix1 j) (ix1 ⟨o + j.val, hj⟩) ?_
  intro a
  match a with
  | ⟨0, _⟩ => rfl

/-- Two [M, A] and [M, B] matrices side by side read, at (p, j), the first at (p, j) for j < A … -/
theorem sideBySide_left {M A B T : Nat}
    (h : Shape.Concatenates [(⟨2, ![M, A]⟩ : Shape), ⟨2, ![M, B]⟩] ⟨2, ![M, T]⟩ 1)
    (x : (⟨2, ![M, A]⟩ : Shape).Idx → α) (y : (⟨2, ![M, B]⟩ : Shape).Idx → α) (p : Fin M) (j : Fin T)
    (hj : j.val < A) :
    concatenate ⟨2, ![M, T]⟩ 1 [⟨⟨2, ![M, A]⟩, x⟩, ⟨⟨2, ![M, B]⟩, y⟩] h (ix2 p j) = x (ix2 p ⟨j.val, hj⟩) := by
  refine concatenate_pair_apply_left 1 x y h (ix2 p j) rfl (ix2 p ⟨j.val, hj⟩) ?_
  intro b
  match b with
  | ⟨0, _⟩ => rfl
  | ⟨1, _⟩ => rfl

/-- … and the second at (p, j − A) for j ≥ A. -/
theorem sideBySide_right {M A B T : Nat}
    (h : Shape.Concatenates [(⟨2, ![M, A]⟩ : Shape), ⟨2, ![M, B]⟩] ⟨2, ![M, T]⟩ 1)
    (x : (⟨2, ![M, A]⟩ : Shape).Idx → α) (y : (⟨2, ![M, B]⟩ : Shape).Idx → α) (p : Fin M) (j : Fin T)
    (hj : ¬ j.val < A) (hB : j.val - A < B) :
    concatenate ⟨2, ![M, T]⟩ 1 [⟨⟨2, ![M, A]⟩, x⟩, ⟨⟨2, ![M, B]⟩, y⟩] h (ix2 p j) = y (ix2 p ⟨j.val - A, hB⟩) := by
  refine concatenate_pair_apply_right 1 x y h (ix2 p j) rfl rfl (ix2 p ⟨j.val - A, hB⟩) ?_ ?_
  · intro b hb
    match b with
    | ⟨0, _⟩ => rfl
    | ⟨1, _⟩ => exact absurd rfl hb
  · show j.val - A + A = j.val
    omega

/-- The product of an [M, K] by a [K, N] matrix reads, at (p, c), the sum over k of the products of the entries. -/
theorem product_at {M K N : Nat} {φ₁ φ₂ : FTy}
    (w : DotDims.WF ⟨2, ![M, K]⟩ ⟨2, ![K, N]⟩ ⟨2, ![M, N]⟩ [1] [0] [0] [1] [] [])
    (A : FVec Ideal ⟨2, ![M, K]⟩ φ₁) (B : FVec Ideal ⟨2, ![K, N]⟩ φ₂) (p : Fin M) (c : Fin N) :
    Host.dotGeneral (⟨[1], [0], [0], [1], [], [], w⟩ : DotDims _ _ _) none A B (ix2 p c)
      = ∑ k : Fin K, A (ix2 p k) * B (ix2 k c) :=
  StackMember.dotGeneral_plain_apply none A B p c

/-- The constant one repeated over an array reads one everywhere. -/
theorem ones_at {s : Shape} (hb : (⟨0, ![]⟩ : Shape).BroadcastsInDim s ![]) (i : s.Idx) :
    broadcastInDim s ![] hb (constant (F := Ideal) ⟨0, ![]⟩ .f32 0x3F800000#32) i = (1 : EReal) := by
  rw [broadcastInDim_scalar_apply]
  exact Ideal.ofBits_one_f32

/-- The constant zero repeated over an array reads zero everywhere. -/
theorem zeros_at {s : Shape} (hb : (⟨0, ![]⟩ : Shape).BroadcastsInDim s ![]) (i : s.Idx) :
    broadcastInDim s ![] hb (constant (F := Ideal) ⟨0, ![]⟩ .f32 0x00000000#32) i = (0 : EReal) := by
  rw [broadcastInDim_scalar_apply]
  exact Ideal.ofBits_zero_f32

/-- 1 / (1 + exp(−v)) with the two ones repeated from constants is, at an entry, the logistic of the entry. -/
theorem logistic_at {s : Shape} (hb : (⟨0, ![]⟩ : Shape).BroadcastsInDim s ![]) (v : FVec Ideal s .f32) (i : s.Idx) :
    Host.divf (broadcastInDim s ![] hb (constant (F := Ideal) ⟨0, ![]⟩ .f32 0x3F800000#32))
      (addf (broadcastInDim s ![] hb (constant (F := Ideal) ⟨0, ![]⟩ .f32 0x3F800000#32)) (Host.exp (Host.negf v))) i
      = Ideal.logistic (v i) := by
  show Ideal.div (broadcastInDim s ![] hb (constant (F := Ideal) ⟨0, ![]⟩ .f32 0x3F800000#32) i)
      (broadcastInDim s ![] hb (constant (F := Ideal) ⟨0, ![]⟩ .f32 0x3F800000#32) i + Ideal.exp (-(v i))) = _
  rw [ones_at]
  rfl

end Cert.ReferenceIdeal.Hand

end
-- ==== Proof.RefRows.lean ====
/-
  The per-row part of the network, read entry by entry from the program's arrays.

  Each row of the input goes through two layers of a forward and a backward recurrent cell started from a zero
  state. A layer first forms the 384 gate pre-activations of the row (the row times the transposed weights, plus the
  input bias); a cell then takes columns j, 128 + j and 256 + j of them, adds the matching entries of the hidden
  bias, and returns (1 − z) · tanh(i_n + r · h_n) with r and z the logistic gates; the two cells' 128 entries stand
  side by side. The second layer's 256 entries, times the first graph weight matrix, are the first convolution's
  projection of the row.
-/
import proofs.«169599_j67370857005464_2_alg».proof.Proof.Gen.ReferenceIdeal.Run
import proofs.«169599_j67370857005464_2_alg».proof.Proof.Spec
import proofs.«169599_j67370857005464_2_alg».proof.Proof.RefOps

noncomputable section

open scoped BigOperators

namespace Cert.ReferenceIdeal.Hand

open Cert.ReferenceIdeal Cert.ReferenceIdeal.Gen Cert.ReferenceIdeal.Value Idealize.ShloMosaic Idealize.ShloMosaic.TcCoe
  Idealize.SL.Sem Idealize.ShloMosaic.StableHlo Idealize.ShloMosaic.ValueIdx

/-- The network's weights, from the program's arguments 1 to 18. -/
abbrev paramsAt (V0 : Valuation τ sig (Elt Ideal)) : Spec.Params :=
  Spec.paramsOf (V0 (Proc.devRef .tc main_arg1)) (V0 (Proc.devRef .tc main_arg2)) (V0 (Proc.devRef .tc main_arg3))
    (V0 (Proc.devRef .tc main_arg4)) (V0 (Proc.devRef .tc main_arg5)) (V0 (Proc.devRef .tc main_arg6))
    (V0 (Proc.devRef .tc main_arg7)) (V0 (Proc.devRef .tc main_arg8)) (V0 (Proc.devRef .tc main_arg9))
    (V0 (Proc.devRef .tc main_arg10)) (V0 (Proc.devRef .tc main_arg11)) (V0 (Proc.devRef .tc main_arg12))
    (V0 (Proc.devRef .tc main_arg13)) (V0 (Proc.devRef .tc main_arg14)) (V0 (Proc.devRef .tc main_arg15))
    (V0 (Proc.devRef .tc main_arg16)) (V0 (Proc.devRef .tc main_arg17)) (V0 (Proc.devRef .tc main_arg18))

/-- The input's rows, from the program's argument 0. -/
abbrev rowsAt (V0 : Valuation τ sig (Elt Ideal)) : Nat → Fin 128 → EReal := Spec.rowsOf (V0 (Proc.devRef .tc main_arg0))

/-- Row p of the input, for p inside the array. -/
theorem rowsOf_val (X : (⟨2, ![131072, 128]⟩ : Shape).Idx → EReal) (p : Fin 131072) :
    Spec.rowsOf X p.val = fun k => X (ix2 p k) := by
  funext k
  unfold Spec.rowsOf
  rw [dif_pos p.isLt]

/-- The gate pre-activations of an [M, K] array of rows: at (p, c), row p times column c of the transposed weights,
    plus the input bias at c. -/
theorem gateT_at {M K : Nat}
    (w : DotDims.WF ⟨2, ![M, K]⟩ ⟨2, ![K, 384]⟩ ⟨2, ![M, 384]⟩ [1] [0] [0] [1] [] [])
    (ht : (⟨2, ![384, K]⟩ : Shape).Transposes [1, 0] ⟨2, ![K, 384]⟩)
    (h1 : (⟨1, ![384]⟩ : Shape).BroadcastsInDim ⟨2, ![1, 384]⟩ ![1])
    (h2 : (⟨2, ![1, 384]⟩ : Shape).BroadcastsInDim ⟨2, ![M, 384]⟩ ![0, 1])
    (x : FVec Ideal ⟨2, ![M, K]⟩ .f32) (W : FVec Ideal ⟨2, ![384, K]⟩ .f32) (b bh : FVec Ideal ⟨1, ![384]⟩ .f32)
    (p : Fin M) (c : Fin 384) :
    addf (Host.dotGeneral (⟨[1], [0], [0], [1], [], [], w⟩ : DotDims _ _ _) none x (transpose ⟨2, ![K, 384]⟩ [1, 0] W ht))
        (broadcastInDim ⟨2, ![M, 384]⟩ ![0, 1] h2 (broadcastInDim ⟨2, ![1, 384]⟩ ![1] h1 b)) (ix2 p c)
      = Spec.gate (Spec.gruOf W b bh) (fun k => x (ix2 p k)) c := by
  rw [addf_apply, product_at, rowBias_at]
  unfold Spec.gate Spec.gruOf
  refine congrArg (· + b (ix1 c)) (Finset.sum_congr rfl fun k _ => ?_)
  rw [transpose_at]

/-- One cell's array: from the [131072, 384] gate pre-activations g and the hidden bias bh. -/
def cellT (g : FVec Ideal S131072x384 .f32) (bh : FVec Ideal S384 .f32) : FVec Ideal S131072x128 .f32 :=
  mulf (subf (broadcastInDim S131072x128 ![] bcast_S_S131072x128 (constant (F := Ideal) S_ .f32 0x3F800000#32)) (Host.divf (broadcastInDim S131072x128 ![] bcast_S_S131072x128 (constant (F := Ideal) S_ .f32 0x3F800000#32)) (addf (broadcastInDim S131072x128 ![] bcast_S_S131072x128 (constant (F := Ideal) S_ .f32 0x3F800000#32)) (Host.exp (Host.negf (addf (extractStridedSlice S131072x128 ![0, 128] g slices_S131072x384_S131072x128_0_128) (broadcastInDim S131072x128 ![0, 1] bcast_S1x128_S131072x128_0_1 (broadcastInDim S1x128 ![1] bcast_S128_S1x128_1 (extractStridedSlice S128 ![128] bh slices_S384_S128_128))))))))) (Host.tanh (addf (extractStridedSlice S131072x128 ![0, 256] g slices_S131072x384_S131072x128_0_256) (mulf (Host.divf (broadcastInDim S131072x128 ![] bcast_S_S131072x128 (constant (F := Ideal) S_ .f32 0x3F800000#32)) (addf (broadcastInDim S131072x128 ![] bcast_S_S131072x128 (constant (F := Ideal) S_ .f32 0x3F800000#32)) (Host.exp (Host.negf (addf (extractStridedSlice S131072x128 ![0, 0] g slices_S131072x384_S131072x128_0_0) (broadcastInDim S131072x128 ![0, 1] bcast_S1x128_S131072x128_0_1 (broadcastInDim S1x128 ![1] bcast_S128_S1x128_1 (extractStridedSlice S128 ![0] bh slices_S384_S128_0)))))))) (broadcastInDim S131072x128 ![0, 1] bcast_S1x128_S131072x128_0_1 (broadcastInDim S1x128 ![1] bcast_S128_S1x128_1 (extractStridedSlice S128 ![256] bh slices_S384_S128_256))))))

/-- The hyperbolic tangent of an array reads, at an entry, the tangent of the entry. -/
theorem tanh_at {s : Shape} (v : FVec Ideal s .f32) (i : s.Idx) : Host.tanh v i = Ideal.tanh (v i) := rfl

/-- A cell's array at (p, j): (1 − z) · tanh(i_n + r · h_n) over columns j, 128 + j, 256 + j of the gates. -/
theorem cellT_at (g : FVec Ideal S131072x384 .f32) (bh : FVec Ideal S384 .f32) (p : Fin 131072) (j : Fin 128) :
    cellT g bh (ix2 p j)
      = (1 - Ideal.logistic (g (ix2 p (Spec.col 128 (by omega) j)) + bh (ix1 (Spec.col 128 (by omega) j))))
        * Ideal.tanh (g (ix2 p (Spec.col 256 (by omega) j))
            + Ideal.logistic (g (ix2 p (Spec.col 0 (by omega) j)) + bh (ix1 (Spec.col 0 (by omega) j)))
              * bh (ix1 (Spec.col 256 (by omega) j))) := by
  have hj := j.isLt
  have e0 : extractStridedSlice S131072x128 ![0, 0] g slices_S131072x384_S131072x128_0_0 (ix2 p j)
      = g (ix2 p (Spec.col 0 (by omega) j)) := colWindow_at 0 _ g p j (by omega)
  have e1 : extractStridedSlice S131072x128 ![0, 128] g slices_S131072x384_S131072x128_0_128 (ix2 p j)
      = g (ix2 p (Spec.col 128 (by omega) j)) := colWindow_at 128 _ g p j (by omega)
  have e2 : extractStridedSlice S131072x128 ![0, 256] g slices_S131072x384_S131072x128_0_256 (ix2 p j)
      = g (ix2 p (Spec.col 256 (by omega) j)) := colWindow_at 256 _ g p j (by omega)
  have f0 : extractStridedSlice S128 ![0] bh slices_S384_S128_0 (ix1 j) = bh (ix1 (Spec.col 0 (by omega) j)) :=
    window_at 0 _ bh j (by omega)
  have f1 : extractStridedSlice S128 ![128] bh slices_S384_S128_128 (ix1 j) = bh (ix1 (Spec.col 128 (by omega) j)) :=
    window_at 128 _ bh j (by omega)
  have f2 : extractStridedSlice S128 ![256] bh slices_S384_S128_256 (ix1 j) = bh (ix1 (Spec.col 256 (by omega) j)) :=
    window_at 256 _ bh j (by omega)
  have b0 : broadcastInDim S131072x128 ![0, 1] bcast_S1x128_S131072x128_0_1 (broadcastInDim S1x128 ![1] bcast_S128_S1x128_1
      (extractStridedSlice S128 ![0] bh slices_S384_S128_0)) (ix2 p j) = bh (ix1 (Spec.col 0 (by omega) j)) :=
    (rowBias_at _ _ _ p j).trans f0
  have b1 : broadcastInDim S131072x128 ![0, 1] bcast_S1x128_S131072x128_0_1 (broadcastInDim S1x128 ![1] bcast_S128_S1x128_1
      (extractStridedSlice S128 ![128] bh slices_S384_S128_128)) (ix2 p j) = bh (ix1 (Spec.col 128 (by omega) j)) :=
    (rowBias_at _ _ _ p j).trans f1
  have b2 : broadcastInDim S131072x128 ![0, 1] bcast_S1x128_S131072x128_0_1 (broadcastInDim S1x128 ![1] bcast_S128_S1x128_1
      (extractStridedSlice S128 ![256] bh slices_S384_S128_256)) (ix2 p j) = bh (ix1 (Spec.col 256 (by omega) j)) :=
    (rowBias_at _ _ _ p j).trans f2
  unfold cellT
  simp only [mulf_apply, subf_apply, tanh_at, addf_apply]
  rw [logistic_at, logistic_at, ones_at]
  simp only [addf_apply]
  rw [e0, e1, e2, b0, b1, b2]

/-- Two [131072, 128] arrays side by side. -/
def pairT (a b : FVec Ideal S131072x128 .f32) : FVec Ideal S131072x256 .f32 :=
  concatenate S131072x256 1 [⟨S131072x128, a⟩, ⟨S131072x128, b⟩] concatenates_S131072x128_S131072x128_S131072x256_d1

/-- Side by side at (p, j): the first array for j < 128, the second at j − 128 otherwise. -/
theorem pairT_at (a b : FVec Ideal S131072x128 .f32) (p : Fin 131072) (j : Fin 256) :
    pairT a b (ix2 p j)
      = if h : j.val < 128 then a (ix2 p ⟨j.val, h⟩) else b (ix2 p ⟨j.val - 128, by have := j.isLt; omega⟩) := by
  unfold pairT
  by_cases h : j.val < 128
  · rw [dif_pos h]
    exact sideBySide_left _ a b p j h
  · rw [dif_neg h]
    exact sideBySide_right _ a b p j h (by have := j.isLt; omega)

/-- One layer, from the layer's two gate arrays: at (p, j) the forward and backward cells of the spec on the row whose
    gates the arrays hold. -/
theorem layer_at {K : Nat} (Gf Gb : Spec.Gru K) (xr : Fin K → EReal)
    (gf gb : FVec Ideal S131072x384 .f32) (bhf bhb : FVec Ideal S384 .f32) (p : Fin 131072)
    (hgf : ∀ c, gf (ix2 p c) = Spec.gate Gf xr c) (hgb : ∀ c, gb (ix2 p c) = Spec.gate Gb xr c)
    (hbf : ∀ c, bhf (ix1 c) = Gf.bh c) (hbb : ∀ c, bhb (ix1 c) = Gb.bh c) (j : Fin 256) :
    pairT (cellT gf bhf) (cellT gb bhb) (ix2 p j) = Spec.pair Gf Gb xr j := by
  rw [pairT_at]
  unfold Spec.pair
  by_cases h : j.val < 128
  · rw [dif_pos h, dif_pos h, cellT_at]
    unfold Spec.cell
    rw [hgf, hgf, hgf, hbf, hbf, hbf]
  · rw [dif_neg h, dif_neg h, cellT_at]
    unfold Spec.cell
    rw [hgb, hgb, hgb, hbb, hbb, hbb]

/-! ## The program's named arrays -/

/-- The first layer's forward gate pre-activations. -/
theorem v4_at (V0 : Valuation τ sig (Elt Ideal)) (p : Fin 131072) (c : Fin 384) :
    res_main_v4 (F := Ideal) V0 (ix2 p c) = Spec.gate (paramsAt V0).f1 (rowsAt V0 p.val) c := by
  unfold res_main_v4
  refine (gateT_at _ _ _ _ _ _ _ (V0 (Proc.devRef .tc main_arg3)) p c).trans ?_
  rw [← rowsOf_val]
  rfl

/-- The first layer's backward gate pre-activations. -/
theorem v41_at (V0 : Valuation τ sig (Elt Ideal)) (p : Fin 131072) (c : Fin 384) :
    res_main_v41 (F := Ideal) V0 (ix2 p c) = Spec.gate (paramsAt V0).b1 (rowsAt V0 p.val) c := by
  unfold res_main_v41
  refine (gateT_at _ _ _ _ _ _ _ (V0 (Proc.devRef .tc main_arg6)) p c).trans ?_
  rw [← rowsOf_val]
  rfl

/-- The first layer's array is the two cells' arrays side by side. -/
theorem v74_eq (V0 : Valuation τ sig (Elt Ideal)) :
    res_main_v74 (F := Ideal) V0
      = pairT (cellT (res_main_v4 V0) (V0 (Proc.devRef .tc main_arg3))) (cellT (res_main_v41 V0) (V0 (Proc.devRef .tc main_arg6))) := rfl

/-- The first layer at (p, j). -/
theorem v74_at (V0 : Valuation τ sig (Elt Ideal)) (p : Fin 131072) (j : Fin 256) :
    res_main_v74 (F := Ideal) V0 (ix2 p j) = Spec.pair (paramsAt V0).f1 (paramsAt V0).b1 (rowsAt V0 p.val) j := by
  rw [v74_eq]
  exact layer_at _ _ _ _ _ _ _ p (v4_at V0 p) (v41_at V0 p) (fun _ => rfl) (fun _ => rfl) j

/-- The second layer's forward gate pre-activations. -/
theorem v79_at (V0 : Valuation τ sig (Elt Ideal)) (p : Fin 131072) (c : Fin 384) :
    res_main_v79 (F := Ideal) V0 (ix2 p c)
      = Spec.gate (paramsAt V0).f2 (Spec.pair (paramsAt V0).f1 (paramsAt V0).b1 (rowsAt V0 p.val)) c := by
  unfold res_main_v79
  refine (gateT_at _ _ _ _ _ _ _ (V0 (Proc.devRef .tc main_arg9)) p c).trans ?_
  rw [show (fun k => res_main_v74 (F := Ideal) V0 (ix2 p k)) = Spec.pair (paramsAt V0).f1 (paramsAt V0).b1 (rowsAt V0 p.val)
    from funext fun k => v74_at V0 p k]
  rfl

/-- The second layer's backward gate pre-activations. -/
theorem v116_at (V0 : Valuation τ sig (Elt Ideal)) (p : Fin 131072) (c : Fin 384) :
    res_main_v116 (F := Ideal) V0 (ix2 p c)
      = Spec.gate (paramsAt V0).b2 (Spec.pair (paramsAt V0).f1 (paramsAt V0).b1 (rowsAt V0 p.val)) c := by
  unfold res_main_v116
  refine (gateT_at _ _ _ _ _ _ _ (V0 (Proc.devRef .tc main_arg12)) p c).trans ?_
  rw [show (fun k => res_main_v74 (F := Ideal) V0 (ix2 p k)) = Spec.pair (paramsAt V0).f1 (paramsAt V0).b1 (rowsAt V0 p.val)
    from funext fun k => v74_at V0 p k]
  rfl

/-- The second layer's array (the program's value 149). -/
def h2T (V0 : Valuation τ sig (Elt Ideal)) : FVec Ideal S131072x256 .f32 :=
  pairT (cellT (res_main_v79 V0) (V0 (Proc.devRef .tc main_arg9))) (cellT (res_main_v116 V0) (V0 (Proc.devRef .tc main_arg12)))

/-- Both layers at (p, j). -/
theorem h2T_at (V0 : Valuation τ sig (Elt Ideal)) (p : Fin 131072) (j : Fin 256) :
    h2T V0 (ix2 p j) = Spec.rowH2 (paramsAt V0) (rowsAt V0 p.val) j := by
  unfold h2T Spec.rowH2
  exact layer_at _ _ _ _ _ _ _ p (v79_at V0 p) (v116_at V0 p) (fun _ => rfl) (fun _ => rfl) j

/-- The first convolution's projection (the program's value 157): the second layer times the first graph weights. -/
def xw1T (V0 : Valuation τ sig (Elt Ideal)) : FVec Ideal S131072x128 .f32 :=
  Host.dotGeneral (φ₂ := .f32) dot_S131072x256_S256x128_S131072x128_1_0_0_1_n_n none (h2T V0)
    (V0 (Proc.devRef .tc main_arg13))

/-- The projection at (p, j). -/
theorem xw1T_at (V0 : Valuation τ sig (Elt Ideal)) (p : Fin 131072) (j : Fin 128) :
    xw1T V0 (ix2 p j) = Spec.xw1 (paramsAt V0) (rowsAt V0 p.val) j := by
  unfold xw1T Spec.xw1
  refine (product_at _ (h2T V0) (V0 (Proc.devRef .tc main_arg13)) p j).trans ?_
  refine Finset.sum_congr rfl fun k _ => ?_
  rw [h2T_at]
  rfl

end Cert.ReferenceIdeal.Hand

end
-- ==== Proof.LibIndexedRows.lean ====
/-
  ROW GATHER, VECTOR GATHER AND ROW SCATTER-ADD BY A COLUMN OF SIGNED INDEX WORDS, WITH THE ROW MAP AND THE TARGET
  MAP NAMED.

  An [m, 1] column `idx` of signed index words (the index vector's axis being the column's second axis, of size
  one) moves whole rows of an [n, c] matrix, or entries of a length-n vector.

  * `word idx e` is the e-th index word read as a signed integer.
  * `rowOf n hn idx e` is the row a gather reads for entry e: the word clamped into [0, n - 1] (a negative word
    reads row 0, a word ≥ n reads row n - 1).
  * `tgtOf n idx e` is the row a scatter writes for update e: the word itself when 0 ≤ word < n, and none
    otherwise (an update that falls outside the matrix is dropped, not clamped).

  * `gather_rows_at`: the gather of the rows of an [n, c] matrix `x` is, at entry (e, k), x (rowOf e, k).
  * `gather_vec_at`: the gather of a length-n vector `x` is, at entry e, x (rowOf e).
  * `scatterAdd_rows_at` (and `scatterAdd_rows_at'` for the operation as a program spells it): the accumulating
    scatter of the [m, c] update rows `u` into `x` is, at entry (p, k), x (p, k) plus the sum of u (e, k) over
    the update rows e with tgtOf e = some p.
  * `word_of_tgtOf`, `rowOf_of_word`: an update with target p has word p, and a word p < n has row p; so the two
    maps agree wherever the target exists.

  Then the link between two columns built from one vector v of 32-bit words: the column of v itself, and the column
  of v with a constant added to the negative words (select (v < 0) (v + cN) v). Where the first column's target
  exists the word of v is non-negative, so the second column holds the same word (`word_shifted_of_nonneg`), and
  its gather row is that target (`rowOf_shifted_of_tgtOf`). No fact about the added constant is used.
-/
import Idealize.ShloMosaic.Lib.ValueIdx
import Idealize.ShloMosaic.PureOps.Ideal

open scoped BigOperators

namespace Cert.Lib.IndexedRows

open Idealize.ShloMosaic Idealize.ShloMosaic.ValueIdx

variable {m n c w : Nat}

/-- The e-th word of an [m, 1] column of index words, read as a signed integer. -/
def word (idx : IVec (⟨2, ![m, 1]⟩ : Shape) w) (e : Fin m) : Int := (idx (ix2 e 0)).toInt

/-- The row a gather reads for entry e of the column: the signed word clamped into [0, n - 1]. -/
def rowOf (n : Nat) (hn : 0 < n) (idx : IVec (⟨2, ![m, 1]⟩ : Shape) w) (e : Fin m) : Fin n :=
  ⟨min (word idx e).toNat (n - 1), by omega⟩

/-- The row a scatter writes for update e of the column: the signed word when it lies in [0, n), none otherwise. -/
def tgtOf (n : Nat) (idx : IVec (⟨2, ![m, 1]⟩ : Shape) w) (e : Fin m) : Option (Fin n) :=
  if h : 0 ≤ word idx e ∧ word idx e < (n : Int) then some ⟨(word idx e).toNat, by omega⟩ else none

/-- An update whose target is row p carries the word p. -/
theorem word_of_tgtOf {idx : IVec (⟨2, ![m, 1]⟩ : Shape) w} {e : Fin m} {p : Fin n}
    (h : tgtOf n idx e = some p) : word idx e = (p.val : Int) := by
  unfold tgtOf at h
  by_cases hc : 0 ≤ word idx e ∧ word idx e < (n : Int)
  · rw [dif_pos hc] at h
    have hv : (word idx e).toNat = p.val := congrArg Fin.val (Option.some.inj h)
    omega
  · rw [dif_neg hc] at h
    cases h

/-- An entry whose word is p (a row of the matrix) reads row p: the clamp does nothing inside the range. -/
theorem rowOf_of_word (hn : 0 < n) {idx : IVec (⟨2, ![m, 1]⟩ : Shape) w} {e : Fin m} {p : Fin n}
    (h : word idx e = (p.val : Int)) : rowOf n hn idx e = p := by
  refine Fin.ext ?_
  show min (word idx e).toNat (n - 1) = p.val
  have := p.isLt
  omega

/-- Gathering entries of a vector: the gather x[idx] of a length-n vector by an [m, 1] column of index words reads,
    at entry e, the vector at the row of e. -/
theorem gather_vec_at {α : Type}
    (d : GatherDims (⟨1, ![n]⟩ : Shape) (⟨2, ![m, 1]⟩ : Shape) (⟨1, ![m]⟩ : Shape))
    (hod : d.offsetDims = []) (hcs : d.collapsedSliceDims = [0]) (hob : d.operandBatchingDims = [])
    (hsb : d.startIndicesBatchingDims = []) (hsm : d.startIndexMap = [0]) (hiv : d.indexVectorDim = 1)
    (hn : 0 < n) (idx : IVec (⟨2, ![m, 1]⟩ : Shape) w) (x : (⟨1, ![n]⟩ : Shape).Idx → α) (e : Fin m) :
    Host.gather d x idx (ix1 e) = x (ix1 (rowOf n hn idx e)) := by
  have hs0 : d.sliceSizes 0 = 1 := d.slice_collapsed 0 (by rw [hcs]; exact List.mem_singleton.mpr rfl)
  obtain ⟨od, cd, ob, sb, sm, iv, ss, wf⟩ := d
  simp only at hod hcs hob hsb hsm hiv hs0
  subst hod hcs hob hsb hsm hiv
  unfold Host.gather
  congr 1
  funext a
  obtain rfl : a = 0 := Subsingleton.elim _ _
  refine Fin.ext ?_
  show GatherDims.start _ _ idx 0 + GatherDims.batchCoord _ _ 0 + GatherDims.offCoord _ _ 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (List.mem_singleton.mpr rfl)]
  have hsi : ∀ (q : Fin ([0] : List (Fin (⟨1, ![n]⟩ : Shape).rank)).length),
      GatherDims.siIdx (⟨[], [0], [], [], [0], 1, ss, wf⟩ :
        GatherDims (⟨1, ![n]⟩ : Shape) (⟨2, ![m, 1]⟩ : Shape) (⟨1, ![m]⟩ : Shape)) (ix1 e) q = ix2 e 0 := by
    intro q
    funext b; refine Fin.ext ?_
    match b with
    | ⟨0, _⟩ => rfl
    | ⟨1, _⟩ =>
      have := q.isLt
      simp only [List.length_singleton] at this
      show q.val = 0
      omega
  rw [hsi]
  show min _ (n - ss 0) = _
  rw [hs0]
  rfl

/-- Gathering whole rows: the row gather x[idx] of an [n, c] matrix by an [m, 1] column of index words reads, at
    entry (e, k), the matrix at (row of e, k). -/
theorem gather_rows_at {α : Type}
    (d : GatherDims (⟨2, ![n, c]⟩ : Shape) (⟨2, ![m, 1]⟩ : Shape) (⟨2, ![m, c]⟩ : Shape))
    (hod : d.offsetDims = [1]) (hcs : d.collapsedSliceDims = [0]) (hob : d.operandBatchingDims = [])
    (hsb : d.startIndicesBatchingDims = []) (hsm : d.startIndexMap = [0]) (hiv : d.indexVectorDim = 1)
    (hn : 0 < n) (idx : IVec (⟨2, ![m, 1]⟩ : Shape) w) (x : (⟨2, ![n, c]⟩ : Shape).Idx → α) (e : Fin m)
    (k : Fin c) : Host.gather d x idx (ix2 e k) = x (ix2 (rowOf n hn idx e) k) := by
  have hs0 : d.sliceSizes 0 = 1 := d.slice_collapsed 0 (by rw [hcs]; exact List.mem_singleton.mpr rfl)
  obtain ⟨od, cd, ob, sb, sm, iv, ss, wf⟩ := d
  simp only at hod hcs hob hsb hsm hiv hs0
  subst hod hcs hob hsb hsm hiv
  unfold Host.gather
  congr 1
  funext a
  refine Fin.ext ?_
  match a with
  | ⟨0, _⟩ =>
    show GatherDims.start _ _ idx 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : ∀ (q : Fin ([0] : List (Fin (⟨2, ![n, c]⟩ : Shape).rank)).length),
        GatherDims.siIdx (⟨[1], [0], [], [], [0], 1, ss, wf⟩ :
          GatherDims (⟨2, ![n, c]⟩ : Shape) (⟨2, ![m, 1]⟩ : Shape) (⟨2, ![m, c]⟩ : Shape)) (ix2 e k) q = ix2 e 0 := by
      intro q
      funext b; refine Fin.ext ?_
      match b with
      | ⟨0, _⟩ => rfl
      | ⟨1, _⟩ =>
        have := q.isLt
        simp only [List.length_singleton] at this
        show q.val = 0
        omega
    rw [hsi]
    show min _ (n - ss 0) = _
    rw [hs0]
    rfl
  | ⟨1, _⟩ =>
    show GatherDims.start _ _ idx 1 + GatherDims.batchCoord _ _ 1 + GatherDims.offCoord _ _ 1 = _
    rw [GatherDims.batchCoord_eq_zero _ _ _ List.not_mem_nil]
    unfold GatherDims.start
    rw [dif_neg (fun h => absurd (Fin.val_eq_of_eq (List.mem_singleton.mp h)) Nat.one_ne_zero)]
    simp only [Nat.zero_add]
    rfl

/-- Scatter-adding whole rows at the exact instance: entry (p, k) of the result is the operand's entry plus the sum,
    over the update rows e whose target row is p, of the update at (e, k). The result index of update entry (e, k')
    is read coordinate by coordinate — row (word of e) + 0, column 0 + k' —, so that entry lands at (p, k) exactly
    when tgtOf e = some p and k' = k; the sum over the rank-2 update index set then splits into the double sum over
    rows and columns, and the inner sum over columns keeps the single term k' = k. -/
theorem scatterAdd_rows_at
    (d : ScatterDims (⟨2, ![n, c]⟩ : Shape) (⟨2, ![m, 1]⟩ : Shape) (⟨2, ![m, c]⟩ : Shape))
    (huw : d.updateWindowDims = [1]) (hiw : d.insertedWindowDims = [0]) (hsd : d.scatterDimsToOperandDims = [0])
    (hiv : d.indexVectorDim = 1) (idx : IVec (⟨2, ![m, 1]⟩ : Shape) w)
    (x : (⟨2, ![n, c]⟩ : Shape).Idx → EReal) (u : (⟨2, ![m, c]⟩ : Shape).Idx → EReal) (p : Fin n) (k : Fin c) :
    Ideal.hostScatterAdd d x idx u (ix2 p k)
      = x (ix2 p k) + ∑ e ∈ Finset.univ.filter (fun e => tgtOf n idx e = some p), u (ix2 e k) := by
  obtain ⟨uw, iw, sd, iv, wf⟩ := d
  simp only at huw hiw hsd hiv
  subst huw hiw hsd hiv
  generalize hD : (⟨[1], [0], [0], 1, wf⟩ :
    ScatterDims (⟨2, ![n, c]⟩ : Shape) (⟨2, ![m, 1]⟩ : Shape) (⟨2, ![m, c]⟩ : Shape)) = D
  have hstart0 : ∀ (e : Fin m) (k' : Fin c), D.start (ix2 e k') idx 0 = word idx e := by
    intro e k'
    subst hD
    unfold ScatterDims.start word
    rw [dif_pos (List.mem_singleton.mpr rfl)]
    congr 2
    funext b; refine Fin.ext ?_
    match b with
    | ⟨0, _⟩ => rfl
    | ⟨1, _⟩ => rfl
  have hstart1 : ∀ (e : Fin m) (k' : Fin c), D.start (ix2 e k') idx 1 = 0 := by
    intro e k'
    subst hD
    unfold ScatterDims.start
    rw [dif_neg (fun h => absurd (Fin.val_eq_of_eq (List.mem_singleton.mp h)) Nat.one_ne_zero)]
  have hwin0 : ∀ (e : Fin m) (k' : Fin c), D.window (ix2 e k') 0 = 0 := by
    intro e k'
    subst hD
    unfold ScatterDims.window
    rw [dif_neg]
    intro h
    simp [ScatterDims.sKept, Shape.kept] at h
  have hwin1 : ∀ (e : Fin m) (k' : Fin c), D.window (ix2 e k') 1 = k'.val := by
    intro e k'
    subst hD
    rfl
  have hsz0 : ((⟨2, ![n, c]⟩ : Shape).size 0 : Int) = (n : Int) := rfl
  have hsz1 : ((⟨2, ![n, c]⟩ : Shape).size 1 : Int) = (c : Int) := rfl
  have key : ∀ (e : Fin m) (k' : Fin c), D.resultIdx? (ix2 e k') idx = some (ix2 p k) ↔
      (tgtOf n idx e = some p ∧ k' = k) := by
    intro e k'
    unfold tgtOf ScatterDims.resultIdx?
    by_cases h : 0 ≤ word idx e ∧ word idx e < (n : Int)
    · have hall : ∀ a, 0 ≤ D.start (ix2 e k') idx a + D.window (ix2 e k') a ∧
          D.start (ix2 e k') idx a + D.window (ix2 e k') a < ((⟨2, ![n, c]⟩ : Shape).size a : Int) := by
        intro a
        match a with
        | ⟨0, _⟩ =>
          show 0 ≤ D.start (ix2 e k') idx 0 + D.window (ix2 e k') 0 ∧
            D.start (ix2 e k') idx 0 + D.window (ix2 e k') 0 < ((⟨2, ![n, c]⟩ : Shape).size 0 : Int)
          rw [hstart0, hwin0, hsz0]
          omega
        | ⟨1, _⟩ =>
          show 0 ≤ D.start (ix2 e k') idx 1 + D.window (ix2 e k') 1 ∧
            D.start (ix2 e k') idx 1 + D.window (ix2 e k') 1 < ((⟨2, ![n, c]⟩ : Shape).size 1 : Int)
          rw [hstart1, hwin1, hsz1]
          have := k'.isLt
          omega
      rw [dif_pos hall, dif_pos h, Option.some.injEq, Option.some.injEq]
      constructor
      · intro hf
        have h0 : (D.start (ix2 e k') idx 0 + (D.window (ix2 e k') 0 : Int)).toNat = p.val :=
          congrArg (fun f => (f 0).val) hf
        have h1 : (D.start (ix2 e k') idx 1 + (D.window (ix2 e k') 1 : Int)).toNat = k.val :=
          congrArg (fun f => (f 1).val) hf
        rw [hstart0, hwin0] at h0
        rw [hstart1, hwin1] at h1
        refine ⟨Fin.ext ?_, Fin.ext ?_⟩
        · show (word idx e).toNat = p.val
          omega
        · omega
      · rintro ⟨hp, hk⟩
        have hp' : (word idx e).toNat = p.val := congrArg Fin.val hp
        funext a
        refine Fin.ext ?_
        match a with
        | ⟨0, _⟩ =>
          show (D.start (ix2 e k') idx 0 + (D.window (ix2 e k') 0 : Int)).toNat = p.val
          rw [hstart0, hwin0]
          omega
        | ⟨1, _⟩ =>
          show (D.start (ix2 e k') idx 1 + (D.window (ix2 e k') 1 : Int)).toNat = k.val
          rw [hstart1, hwin1, hk]
          omega
    · have hnall : ¬ ∀ a, 0 ≤ D.start (ix2 e k') idx a + D.window (ix2 e k') a ∧
          D.start (ix2 e k') idx a + D.window (ix2 e k') a < ((⟨2, ![n, c]⟩ : Shape).size a : Int) := by
        intro hall
        have h0 := hall 0
        rw [hstart0, hwin0, hsz0] at h0
        exact h (by omega)
      rw [dif_neg hnall, dif_neg h]
      constructor
      · intro hf; cases hf
      · rintro ⟨hf, _⟩; cases hf
  unfold Ideal.hostScatterAdd
  refine congrArg (x (ix2 p k) + ·) ?_
  rw [Finset.sum_filter, Finset.sum_filter, sum_idx2]
  refine Finset.sum_congr rfl (fun e _ => ?_)
  by_cases ht : tgtOf n idx e = some p
  · rw [if_pos ht, Finset.sum_eq_single k]
    · rw [if_pos ((key e k).mpr ⟨ht, rfl⟩)]
    · intro k' _ hk'
      rw [if_neg (fun hh => hk' ((key e k').mp hh).2)]
    · intro hh
      exact absurd (Finset.mem_univ k) hh
  · rw [if_neg ht]
    refine Finset.sum_eq_zero (fun k' _ => ?_)
    rw [if_neg (fun hh => ht ((key e k').mp hh).1)]

/-- The same reading of the accumulating row scatter as a program spells it: at the exact instance the host's
    scatter-add is the sum above. -/
theorem scatterAdd_rows_at' {φ : FTy}
    (d : ScatterDims (⟨2, ![n, c]⟩ : Shape) (⟨2, ![m, 1]⟩ : Shape) (⟨2, ![m, c]⟩ : Shape))
    (huw : d.updateWindowDims = [1]) (hiw : d.insertedWindowDims = [0]) (hsd : d.scatterDimsToOperandDims = [0])
    (hiv : d.indexVectorDim = 1) (idx : IVec (⟨2, ![m, 1]⟩ : Shape) w)
    (x : (⟨2, ![n, c]⟩ : Shape).Idx → EReal) (u : (⟨2, ![m, c]⟩ : Shape).Idx → EReal) (p : Fin n) (k : Fin c) :
    Host.scatterAdd (F := Ideal) (φ := φ) d x idx u (ix2 p k)
      = x (ix2 p k) + ∑ e ∈ Finset.univ.filter (fun e => tgtOf n idx e = some p), u (ix2 e k) :=
  scatterAdd_rows_at d huw hiw hsd hiv idx x u p k

/-! ## Two columns built from one vector of words -/

/-- The column of a vector holds the vector's words: entry (e, 0) of the [m, 1] column of v is v at e. -/
theorem word_column (v : IVec (⟨1, ![m]⟩ : Shape) w)
    (hb : (⟨1, ![m]⟩ : Shape).BroadcastsInDim (⟨2, ![m, 1]⟩ : Shape) ![0]) (e : Fin m) :
    word (broadcastInDim (⟨2, ![m, 1]⟩ : Shape) ![0] hb v) e = (v (ix1 e)).toInt := by
  unfold word broadcastInDim
  refine congrArg (fun j => (v j).toInt) ?_
  funext a
  obtain rfl : a = 0 := Subsingleton.elim _ _
  refine Fin.ext ?_
  by_cases h1 : (⟨1, ![m]⟩ : Shape).size 0 = 1
  · rw [dif_pos h1]
    have hm : m = 1 := h1
    have := e.isLt
    show 0 = e.val
    omega
  · rw [dif_neg h1]
    rfl

/-- Where the word of v is non-negative, the column of v with the negative words shifted (v + cN where v < 0, v
    elsewhere) holds the word of v: the signed comparison with zero is false there, so the select keeps v. -/
theorem word_shifted_of_nonneg (v z cN : IVec (⟨1, ![m]⟩ : Shape) 32) (hz : ∀ i, z i = 0#32)
    (hb : (⟨1, ![m]⟩ : Shape).BroadcastsInDim (⟨2, ![m, 1]⟩ : Shape) ![0]) (e : Fin m)
    (h0 : 0 ≤ (v (ix1 e)).toInt) :
    word (broadcastInDim (⟨2, ![m, 1]⟩ : Shape) ![0] hb (select (cmpi .slt v z) (addi v cN) v)) e
      = (v (ix1 e)).toInt := by
  rw [word_column]
  refine congrArg BitVec.toInt ?_
  show Scalar.select (IntOp.cmpi .slt (v (ix1 e)) (z (ix1 e))) (addi v cN (ix1 e)) (v (ix1 e)) = v (ix1 e)
  have hc : IntOp.cmpi .slt (v (ix1 e)) (z (ix1 e)) = 0#1 := by
    rw [hz]
    show BitVec.ofBool ((v (ix1 e)).slt 0#32) = 0#1
    have hs : (v (ix1 e)).slt 0#32 = false := by
      rw [BitVec.slt_eq_decide]
      exact decide_eq_false (by rw [BitVec.toInt_zero]; omega)
    rw [hs]
    rfl
  rw [hc]
  exact select_zero _ _

/-- Where the column of v has a scatter target p, the shifted column's gather row is p: the target's word is p,
    which is non-negative, so the shifted column holds the same word, and a word inside [0, n) is its own row. -/
theorem rowOf_shifted_of_tgtOf (hn : 0 < n) (v z cN : IVec (⟨1, ![m]⟩ : Shape) 32) (hz : ∀ i, z i = 0#32)
    (hb : (⟨1, ![m]⟩ : Shape).BroadcastsInDim (⟨2, ![m, 1]⟩ : Shape) ![0]) {e : Fin m} {p : Fin n}
    (h : tgtOf n (broadcastInDim (⟨2, ![m, 1]⟩ : Shape) ![0] hb v) e = some p) :
    rowOf n hn (broadcastInDim (⟨2, ![m, 1]⟩ : Shape) ![0] hb (select (cmpi .slt v z) (addi v cN) v)) e = p := by
  have hw : (v (ix1 e)).toInt = (p.val : Int) := (word_column v hb e).symm.trans (word_of_tgtOf h)
  refine rowOf_of_word hn ?_
  rw [word_shifted_of_nonneg v z cN hz hb e (by omega)]
  exact hw

end Cert.Lib.IndexedRows
-- ==== Proof.LibScatterAdd.lean ====
/-
  An accumulating scatter of a vector of updates into a vector, read at an entry.

  The operand is a vector of length K, the updates a vector of length N, and the scatter indices an N × 1 array of
  words: update j carries the one index word idx[j, 0]. The scatter adds update j to the operand's entry whose
  position is that word READ AS A SIGNED INTEGER, and drops the update when the position is outside [0, K).
  Over the extended reals the result's entry i is therefore the operand's entry i plus the sum, over all N updates,
  of the updates whose index word, read signed, is i.
-/
import Idealize.ShloMosaic.PureOps.Ideal
import Idealize.ShloMosaic.PureOps.Contract
import Idealize.ShloMosaic.Lib.ValueIdx

noncomputable section

open scoped BigOperators

namespace Cert.LibScatterAdd

open Idealize.ShloMosaic Idealize.ShloMosaic.ValueIdx

/-- A rank-1 index set is its one coordinate's range. -/
def idxEquiv1 {n : Nat} : (⟨1, ![n]⟩ : Shape).Idx ≃ Fin n where
  toFun j := j 0
  invFun a := ix1 a
  left_inv j := (eq_ix1 j).symm
  right_inv _ := rfl

/-- A sum over a rank-1 index set is the sum over its coordinate. -/
theorem sum_idx1 {M : Type*} [AddCommMonoid M] {n : Nat} (f : (⟨1, ![n]⟩ : Shape).Idx → M) :
    ∑ j, f j = ∑ a : Fin n, f (ix1 a) := by
  rw [← Equiv.sum_comp (idxEquiv1 (n := n)).symm f]
  rfl

/-- The dimension numbers of the scatter: no window axes in the updates, the operand's one axis inserted, the one
    component of the index vector naming that axis, and the index vector along the indices' second axis. Their
    conditions `wf` are decided on a program's literal extents. -/
abbrev vecDims (K N : Nat) (wf : ScatterDims.WF ⟨1, ![K]⟩ ⟨2, ![N, 1]⟩ ⟨1, ![N]⟩ [] [0] [0] 1) :
    ScatterDims ⟨1, ![K]⟩ ⟨2, ![N, 1]⟩ ⟨1, ![N]⟩ where
  updateWindowDims := []
  insertedWindowDims := [0]
  scatterDimsToOperandDims := [0]
  indexVectorDim := 1
  wf := wf

/-- WHERE AN UPDATE LANDS: update `j` lands on entry `i` exactly when its index word, read signed, is `i`. -/
theorem resultIdx?_eq_some_iff {K N w : Nat} (wf : ScatterDims.WF ⟨1, ![K]⟩ ⟨2, ![N, 1]⟩ ⟨1, ![N]⟩ [] [0] [0] 1)
    (idx : IVec ⟨2, ![N, 1]⟩ w) (j : (⟨1, ![N]⟩ : Shape).Idx) (i : (⟨1, ![K]⟩ : Shape).Idx) :
    (vecDims K N wf).resultIdx? j idx = some i ↔ (idx (ix2 (j 0) (0 : Fin 1))).toInt = ((i 0).val : Int) := by
  have hstart : ∀ a, (vecDims K N wf).start j idx a + ((vecDims K N wf).window j a : Int)
      = (idx (ix2 (j 0) (0 : Fin 1))).toInt := by
    intro a
    obtain rfl : a = 0 := Subsingleton.elim _ _
    have hw : (vecDims K N wf).window j 0 = 0 := by
      unfold ScatterDims.window
      have hk : (0 : Fin (⟨1, ![K]⟩ : Shape).rank) ∉ (vecDims K N wf).sKept :=
        show (0 : Fin 1) ∉ (List.finRange 1).filter (fun a => a ∉ [(0 : Fin 1)]) by decide
      rw [dif_neg hk]
    unfold ScatterDims.start
    rw [dif_pos (show (0 : Fin 1) ∈ (vecDims K N wf).scatterDimsToOperandDims from List.mem_singleton.mpr rfl), hw]
    have hsi : (vecDims K N wf).siIdx j ⟨List.idxOf (0 : Fin 1) (vecDims K N wf).scatterDimsToOperandDims,
        List.idxOf_lt_length_iff.2 (List.mem_singleton.mpr rfl)⟩ = ix2 (j 0) (0 : Fin 1) := by
      funext b; refine Fin.ext ?_
      match b with
      | ⟨0, _⟩ => rfl
      | ⟨1, _⟩ => rfl
    rw [hsi]
    simp
  unfold ScatterDims.resultIdx?
  by_cases h : ∀ a, 0 ≤ (vecDims K N wf).start j idx a + ((vecDims K N wf).window j a : Int) ∧
      (vecDims K N wf).start j idx a + ((vecDims K N wf).window j a : Int) < ((⟨1, ![K]⟩ : Shape).size a : Int)
  · rw [dif_pos h]
    constructor
    · intro he
      have hv := congrArg Fin.val (congrFun (Option.some.inj he) 0)
      have h0 := (h 0).1
      simp only [hstart 0] at hv h0
      omega
    · intro he
      congr 1
      funext a
      obtain rfl : a = 0 := Subsingleton.elim _ _
      refine Fin.ext ?_
      show ((vecDims K N wf).start j idx 0 + ((vecDims K N wf).window j 0 : Int)).toNat = (i 0).val
      rw [hstart 0, he]
      simp
  · rw [dif_neg h]
    constructor
    · intro he; cases he
    · intro he
      exfalso; apply h
      intro a
      obtain rfl : a = 0 := Subsingleton.elim _ _
      rw [hstart 0, he]
      have hlt : (i 0).val < K := (i 0).isLt
      constructor
      · omega
      · show ((i 0).val : Int) < (K : Int)
        exact_mod_cast hlt

/-- THE SCATTER READ AT ENTRY `i`: over the extended reals, the operand's entry `i` plus the sum over all `N` updates
    of those whose index word, read signed, is `i` (every other update adds 0 to this entry). -/
theorem scatterAdd_vec_apply {φ : FTy} {K N w : Nat} (wf : ScatterDims.WF ⟨1, ![K]⟩ ⟨2, ![N, 1]⟩ ⟨1, ![N]⟩ [] [0] [0] 1)
    (x : FVec Ideal ⟨1, ![K]⟩ φ) (idx : IVec ⟨2, ![N, 1]⟩ w) (upd : FVec Ideal ⟨1, ![N]⟩ φ)
    (i : (⟨1, ![K]⟩ : Shape).Idx) :
    Host.scatterAdd (vecDims K N wf) x idx upd i
      = ((x i : EReal) + ∑ j : Fin N,
          if (idx (ix2 j (0 : Fin 1))).toInt = ((i 0).val : Int) then (upd (ix1 j) : EReal) else 0) := by
  show (x i : EReal) + ∑ j ∈ Finset.univ.filter (fun j => (vecDims K N wf).resultIdx? j idx = some i), upd j = _
  congr 1
  rw [Finset.sum_filter, sum_idx1]
  refine Finset.sum_congr rfl fun j _ => ?_
  have hj := resultIdx?_eq_some_iff wf idx (ix1 j) i
  by_cases hc : (idx (ix2 j (0 : Fin 1))).toInt = ((i 0).val : Int)
  · rw [if_pos hc, if_pos (hj.2 hc)]
  · rw [if_neg hc, if_neg (fun h => hc (hj.1 h))]

end Cert.LibScatterAdd

end
-- ==== Proof.RefEdges.lean ====
/-
  The graph part of the network, read entry by entry from the program's arrays.

  The chain graph is given by two vectors of 393214 index words, the sources and the targets of the directed edges:
  the edges r → r + 1, then the edges r + 1 → r, then the loops r → r. A node's degree is the number of edges that
  arrive at it (a sum of ones collected at the targets), its weight the reciprocal square root of the degree, and a
  convolution collects, at each edge's target, the product of the two end weights with the source's row, and adds a
  bias. Every index word is read as a signed integer; all of them lie inside the array, so the wrap-around of negative
  words and the clamping never act.
-/
import proofs.«169599_j67370857005464_2_alg».proof.Proof.Gen.ReferenceIdeal.Run
import proofs.«169599_j67370857005464_2_alg».proof.Proof.Spec
import proofs.«169599_j67370857005464_2_alg».proof.Proof.RefOps
import proofs.«169599_j67370857005464_2_alg».proof.Proof.LibIndexedRows
import proofs.«169599_j67370857005464_2_alg».proof.Proof.LibScatterAdd

noncomputable section

open scoped BigOperators

namespace Cert.ReferenceIdeal.Hand

open Cert.ReferenceIdeal Cert.ReferenceIdeal.Gen Cert.ReferenceIdeal.Value Idealize.ShloMosaic Idealize.ShloMosaic.TcCoe
  Idealize.SL.Sem Idealize.ShloMosaic.StableHlo Idealize.ShloMosaic.ValueIdx Cert.Lib.IndexedRows

/-! ## Index words as integers -/

/-- A number below 131072 written as a 32-bit word reads back, signed, as itself. -/
theorem toInt_ofNat_lt (n : Nat) (h : n < 131072) : (BitVec.ofNat 32 n).toInt = (n : Int) := by
  have hn : (BitVec.ofNat 32 n).toNat = n := by
    rw [BitVec.toNat_ofNat]; exact Nat.mod_eq_of_lt (by omega)
  rw [BitVec.toInt_eq_toNat_cond, hn]
  split <;> omega

/-- One plus such a word reads back as the number plus one. -/
theorem toInt_succ_ofNat_lt (n : Nat) (h : n < 131072) : (IntOp.addi 1#32 (BitVec.ofNat 32 n)).toInt = (n : Int) + 1 := by
  show (1#32 + BitVec.ofNat 32 n).toInt = _
  have hn : (1#32 + BitVec.ofNat 32 n).toNat = n + 1 := by
    bv_omega
  rw [BitVec.toInt_eq_toNat_cond, hn]
  split <;> omega

/-- Every edge's source is a node. -/
theorem srcE_lt (e : Fin 393214) : Spec.srcE e < 131072 := by
  unfold Spec.srcE
  have := e.isLt
  split_ifs <;> omega

/-- Every edge's target is a node. -/
theorem tgtE_lt (e : Fin 393214) : Spec.tgtE e < 131072 := by
  unfold Spec.tgtE
  have := e.isLt
  split_ifs <;> omega

/-- Three vectors of lengths 131071, 131071 and 131072 end to end, read at e: the piece whose span holds e. -/
theorem threePieces_at {α : Type} (h : Shape.Concatenates [S131071, S131071, S131072] S393214 0)
    (u0 u1 : S131071.Idx → α) (u2 : S131072.Idx → α) (e : Fin 393214) :
    concatenate S393214 0 [⟨S131071, u0⟩, ⟨S131071, u1⟩, ⟨S131072, u2⟩] h (ix1 e)
      = if h0 : e.val < 131071 then u0 (ix1 ⟨e.val, h0⟩)
        else if h1 : e.val < 262142 then u1 (ix1 ⟨e.val - 131071, by omega⟩)
        else u2 (ix1 ⟨e.val - 262142, by have := e.isLt; omega⟩) := by
  have he := e.isLt
  by_cases h0 : e.val < 131071
  · rw [dif_pos h0]
    refine concatenate_apply_piece 0 [⟨S131071, u0⟩, ⟨S131071, u1⟩, ⟨S131072, u2⟩] h (ix1 e) 0 (by show (0 : Nat) < 3; omega) S131071 u0 rfl rfl 0 rfl
      (ix1 ⟨e.val, h0⟩) ?_ ?_
    · intro b hb
      match b with
      | ⟨0, _⟩ => exact absurd rfl hb
    · show 0 + e.val = e.val
      omega
  · rw [dif_neg h0]
    by_cases h1 : e.val < 262142
    · rw [dif_pos h1]
      refine concatenate_apply_piece 0 [⟨S131071, u0⟩, ⟨S131071, u1⟩, ⟨S131072, u2⟩] h (ix1 e) 1 (by show (1 : Nat) < 3; omega) S131071 u1 rfl rfl 131071 rfl
        (ix1 ⟨e.val - 131071, by omega⟩) ?_ ?_
      · intro b hb
        match b with
        | ⟨0, _⟩ => exact absurd rfl hb
      · show 131071 + (e.val - 131071) = e.val
        omega
    · rw [dif_neg h1]
      refine concatenate_apply_piece 0 [⟨S131071, u0⟩, ⟨S131071, u1⟩, ⟨S131072, u2⟩] h (ix1 e) 2 (by show (2 : Nat) < 3; omega) S131072 u2 rfl rfl 262142 rfl
        (ix1 ⟨e.val - 262142, by omega⟩) ?_ ?_
      · intro b hb
        match b with
        | ⟨0, _⟩ => exact absurd rfl hb
      · show 262142 + (e.val - 262142) = e.val
        omega

/-- The program's vector of sources holds, at edge e, the source of e. -/
theorem srcWord (V0 : Valuation τ sig (Elt Ideal)) (e : Fin 393214) :
    (res_main_v155 (F := Ideal) V0 (ix1 e)).toInt = (Spec.srcE e : Int) := by
  have he := e.isLt
  unfold res_main_v155
  rw [threePieces_at]
  unfold Spec.srcE
  by_cases h0 : e.val < 131071
  · rw [dif_pos h0, if_pos h0]
    show (BitVec.ofNat 32 e.val).toInt = _
    exact toInt_ofNat_lt _ (by omega)
  · rw [dif_neg h0, if_neg h0]
    by_cases h1 : e.val < 262142
    · rw [dif_pos h1, if_pos h1]
      show (IntOp.addi 1#32 (BitVec.ofNat 32 (e.val - 131071))).toInt = _
      rw [toInt_succ_ofNat_lt _ (by omega)]
      omega
    · rw [dif_neg h1, if_neg h1]
      show (BitVec.ofNat 32 (e.val - 262142)).toInt = _
      exact toInt_ofNat_lt _ (by omega)

/-- The program's vector of targets holds, at edge e, the target of e. -/
theorem tgtWord (V0 : Valuation τ sig (Elt Ideal)) (e : Fin 393214) :
    (res_main_v156 (F := Ideal) V0 (ix1 e)).toInt = (Spec.tgtE e : Int) := by
  have he := e.isLt
  unfold res_main_v156
  rw [threePieces_at]
  unfold Spec.tgtE
  by_cases h0 : e.val < 131071
  · rw [dif_pos h0, if_pos h0]
    show (IntOp.addi 1#32 (BitVec.ofNat 32 e.val)).toInt = _
    rw [toInt_succ_ofNat_lt _ (by omega)]
    omega
  · rw [dif_neg h0, if_neg h0]
    by_cases h1 : e.val < 262142
    · rw [dif_pos h1, if_pos h1]
      show (BitVec.ofNat 32 (e.val - 131071)).toInt = _
      exact toInt_ofNat_lt _ (by omega)
    · rw [dif_neg h1, if_neg h1]
      show (BitVec.ofNat 32 (e.val - 262142)).toInt = _
      exact toInt_ofNat_lt _ (by omega)

/-! ## The two columns of index words a gather and a scatter read -/

/-- A vector of index words with 131072 added to the negative ones (none here is negative). -/
def selT (v : IVec S393214 32) : IVec S393214 32 :=
  select (cmpi .slt v (broadcastInDim S393214 ![] bcast_S_S393214 (constantI S_ 32 0#32)))
    (addi v (broadcastInDim S393214 ![] bcast_S_S393214 (constantI S_ 32 131072#32))) v

/-- A vector of index words as a one-column array. -/
def colT (v : IVec S393214 32) : IVec S393214x1 32 := broadcastInDim S393214x1 ![0] bcast_S393214_S393214x1_0 v

/-- Where the word of v at e is a node n, a gather through the shifted column reads row n. -/
theorem rowOf_sel (v : IVec S393214 32) (e : Fin 393214) (n : Nat) (hn : n < 131072)
    (hv : (v (ix1 e)).toInt = (n : Int)) :
    rowOf 131072 (by omega) (colT (selT v)) e = ⟨n, hn⟩ := by
  refine rowOf_of_word _ ?_
  exact (word_shifted_of_nonneg v (broadcastInDim S393214 ![] bcast_S_S393214 (constantI S_ 32 0#32))
    (broadcastInDim S393214 ![] bcast_S_S393214 (constantI S_ 32 131072#32)) (fun _ => rfl)
    bcast_S393214_S393214x1_0 e (by omega)).trans hv

/-- Where the word of v at e is a node n, a scatter through the column writes row p exactly when n = p. -/
theorem tgtOf_col_iff (v : IVec S393214 32) (e : Fin 393214) (n : Nat) (hn : n < 131072)
    (hv : (v (ix1 e)).toInt = (n : Int)) (p : Fin 131072) :
    tgtOf 131072 (colT v) e = some p ↔ n = p.val := by
  have hw : word (colT v) e = (n : Int) := (word_column v _ e).trans hv
  have hc : 0 ≤ word (colT v) e ∧ word (colT v) e < ((131072 : Nat) : Int) := by
    rw [hw]; constructor <;> omega
  unfold tgtOf
  rw [dif_pos hc]
  constructor
  · intro h
    have hv' : (word (colT v) e).toNat = p.val := congrArg Fin.val (Option.some.inj h)
    omega
  · intro h
    refine congrArg some (Fin.ext ?_)
    show (word (colT v) e).toNat = p.val
    omega

/-! ## The degree weights -/

/-- The reciprocal square roots of the degrees: ones collected at the targets, then rsqrt. -/
def dinvT (tgt : IVec S393214 32) : FVec Ideal S131072 .f32 :=
  Host.rsqrt (Host.scatterAdd scatter_S131072_S393214x1_S393214_n_0_0_1
    (broadcastInDim S131072 ![] bcast_S_S131072 (constant (F := Ideal) S_ .f32 0x00000000#32)) (colT tgt)
    (broadcastInDim S393214 ![] bcast_S_S393214 (constant (F := Ideal) S_ .f32 0x3F800000#32)))

/-- The reciprocal square root of an array reads, at an entry, that of the entry. -/
theorem rsqrt_at {s : Shape} (v : FVec Ideal s .f32) (i : s.Idx) : Host.rsqrt v i = Ideal.rsqrt (v i) := rfl

/-- At node r: the weight of r. -/
theorem dinvT_at (tgt : IVec S393214 32) (htgt : ∀ e, (tgt (ix1 e)).toInt = (Spec.tgtE e : Int)) (r : Fin 131072) :
    dinvT tgt (ix1 r) = Spec.dinvE r.val := by
  have hrec : scatter_S131072_S393214x1_S393214_n_0_0_1
      = Cert.LibScatterAdd.vecDims 131072 393214 scatter_S131072_S393214x1_S393214_n_0_0_1_wf := rfl
  unfold dinvT Spec.dinvE Spec.degE
  rw [rsqrt_at, hrec, Cert.LibScatterAdd.scatterAdd_vec_apply, zeros_at]
  refine congrArg (fun t => Ideal.rsqrt (0 + t)) (Finset.sum_congr rfl fun e _ => ?_)
  have hw : (colT tgt (ix2 e (0 : Fin 1))).toInt = (Spec.tgtE e : Int) := (word_column tgt _ e).trans (htgt e)
  have hcond : ((Spec.tgtE e : Int) = (((ix1 r : S131072.Idx) 0).val : Int)) ↔ Spec.tgtE e = r.val := by
    show ((Spec.tgtE e : Int) = (r.val : Int)) ↔ _
    omega
  rw [hw, ones_at]
  by_cases h : Spec.tgtE e = r.val
  · rw [if_pos h, if_pos (hcond.mpr h)]
  · rw [if_neg h, if_neg (fun h' => h (hcond.mp h'))]

/-! ## One convolution -/

/-- The edges' messages: at (e, j), the product of the two end weights of e times the source's row at j. -/
def msgT {C : Nat} (gr : GatherDims ⟨2, ![131072, C]⟩ S393214x1 ⟨2, ![393214, C]⟩)
    (hc2 : S393214x1.BroadcastsInDim ⟨2, ![393214, C]⟩ ![0, 1])
    (dinv : FVec Ideal S131072 .f32) (src tgt : IVec S393214 32) (xw : FVec Ideal ⟨2, ![131072, C]⟩ .f32) :
    FVec Ideal ⟨2, ![393214, C]⟩ .f32 :=
  mulf (broadcastInDim ⟨2, ![393214, C]⟩ ![0, 1] hc2 (broadcastInDim S393214x1 ![0] bcast_S393214_S393214x1_0
      (mulf (Host.gather gather_S131072_S393214x1_S393214_n_0_n_n_0_1_1 dinv (colT (selT src)))
        (Host.gather gather_S131072_S393214x1_S393214_n_0_n_n_0_1_1 dinv (colT (selT tgt))))))
    (Host.gather gr xw (colT (selT src)))

/-- A message at (e, j). -/
theorem msgT_at {C : Nat} (gr : GatherDims ⟨2, ![131072, C]⟩ S393214x1 ⟨2, ![393214, C]⟩)
    (hod : gr.offsetDims = [1]) (hcs : gr.collapsedSliceDims = [0]) (hob : gr.operandBatchingDims = [])
    (hsb : gr.startIndicesBatchingDims = []) (hsm : gr.startIndexMap = [0]) (hiv : gr.indexVectorDim = 1)
    (hc2 : S393214x1.BroadcastsInDim ⟨2, ![393214, C]⟩ ![0, 1])
    (dinv : FVec Ideal S131072 .f32) (src tgt : IVec S393214 32) (xw : FVec Ideal ⟨2, ![131072, C]⟩ .f32)
    (xwS : Nat → Fin C → EReal)
    (hsrc : ∀ e, (src (ix1 e)).toInt = (Spec.srcE e : Int)) (htgt : ∀ e, (tgt (ix1 e)).toInt = (Spec.tgtE e : Int))
    (hdinv : ∀ r : Fin 131072, dinv (ix1 r) = Spec.dinvE r.val)
    (hxw : ∀ (r : Fin 131072) (j : Fin C), xw (ix2 r j) = xwS r.val j) (e : Fin 393214) (j : Fin C) :
    msgT gr hc2 dinv src tgt xw (ix2 e j) = Spec.normE e * xwS (Spec.srcE e) j := by
  unfold msgT
  rw [mulf_apply, colScale_at, mulf_apply,
    gather_vec_at _ rfl rfl rfl rfl rfl rfl (by omega) (colT (selT src)) dinv e,
    gather_vec_at _ rfl rfl rfl rfl rfl rfl (by omega) (colT (selT tgt)) dinv e,
    gather_rows_at gr hod hcs hob hsb hsm hiv (by omega) (colT (selT src)) xw e j,
    rowOf_sel src e _ (srcE_lt e) (hsrc e), rowOf_sel tgt e _ (tgtE_lt e) (htgt e), hdinv, hdinv, hxw]
  rfl

/-- One convolution's array: the messages collected at the targets into zeros, plus the bias. -/
def convT {C : Nat} (gr : GatherDims ⟨2, ![131072, C]⟩ S393214x1 ⟨2, ![393214, C]⟩)
    (sc : ScatterDims ⟨2, ![131072, C]⟩ S393214x1 ⟨2, ![393214, C]⟩)
    (hz : S_.BroadcastsInDim ⟨2, ![131072, C]⟩ ![])
    (hc2 : S393214x1.BroadcastsInDim ⟨2, ![393214, C]⟩ ![0, 1])
    (hb1 : (⟨1, ![C]⟩ : Shape).BroadcastsInDim ⟨2, ![1, C]⟩ ![1])
    (hb2 : (⟨2, ![1, C]⟩ : Shape).BroadcastsInDim ⟨2, ![131072, C]⟩ ![0, 1])
    (dinv : FVec Ideal S131072 .f32) (src tgt : IVec S393214 32) (xw : FVec Ideal ⟨2, ![131072, C]⟩ .f32)
    (b : FVec Ideal ⟨1, ![C]⟩ .f32) : FVec Ideal ⟨2, ![131072, C]⟩ .f32 :=
  addf (Host.scatterAdd sc (broadcastInDim ⟨2, ![131072, C]⟩ ![] hz (constant (F := Ideal) S_ .f32 0x00000000#32))
      (colT tgt) (msgT gr hc2 dinv src tgt xw))
    (broadcastInDim ⟨2, ![131072, C]⟩ ![0, 1] hb2 (broadcastInDim ⟨2, ![1, C]⟩ ![1] hb1 b))

/-- One convolution at (p, j): the sum over the edges arriving at p of the edge's weight times the source's row,
    plus the bias. -/
theorem convT_at {C : Nat} (gr : GatherDims ⟨2, ![131072, C]⟩ S393214x1 ⟨2, ![393214, C]⟩)
    (hod : gr.offsetDims = [1]) (hcs : gr.collapsedSliceDims = [0]) (hob : gr.operandBatchingDims = [])
    (hsb : gr.startIndicesBatchingDims = []) (hsm : gr.startIndexMap = [0]) (hiv : gr.indexVectorDim = 1)
    (sc : ScatterDims ⟨2, ![131072, C]⟩ S393214x1 ⟨2, ![393214, C]⟩)
    (huw : sc.updateWindowDims = [1]) (hiw : sc.insertedWindowDims = [0]) (hsd : sc.scatterDimsToOperandDims = [0])
    (hsiv : sc.indexVectorDim = 1)
    (hz : S_.BroadcastsInDim ⟨2, ![131072, C]⟩ ![])
    (hc2 : S393214x1.BroadcastsInDim ⟨2, ![393214, C]⟩ ![0, 1])
    (hb1 : (⟨1, ![C]⟩ : Shape).BroadcastsInDim ⟨2, ![1, C]⟩ ![1])
    (hb2 : (⟨2, ![1, C]⟩ : Shape).BroadcastsInDim ⟨2, ![131072, C]⟩ ![0, 1])
    (dinv : FVec Ideal S131072 .f32) (src tgt : IVec S393214 32) (xw : FVec Ideal ⟨2, ![131072, C]⟩ .f32)
    (b : FVec Ideal ⟨1, ![C]⟩ .f32) (xwS : Nat → Fin C → EReal) (bS : Fin C → EReal)
    (hsrc : ∀ e, (src (ix1 e)).toInt = (Spec.srcE e : Int)) (htgt : ∀ e, (tgt (ix1 e)).toInt = (Spec.tgtE e : Int))
    (hdinv : ∀ r : Fin 131072, dinv (ix1 r) = Spec.dinvE r.val)
    (hxw : ∀ (r : Fin 131072) (j : Fin C), xw (ix2 r j) = xwS r.val j) (hb : ∀ j, b (ix1 j) = bS j)
    (p : Fin 131072) (j : Fin C) :
    convT gr sc hz hc2 hb1 hb2 dinv src tgt xw b (ix2 p j) = Spec.aggE xwS bS p.val j := by
  unfold convT Spec.aggE
  rw [addf_apply, rowBias_at, scatterAdd_rows_at' sc huw hiw hsd hsiv, zeros_at, hb]
  refine congrArg (fun t => (0 + t) + bS j) ?_
  rw [Finset.sum_filter, Finset.sum_filter]
  refine Finset.sum_congr rfl fun e _ => ?_
  have hiff := tgtOf_col_iff tgt e _ (tgtE_lt e) (htgt e) p
  by_cases ht : Spec.tgtE e = p.val
  · rw [if_pos ht, if_pos (hiff.mpr ht)]
    exact msgT_at gr hod hcs hob hsb hsm hiv hc2 dinv src tgt xw xwS hsrc htgt hdinv hxw e j
  · rw [if_neg ht, if_neg (fun h => ht (hiff.mp h))]

end Cert.ReferenceIdeal.Hand

end
-- ==== Proof.RefValue.lean ====
/-
  The whole network read at one entry of the program's result.

  The result is the dense layer on the second convolution, which collects along the edges the projection of the first
  convolution, which collects along the edges the projection of the two recurrent layers. Each stage at an entry is
  the matching stage of the edge-sum spelling of the network at that entry.
-/
import proofs.«169599_j67370857005464_2_alg».proof.Proof.RefRows
import proofs.«169599_j67370857005464_2_alg».proof.Proof.RefEdges

noncomputable section

open scoped BigOperators

namespace Cert.ReferenceIdeal.Hand

open Cert.ReferenceIdeal Cert.ReferenceIdeal.Gen Cert.ReferenceIdeal.Value Idealize.ShloMosaic Idealize.ShloMosaic.TcCoe
  Idealize.SL.Sem Idealize.ShloMosaic.StableHlo Idealize.ShloMosaic.ValueIdx

/-- The first convolution's array. -/
def g1T (V0 : Valuation τ sig (Elt Ideal)) : FVec Ideal S131072x128 .f32 :=
  convT gather_S131072x128_S393214x1_S393214x128_1_0_n_n_0_1_1128 scatter_S131072x128_S393214x1_S393214x128_1_0_0_1
    bcast_S_S131072x128 bcast_S393214x1_S393214x128_0_1 bcast_S128_S1x128_1 bcast_S1x128_S131072x128_0_1
    (dinvT (res_main_v156 V0)) (res_main_v155 V0) (res_main_v156 V0) (xw1T V0) (V0 (Proc.devRef .tc main_arg14))

/-- The first convolution at (p, j). -/
theorem g1T_at (V0 : Valuation τ sig (Elt Ideal)) (p : Fin 131072) (j : Fin 128) :
    g1T V0 (ix2 p j) = Spec.g1E (paramsAt V0) (rowsAt V0) p.val j := by
  unfold g1T Spec.g1E
  exact convT_at gather_S131072x128_S393214x1_S393214x128_1_0_n_n_0_1_1128 rfl rfl rfl rfl rfl rfl
    scatter_S131072x128_S393214x1_S393214x128_1_0_0_1 rfl rfl rfl rfl _ _ _ _ _ _ _ _ _
    (fun r j => Spec.xw1 (paramsAt V0) (rowsAt V0 r) j) (paramsAt V0).bg1
    (srcWord V0) (tgtWord V0) (dinvT_at _ (tgtWord V0)) (fun r j => xw1T_at V0 r j) (fun _ => rfl) p j

/-- The second convolution's projection. -/
def xw2T (V0 : Valuation τ sig (Elt Ideal)) : FVec Ideal S131072x64 .f32 :=
  Host.dotGeneral (φ₂ := .f32) dot_S131072x128_S128x64_S131072x64_1_0_0_1_n_n none (g1T V0) (V0 (Proc.devRef .tc main_arg15))

/-- The second projection at (r, k). -/
theorem xw2T_at (V0 : Valuation τ sig (Elt Ideal)) (r : Fin 131072) (k : Fin 64) :
    xw2T V0 (ix2 r k) = Spec.xw2E (paramsAt V0) (rowsAt V0) r.val k := by
  unfold xw2T Spec.xw2E
  refine (product_at _ (g1T V0) (V0 (Proc.devRef .tc main_arg15)) r k).trans ?_
  refine Finset.sum_congr rfl fun j _ => ?_
  rw [g1T_at]
  rfl

/-- The second convolution's array. -/
def g2T (V0 : Valuation τ sig (Elt Ideal)) : FVec Ideal S131072x64 .f32 :=
  convT gather_S131072x64_S393214x1_S393214x64_1_0_n_n_0_1_164 scatter_S131072x64_S393214x1_S393214x64_1_0_0_1
    bcast_S_S131072x64 bcast_S393214x1_S393214x64_0_1 bcast_S64_S1x64_1 bcast_S1x64_S131072x64_0_1
    (dinvT (res_main_v156 V0)) (res_main_v155 V0) (res_main_v156 V0) (xw2T V0) (V0 (Proc.devRef .tc main_arg16))

/-- The second convolution at (p, k). -/
theorem g2T_at (V0 : Valuation τ sig (Elt Ideal)) (p : Fin 131072) (k : Fin 64) :
    g2T V0 (ix2 p k) = Spec.g2E (paramsAt V0) (rowsAt V0) p.val k := by
  unfold g2T Spec.g2E
  exact convT_at gather_S131072x64_S393214x1_S393214x64_1_0_n_n_0_1_164 rfl rfl rfl rfl rfl rfl
    scatter_S131072x64_S393214x1_S393214x64_1_0_0_1 rfl rfl rfl rfl _ _ _ _ _ _ _ _ _
    (Spec.xw2E (paramsAt V0) (rowsAt V0)) (paramsAt V0).bg2
    (srcWord V0) (tgtWord V0) (dinvT_at _ (tgtWord V0)) (fun r k => xw2T_at V0 r k) (fun _ => rfl) p k

/-- The result's array: the dense layer on the second convolution. -/
def outT (V0 : Valuation τ sig (Elt Ideal)) : FVec Ideal S131072x10 .f32 :=
  addf (Host.dotGeneral (φ₂ := .f32) dot_S131072x64_S64x10_S131072x10_1_0_0_1_n_n none (g2T V0) (V0 (Proc.devRef .tc main_arg17)))
    (broadcastInDim S131072x10 ![0, 1] bcast_S1x10_S131072x10_0_1 (broadcastInDim S1x10 ![1] bcast_S10_S1x10_1
      (V0 (Proc.devRef .tc main_arg18))))

/-- The result's array at (p, q). -/
theorem outT_at (V0 : Valuation τ sig (Elt Ideal)) (p : Fin 131072) (q : Fin 10) :
    outT V0 (ix2 p q) = Spec.outE (paramsAt V0) (rowsAt V0) p.val q := by
  unfold outT Spec.outE
  rw [addf_apply, rowBias_at]
  refine congrArg₂ (· + ·) ?_ rfl
  refine (product_at _ (g2T V0) (V0 (Proc.devRef .tc main_arg17)) p q).trans ?_
  refine Finset.sum_congr rfl fun k _ => ?_
  rw [g2T_at]
  rfl

/-- The program's composed term for its result is the array above. -/
theorem val5_eq (V0 : Valuation τ sig (Elt Ideal)) :
    Value.val5 V0 (Proc.devRef .tc main_v234) = outT V0 :=
  (Value.val5_main_v234 V0).trans rfl

/-- THE REFERENCE'S VALUE at (p, q): the edge-sum spelling of the network on the argument arrays. -/
theorem result_eq (V0 : Valuation τ sig (Elt Ideal)) (p : Fin 131072) (q : Fin 10) :
    Value.val5 V0 (Proc.devRef .tc main_v234) (ix2 p q) = Spec.outE (paramsAt V0) (rowsAt V0) p.val q := by
  rw [val5_eq]
  exact outT_at V0 p q

/-- The same, for whatever term the result is known to equal (the run's composed term). -/
theorem result_eq_of (V0 : Valuation τ sig (Elt Ideal))
    (T : (Proc.devRef .tc main_v234 : DevRef τ sig).ty.Contents (Elt Ideal))
    (hT : Value.val5 V0 (Proc.devRef .tc main_v234) = T) (p : Fin 131072) (q : Fin 10) :
    T (ix2 p q) = Spec.outE (paramsAt V0) (rowsAt V0) p.val q := by
  subst hT
  exact result_eq V0 p q

end Cert.ReferenceIdeal.Hand

end
-- ==== Proof.SpecEdge.lean ====
/-
  The convolution as a sum over the chain graph's directed edges is the three-term stencil.

  The 393214 edges come in three runs: e < 131071 is the edge e → e+1, the next 131071 are e'+1 → e', the last
  131072 are the loops r → r. The edges arriving at a node r are therefore at most one from each run — from r−1 (when
  r > 0), from r+1 (when r < 131071), and the loop — so a sum over the edges arriving at r is a sum of at most
  three terms, the degree (the count of arriving edges) is 2 at the two ends and 3 inside, and the weighted sum of
  the sources' rows is the stencil. Addition and multiplication on the extended reals are commutative and
  associative, and that is all the rearrangement uses.
-/
import proofs.«169599_j67370857005464_2_alg».proof.Proof.Spec

noncomputable section

namespace Cert.Spec

/-- Source and target of the edge with number `i`, on the natural numbers. -/
def srcN (i : Nat) : Nat := if i < 131071 then i else if i < 262142 then i - 131071 + 1 else i - 262142
def tgtN (i : Nat) : Nat := if i < 131071 then i + 1 else if i < 262142 then i - 131071 else i - 262142

theorem srcE_eq (e : Fin 393214) : srcE e = srcN e.val := rfl
theorem tgtE_eq (e : Fin 393214) : tgtE e = tgtN e.val := rfl

/-- A sum over a range of a + b + c numbers, run by run. -/
theorem sum_three {A : Type*} [AddCommMonoid A] (F : Nat → A) (a b c : Nat) :
    ∑ i ∈ Finset.range (a + b + c), F i
      = (∑ i ∈ Finset.range a, F i + ∑ i ∈ Finset.range b, F (a + i)) + ∑ i ∈ Finset.range c, F (a + b + i) := by
  rw [Finset.sum_range_add, Finset.sum_range_add]

/-- A sum over the edges arriving at `r` has at most three terms: the edge from r−1, the edge from r+1, the loop. -/
theorem edge_sum {A : Type*} [AddCommMonoid A] (g : Nat → A) (r : Nat) (hr : r < 131072) :
    ∑ e : Fin 393214, (if tgtN e.val = r then g e.val else 0)
      = (if 0 < r then g (r - 1) else 0) + (if r < 131071 then g (131071 + r) else 0) + g (262142 + r) := by
  have hsplit := sum_three (fun i => if tgtN i = r then g i else 0) 131071 131071 131072
  rw [show (131071 + 131071 + 131072 : Nat) = 393214 by norm_num] at hsplit
  rw [← Finset.sum_range (fun i => if tgtN i = r then g i else 0), hsplit]
  refine congrArg₂ (· + ·) (congrArg₂ (· + ·) ?_ ?_) ?_
  · -- the run e → e+1
    rw [Finset.sum_congr rfl (g := fun x => if x + 1 = r then g x else 0)
      (fun x hx => by rw [Finset.mem_range] at hx; simp only [tgtN, if_pos hx])]
    by_cases h0 : 0 < r
    · rw [if_pos h0, Finset.sum_congr rfl (g := fun x => if x = r - 1 then g x else 0)
        (fun x _ => if_congr ⟨fun h => by omega, fun h => by omega⟩ rfl rfl), Finset.sum_ite_eq',
        if_pos (Finset.mem_range.mpr (by omega))]
    · rw [if_neg h0]
      exact Finset.sum_eq_zero fun x _ => if_neg (by omega)
  · -- the run e'+1 → e'
    rw [Finset.sum_congr rfl (g := fun x => if x = r then g (131071 + x) else 0)
      (fun x hx => by
        rw [Finset.mem_range] at hx
        have h1 : ¬ 131071 + x < 131071 := by omega
        have h2 : 131071 + x < 262142 := by omega
        simp only [tgtN, if_neg h1, if_pos h2, Nat.add_sub_cancel_left]), Finset.sum_ite_eq']
    by_cases hM : r < 131071
    · rw [if_pos hM, if_pos (Finset.mem_range.mpr hM)]
    · rw [if_neg hM, if_neg (by rw [Finset.mem_range]; exact hM)]
  · -- the loops
    rw [Finset.sum_congr rfl (g := fun x => if x = r then g (131071 + 131071 + x) else 0)
      (fun x hx => by
        have h1 : ¬ 131071 + 131071 + x < 131071 := by omega
        have h2 : ¬ 131071 + 131071 + x < 262142 := by omega
        have h3 : 131071 + 131071 + x - 262142 = x := by omega
        simp only [tgtN, if_neg h1, if_neg h2, h3]), Finset.sum_ite_eq',
      if_pos (Finset.mem_range.mpr hr)]

/-- The count of arriving edges is the degree. -/
theorem degE_eq (r : Nat) (hr : r < 131072) : degE r = deg r := by
  unfold degE deg
  rw [Finset.sum_congr rfl (g := fun e : Fin 393214 => if tgtN e.val = r then (fun _ : Nat => (1 : EReal)) e.val else 0)
    (fun e _ => by rw [tgtE_eq]), edge_sum (fun _ : Nat => (1 : EReal)) r hr, zero_add]
  by_cases h0 : r = 0
  · subst h0
    rw [if_neg (by omega), if_pos (by omega), if_pos (Or.inl rfl), zero_add, one_add_one_eq_two]
  · by_cases hM : r = 131071
    · subst hM
      rw [if_pos (by omega), if_neg (by omega), if_pos (Or.inr rfl), add_zero, one_add_one_eq_two]
    · rw [if_pos (by omega), if_pos (by omega), if_neg (by omega), one_add_one_eq_two, two_add_one_eq_three]

theorem dinvE_eq (r : Nat) (hr : r < 131072) : dinvE r = dinv r := by unfold dinvE dinv; rw [degE_eq r hr]

/-- The weighted sum over the arriving edges, plus the bias, is the stencil. -/
theorem aggE_eq {C : Nat} (xw : Nat → Fin C → EReal) (b : Fin C → EReal) (r : Nat) (hr : r < 131072) (j : Fin C) :
    aggE xw b r j = stencil xw b r j := by
  unfold aggE stencil
  have hsum : (∑ a : Fin 393214, if tgtE a = r then normE a * xw (srcE a) j else 0)
      = ∑ e : Fin 393214, if tgtN e.val = r
          then (fun i : Nat => dinvE (srcN i) * dinvE (tgtN i) * xw (srcN i) j) e.val else 0 :=
    Finset.sum_congr rfl (fun e _ => rfl)
  rw [Finset.sum_filter, hsum, edge_sum (fun i : Nat => dinvE (srcN i) * dinvE (tgtN i) * xw (srcN i) j) r hr, zero_add]
  have hloop : dinvE (srcN (262142 + r)) * dinvE (tgtN (262142 + r)) * xw (srcN (262142 + r)) j
      = dinv r * dinv r * xw r j := by
    have h1 : ¬ 262142 + r < 131071 := by omega
    have h2 : ¬ 262142 + r < 262142 := by omega
    simp only [srcN, tgtN, if_neg h1, if_neg h2, Nat.add_sub_cancel_left, dinvE_eq r hr]
  have hleft : 0 < r → dinvE (srcN (r - 1)) * dinvE (tgtN (r - 1)) * xw (srcN (r - 1)) j
      = dinv r * dinv (r - 1) * xw (r - 1) j := by
    intro h0
    have h1 : r - 1 < 131071 := by omega
    have h2 : r - 1 + 1 = r := by omega
    simp only [srcN, tgtN, if_pos h1, h2, dinvE_eq r hr, dinvE_eq (r - 1) (by omega)]
    rw [mul_comm (dinv (r - 1)) (dinv r)]
  have hright : r < 131071 → dinvE (srcN (131071 + r)) * dinvE (tgtN (131071 + r)) * xw (srcN (131071 + r)) j
      = dinv r * dinv (r + 1) * xw (r + 1) j := by
    intro hM
    have h1 : ¬ 131071 + r < 131071 := by omega
    have h2 : 131071 + r < 262142 := by omega
    simp only [srcN, tgtN, if_neg h1, if_pos h2, Nat.add_sub_cancel_left, dinvE_eq r hr, dinvE_eq (r + 1) (by omega)]
    rw [mul_comm (dinv (r + 1)) (dinv r)]
  rw [hloop]
  by_cases h0 : 0 < r <;> by_cases hM : r < 131071
  · rw [if_pos h0, if_pos hM, if_pos h0, if_pos hM, hleft h0, hright hM]; ac_rfl
  · rw [if_pos h0, if_neg hM, if_pos h0, if_neg hM, hleft h0]; ac_rfl
  · rw [if_neg h0, if_pos hM, if_neg h0, if_pos hM, hright hM]; ac_rfl
  · rw [if_neg h0, if_neg hM, if_neg h0, if_neg hM]; ac_rfl

/-- The stencil at row `r` reads its data at rows r−1 (when r > 0), r and r+1 (when r < 131071) only. -/
theorem stencil_congr {C : Nat} (xw xw' : Nat → Fin C → EReal) (b : Fin C → EReal) (r : Nat) (j : Fin C)
    (h0 : xw r j = xw' r j) (hL : 0 < r → xw (r - 1) j = xw' (r - 1) j)
    (hR : r < 131071 → xw (r + 1) j = xw' (r + 1) j) : stencil xw b r j = stencil xw' b r j := by
  unfold stencil
  rw [h0]
  by_cases hl : 0 < r <;> by_cases hm : r < 131071
  · rw [if_pos hl, if_pos hl, if_pos hm, if_pos hm, hL hl, hR hm]
  · rw [if_pos hl, if_pos hl, if_neg hm, if_neg hm, hL hl]
  · rw [if_neg hl, if_neg hl, if_pos hm, if_pos hm, hR hm]
  · rw [if_neg hl, if_neg hl, if_neg hm, if_neg hm]

/-- The edge-sum spelling of the whole network is the stencil spelling, at every row of the array. -/
theorem outE_eq (P : Params) (x : Nat → Fin 128 → EReal) (r : Nat) (hr : r < 131072) (q : Fin 10) :
    outE P x r q = out P x r q := by
  have h1 : ∀ s, s < 131072 → ∀ j, g1E P x s j = g1 P x s j := fun s hs j => aggE_eq _ _ s hs j
  have h2 : ∀ s, s < 131072 → ∀ k, xw2E P x s k = xw2 P x s k := fun s hs k => by
    unfold xw2E xw2; exact Finset.sum_congr rfl fun j _ => by rw [h1 s hs j]
  have h3 : ∀ k, g2E P x r k = g2 P x r k := fun k => by
    unfold g2E g2
    rw [aggE_eq _ _ r hr k]
    exact stencil_congr _ _ _ r k (h2 r hr k) (fun _ => h2 (r - 1) (by omega) k) (fun _ => h2 (r + 1) (by omega) k)
  unfold outE out
  exact congrArg (· + P.bfc q) (Finset.sum_congr rfl fun k _ => by rw [h3 k])

end Cert.Spec

end
-- ==== Proof.RefRun.lean ====
/-
  The reference program's run, stated at the network's result function.

  Every weakly fair execution of the program ends with its result array holding, at every entry (p, q), the network's
  result at row p and column q of the parameters and rows its argument arrays give, and with the argument arrays
  unchanged. The result array's composed term is read entry by entry as the edge-sum spelling of the network, and the
  edge sums collapse to the neighbours of each row of the chain.
-/
import proofs.«169599_j67370857005464_2_alg».proof.Proof.RefValue
import proofs.«169599_j67370857005464_2_alg».proof.Proof.SpecEdge
import proofs.«169599_j67370857005464_2_alg».proof.Proof.SpecResult

noncomputable section

namespace Cert.ReferenceIdeal.Hand

open Cert.ReferenceIdeal Cert.ReferenceIdeal.Gen Cert.ReferenceIdeal.Value Idealize.ShloMosaic Idealize.ShloMosaic.TcCoe
  Idealize.SL.Sem Idealize.ShloMosaic.StableHlo Idealize.ShloMosaic.ValueIdx

/-- The result array, as a whole, is the network's result function of the argument arrays. -/
theorem val5_eq_G (V0 : Valuation τ sig (Elt Ideal)) :
    Value.val5 V0 (Proc.devRef .tc main_v234)
      = Cert.Spec.G (V0 (Proc.devRef .tc main_arg0))
      (V0 (Proc.devRef .tc main_arg1))
      (V0 (Proc.devRef .tc main_arg2))
      (V0 (Proc.devRef .tc main_arg3))
      (V0 (Proc.devRef .tc main_arg4))
      (V0 (Proc.devRef .tc main_arg5))
      (V0 (Proc.devRef .tc main_arg6))
      (V0 (Proc.devRef .tc main_arg7))
      (V0 (Proc.devRef .tc main_arg8))
      (V0 (Proc.devRef .tc main_arg9))
      (V0 (Proc.devRef .tc main_arg10))
      (V0 (Proc.devRef .tc main_arg11))
      (V0 (Proc.devRef .tc main_arg12))
      (V0 (Proc.devRef .tc main_arg13))
      (V0 (Proc.devRef .tc main_arg14))
      (V0 (Proc.devRef .tc main_arg15))
      (V0 (Proc.devRef .tc main_arg16))
      (V0 (Proc.devRef .tc main_arg17))
      (V0 (Proc.devRef .tc main_arg18)) := by
  funext y
  obtain ⟨p, q, rfl⟩ : ∃ (p : Fin 131072) (q : Fin 10), y = ix2 p q := ⟨y 0, y 1, eq_ix2 y⟩
  rw [result_eq, Cert.Spec.G_apply]
  exact Cert.Spec.outE_eq _ _ p.val p.isLt q

/-- The run: the result array ends at the network's result function of the argument arrays, which end unchanged. -/
theorem run_G (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v234) = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run (defs (F := Ideal)) _ _).mono (fun _ h c =>
      ⟨(h c).1.trans ((Value.val5_main_v234 (launchContents m c)).symm.trans (val5_eq_G (launchContents m c))), (h c).2⟩)
    (Value.run (F := Ideal) m ρ)

/-- The frame: every weakly fair execution ends, without a fault, with the argument arrays unchanged. -/
theorem frame_ri (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run (defs (F := Ideal)) _ _).mono (fun _ h c => (h c).2) (Value.run (F := Ideal) m ρ)

end Cert.ReferenceIdeal.Hand

end
-- ==== Proof.lean ====
/-
  The kernel and the reference compute the same network on the extended reals.

  THE NETWORK. For each of the 131072 rows of the input: two bidirectional GRU layers from a zero hidden state (a cell is
  (1 − z) · tanh(i_n + r · h_n) with logistic gates r and z; forward and backward cells side by side), then two graph
  convolutions on the chain graph 0 — 1 — … — 131071 with self loops, symmetrically normalised (degree 2 at the two ends,
  3 inside; the edge r — s weighs 1/sqrt(deg r · deg s)), then a dense layer to 10 columns.

  THE REFERENCE spells each convolution over the list of 393214 directed edges: the degree is a scatter-add of ones, the
  edge weights are gathered, the sources' rows are gathered, weighted and scatter-added at the targets. At most three
  edges arrive at a node — from its left neighbour, from its right neighbour, its loop — so each of those sums has at
  most three terms: the three-term stencil.

  THE KERNEL works tile by tile: 1024 rows with 8 halo rows before and after, all 1040 rows through both GRU layers
  (each layer's forward and backward weights fused into one [K, 768] matrix, which only re-indexes the sums), the
  convolutions by cyclic row rotations inside the tile, a neighbour switched off by an exact 0 factor where the row's
  label says the chain ends. A row's label is on the chain exactly when the tile holds that row of the input there,
  zero times anything is zero on the extended reals, and the rows the tile writes (local 8 … 1031) only reach rows
  7 … 1032 of the first convolution, which only reach rows 6 … 1033 of the GRU output: so the tile writes the
  stencil's values. The 128 tiles' blocks tile the result.

  Both programs therefore end at one function of the arguments (`Spec.G`). No law used needs finiteness: sums are
  re-indexed and re-grouped (commutativity and associativity), a · b · 1 = a · b, a · b · 0 · c = 0, and the host's
  1/(1 + exp(−v)) is the logistic function by definition; so the precondition is never opened.

  The kernel reads the one input array through three windows (the tile and its two halos), so the array's ownership is
  dealt among them for the launch; both kernel frames are proved on that launch, the reference's frame is its run.
-/
import proofs.«169599_j67370857005464_2_alg».proof.Defs
import proofs.«169599_j67370857005464_2_alg».proof.Proof.Gen.Kernel
import proofs.«169599_j67370857005464_2_alg».proof.Proof.Gen.KernelIdeal
import proofs.«169599_j67370857005464_2_alg».proof.Proof.Gen.ReferenceIdeal
import proofs.«169599_j67370857005464_2_alg».proof.Proof.Gen.Pre_finite_inputs
import proofs.«169599_j67370857005464_2_alg».proof.Proof.FrameBits
import proofs.«169599_j67370857005464_2_alg».proof.Proof.KValue
import proofs.«169599_j67370857005464_2_alg».proof.Proof.RefRun

noncomputable section

namespace Cert.Proof

open Idealize.ShloMosaic Idealize.SL.Sem

/-- Run from memories that agree on the nineteen arguments, both programs end with their result arrays at the
    network's result function of those arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.HandValue.Gk m c, Cert.KernelIdeal.HandValue.run_G m ρ, ?_⟩
  refine (θ_run Cert.ReferenceIdeal.defs _ _).mono (fun _ h c => ⟨(h c).1.trans ?_, (h c).2⟩)
    (Cert.ReferenceIdeal.Hand.run_G m' ρ')
  obtain ⟨h0, h1, h2, h3, h4, h5, h6, h7, h8, h9, h10, h11, h12, h13, h14, h15, h16, h17, h18⟩ := hagree c
  rw [h0, h1, h2, h3, h4, h5, h6, h7, h8, h9, h10, h11, h12, h13, h14, h15, h16, h17, h18]

theorem claim : Cert.Claim :=
  ⟨Cert.Kernel.Gen.facts, Cert.KernelIdeal.Gen.facts, Cert.ReferenceIdeal.Gen.facts, Cert.Pre_finite_inputs.Gen.facts,
    fun m ρ _ => Cert.Kernel.Hand.frame m ρ,
    fun m ρ _ => Cert.KernelIdeal.Hand.frame m ρ,
    fun m ρ _ => Cert.ReferenceIdeal.Hand.frame_ri m ρ,
    trivial,
    algebraic⟩

end Cert.Proof

end
